-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1200000 : Shape := ⟨1, ![1200000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S1200000 : S_.BroadcastsInDim S1200000 (![] : Fin 0 → Fin S1200000.rank)
  reducesTo_S1200000_S_d0 : S1200000.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S16x32 .f32) (main_arg12 : FVec F S16 .f32) (main_arg13 : FVec F S1200000 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x32 .f32 := Host.absf main_arg11
  let main_cst_20 : FVec F S_ .f32 := constant S_ .f32 0x7F800000#32
  let main_v55 : FVec F S16x32 .f32 := broadcastInDim S16x32 ![] bcast_S_S16x32 main_cst_20
  let main_v56 : IVec S16x32 1 := cmpf .olt main_v54 main_v55
  let main_c_21 : IVec S_ 1 := constantI S_ 1 1#1
  let main_v57 : IVec S_ 1 := (fun x v => Host.reduce IntOp.andi x v reducesTo_S16x32_S_d0_1 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S1200000 .f32 := Host.absf main_arg13
  let main_cst_24 : FVec F S_ .f32 := constant S_ .f32 0x7F800000#32
  let main_v65 : FVec F S1200000 .f32 := broadcastInDim S1200000 ![] bcast_S_S1200000 main_cst_24
  let main_v66 : IVec S1200000 1 := cmpf .olt main_v64 main_v65
  let main_c_25 : IVec S_ 1 := constantI S_ 1 1#1
  let main_v67 : IVec S_ 1 := (fun x v => Host.reduce IntOp.andi x v reducesTo_S1200000_S_d0 h_S_) main_v66 main_c_25
  fn_part4 (F := F) main_v63 main_v67

def fn_part2 {F : FTy → Type} [FloatOps F] (main_arg7 : FVec F S32x64 .f32) (main_arg8 : FVec F S32 .f32) (main_arg9 : FVec F S16x32 .f32) (main_arg10 : FVec F S16 .f32) (main_arg11 : FVec F S16x32 .f32) (main_arg12 : FVec F S16 .f32) (main_arg13 : FVec F S1200000 .f32) (main_v33 : IVec S_ 1) : IVec S_ 1 :=
  let main_v34 : FVec F S32x64 .f32 := Host.absf main_arg7
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S16x32 .f32 := Host.absf main_arg9
  let main_cst_16 : FVec F S_ .f32 := constant S_ .f32 0x7F800000#32
  let main_v45 : FVec F S16x32 .f32 := broadcastInDim S16x32 ![] bcast_S_S16x32 main_cst_16
  let main_v46 : IVec S16x32 1 := cmpf .olt main_v44 main_v45
  let main_c_17 : IVec S_ 1 := constantI S_ 1 1#1
  let main_v47 : IVec S_ 1 := (fun x v => Host.reduce IntOp.andi x v reducesTo_S16x32_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_arg11 main_arg12 main_arg13 main_v48 main_v49 main_v50

def fn_part1 {F : FTy → Type} [FloatOps F] (main_arg4 : FVec F S64 .f32) (main_arg5 : FVec F S32x64 .f32) (main_arg6 : FVec F S32 .f32) (main_arg7 : FVec F S32x64 .f32) (main_arg8 : FVec F S32 .f32) (main_arg9 : FVec F S16x32 .f32) (main_arg10 : FVec F S16 .f32) (main_arg11 : FVec F S16x32 .f32) (main_arg12 : FVec F S16 .f32) (main_arg13 : FVec F S1200000 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S32x64 .f32 := Host.absf main_arg5
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S100000x64 .f32) (main_arg1 : FVec F S64x64 .f32) (main_arg2 : FVec F S64 .f32) (main_arg3 : FVec F S64x64 .f32) (main_arg4 : FVec F S64 .f32) (main_arg5 : FVec F S32x64 .f32) (main_arg6 : FVec F S32 .f32) (main_arg7 : FVec F S32x64 .f32) (main_arg8 : FVec F S32 .f32) (main_arg9 : FVec F S16x32 .f32) (main_arg10 : FVec F S16 .f32) (main_arg11 : FVec F S16x32 .f32) (main_arg12 : FVec F S16 .f32) (main_arg13 : FVec F S1200000 .f32) (main_arg14 : IVec S1200000 32) (main_arg15 : IVec S1200000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_v13 main_v16
-- ==== Kernel.lean ====
abbrev S100000x64 : Shape := ⟨2, ![100000, 64]⟩
abbrev S64x64 : Shape := ⟨2, ![64, 64]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1200000 : Shape := ⟨1, ![1200000]⟩
abbrev S1200000x1 : Shape := ⟨2, ![1200000, 1]⟩
abbrev S_ : Shape := ⟨0, ![]⟩
abbrev S1200000x64 : Shape := ⟨2, ![1200000, 64]⟩
abbrev S1x64 : Shape := ⟨2, ![1, 64]⟩
abbrev S10000x64 : Shape := ⟨2, ![10000, 64]⟩
abbrev S10000 : Shape := ⟨1, ![10000]⟩
abbrev S10000x1 : Shape := ⟨2, ![10000, 1]⟩
abbrev S1x32 : Shape := ⟨2, ![1, 32]⟩
abbrev S100000x32 : Shape := ⟨2, ![100000, 32]⟩
abbrev S10000x32 : Shape := ⟨2, ![10000, 32]⟩
abbrev S64x32 : Shape := ⟨2, ![64, 32]⟩
abbrev S1200000x32 : Shape := ⟨2, ![1200000, 32]⟩
abbrev S1x16 : Shape := ⟨2, ![1, 16]⟩
abbrev S100000x16 : Shape := ⟨2, ![100000, 16]⟩
abbrev S10000x16 : Shape := ⟨2, ![10000, 16]⟩
abbrev S32x16 : Shape := ⟨2, ![32, 16]⟩
abbrev S100000x176 : Shape := ⟨2, ![100000, 176]⟩

abbrev nBuf : Space → Nat
  | .hbm => 77
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S32, .f32⟩
  | .hbm, ⟨9, _⟩ => ⟨S16x32, .f32⟩
  | .hbm, ⟨10, _⟩ => ⟨S16, .f32⟩
  | .hbm, ⟨11, _⟩ => ⟨S16x32, .f32⟩
  | .hbm, ⟨12, _⟩ => ⟨S16, .f32⟩
  | .hbm, ⟨13, _⟩ => ⟨S1200000, .f32⟩
  | .hbm, ⟨14, _⟩ => ⟨S1200000, .i32⟩
  | .hbm, ⟨15, _⟩ => ⟨S1200000, .i32⟩
  | .hbm, ⟨16, _⟩ => ⟨S1200000x1, .f32⟩
  | .hbm, ⟨17, _⟩ => ⟨S_, .i32⟩
  | .hbm, ⟨18, _⟩ => ⟨S1200000, .i32⟩
  | .hbm, ⟨19, _⟩ => ⟨S1200000, .i1⟩
  | .hbm, ⟨20, _⟩ => ⟨S_, .i32⟩
  | .hbm, ⟨21, _⟩ => ⟨S1200000, .i32⟩
  | .hbm, ⟨22, _⟩ => ⟨S1200000, .i32⟩
  | .hbm, ⟨23, _⟩ => ⟨S1200000, .i32⟩
  | .hbm, ⟨24, _⟩ => ⟨S1200000x1, .i32⟩
  | .hbm, ⟨25, _⟩ => ⟨S1200000x64, .f32⟩
  | .hbm, ⟨26, _⟩ => ⟨S1200000x64, .f32⟩
  | .hbm, ⟨27, _⟩ => ⟨S1200000x64, .f32⟩
  | .hbm, ⟨28, _⟩ => ⟨S_, .f32⟩
  | .hbm, ⟨29, _⟩ => ⟨S100000x64, .f32⟩
  | .hbm, ⟨30, _⟩ => ⟨S1200000x1, .i32⟩
  | .hbm, ⟨31, _⟩ => ⟨S100000x64, .f32⟩
  | .hbm, ⟨32, _⟩ => ⟨S1x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S1200000x1, .f32⟩
  | .hbm, ⟨37, _⟩ => ⟨S_, .i32⟩
  | .hbm, ⟨38, _⟩ => ⟨S1200000, .i32⟩
  | .hbm, ⟨39, _⟩ => ⟨S1200000, .i1⟩
  | .hbm, ⟨40, _⟩ => ⟨S_, .i32⟩
  | .hbm, ⟨41, _⟩ => ⟨S1200000, .i32⟩
  | .hbm, ⟨42, _⟩ => ⟨S1200000, .i32⟩
  | .hbm, ⟨43, _⟩ => ⟨S1200000, .i32⟩
  | .hbm, ⟨44, _⟩ => ⟨S1200000x1, .i32⟩
  | .hbm, ⟨45, _⟩ => ⟨S1200000x64, .f32⟩
  | .hbm, ⟨46, _⟩ => ⟨S1200000x64, .f32⟩
  | .hbm, ⟨47, _⟩ => ⟨S1200000x64, .f32⟩
  | .hbm, ⟨48, _⟩ => ⟨S_, .f32⟩
  | .hbm, ⟨49, _⟩ => ⟨S100000x64, .f32⟩
  | .hbm, ⟨50, _⟩ => ⟨S1200000x1, .i32⟩
  | .hbm, ⟨51, _⟩ => ⟨S100000x64, .f32⟩
  | .hbm, ⟨52, _⟩ => ⟨S1x32, .f32⟩
  | .hbm, ⟨53, _⟩ => ⟨S1x32, .f32⟩
  | .hbm, ⟨54, _⟩ => ⟨S100000x32, .f32⟩
  | .hbm, ⟨55, _⟩ => ⟨S100000x32, .f32⟩
  | .hbm, ⟨56, _⟩ => ⟨S1200000x1, .f32⟩
  | .hbm, ⟨57, _⟩ => ⟨S_, .i32⟩
  | .hbm, ⟨58, _⟩ => ⟨S1200000, .i32⟩
  | .hbm, ⟨59, _⟩ => ⟨S1200000, .i1⟩
  | .hbm, ⟨60, _⟩ => ⟨S_, .i32⟩
  | .hbm, ⟨61, _⟩ => ⟨S1200000, .i32⟩
  | .hbm, ⟨62, _⟩ => ⟨S1200000, .i32⟩
  | .hbm, ⟨63, _⟩ => ⟨S1200000, .i32⟩
  | .hbm, ⟨64, _⟩ => ⟨S1200000x1, .i32⟩
  | .hbm, ⟨65, _⟩ => ⟨S1200000x32, .f32⟩
  | .hbm, ⟨66, _⟩ => ⟨S1200000x32, .f32⟩
  | .hbm, ⟨67, _⟩ => ⟨S1200000x32, .f32⟩
  | .hbm, ⟨68, _⟩ => ⟨S_, .f32⟩
  | .hbm, ⟨69, _⟩ => ⟨S100000x32, .f32⟩
  | .hbm, ⟨70, _⟩ => ⟨S1200000x1, .i32⟩
  | .hbm, ⟨71, _⟩ => ⟨S100000x32, .f32⟩
  | .hbm, ⟨72, _⟩ => ⟨S1x16, .f32⟩
  | .hbm, ⟨73, _⟩ => ⟨S1x16, .f32⟩
  | .hbm, ⟨74, _⟩ => ⟨S100000x16, .f32⟩
  | .hbm, ⟨75, _⟩ => ⟨S100000x16, .f32⟩
  | .hbm, ⟨76, _⟩ => ⟨S100000x176, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S32x64, .f32⟩
  | .local _ .vmem, ⟨17, _⟩ => ⟨S1x32, .f32⟩
  | .local _ .vmem, ⟨18, _⟩ => ⟨S32x64, .f32⟩
  | .local _ .vmem, ⟨19, _⟩ => ⟨S1x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S10000x32, .f32⟩
  | .local _ .vmem, ⟨27, _⟩ => ⟨S10000x32, .f32⟩
  | .local _ .vmem, ⟨28, _⟩ => ⟨S16x32, .f32⟩
  | .local _ .vmem, ⟨29, _⟩ => ⟨S1x16, .f32⟩
  | .local _ .vmem, ⟨30, _⟩ => ⟨S16x32, .f32⟩
  | .local _ .vmem, ⟨31, _⟩ => ⟨S1x16, .f32⟩
  | .local _ .vmem, ⟨32, _⟩ => ⟨S10000x16, .f32⟩
  | .local _ .vmem, ⟨33, _⟩ => ⟨S10000x16, .f32⟩
  | .local _ .vmem, ⟨34, _⟩ => ⟨S10000x16, .f32⟩
  | .local _ .vmem, ⟨35, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15_0 : Ref sig .tc := ⟨.hbm, 34, rfl⟩
abbrev main_v15_1 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31_0 : Ref sig .tc := ⟨.hbm, 54, rfl⟩
abbrev main_v31_1 : Ref sig .tc := ⟨.hbm, 55, rfl⟩
abbrev main_v32 : Ref sig .tc := ⟨.hbm, 56, rfl⟩
abbrev main_c_4 : Ref sig .tc := ⟨.hbm, 57, rfl⟩
abbrev main_v33 : Ref sig .tc := ⟨.hbm, 58, rfl⟩
abbrev main_v34 : Ref sig .tc := ⟨.hbm, 59, rfl⟩
abbrev main_c_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47_0 : Ref sig .tc := ⟨.hbm, 74, rfl⟩
abbrev main_v47_1 : Ref sig .tc := ⟨.hbm, 75, rfl⟩
abbrev main_v48 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S10000x32 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S10000x16 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  transposes_S64x64_p1_0_S64x64 : S64x64.Transposes [1, 0] S64x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  shapeCasts_S32_S1x32 : S32.ShapeCasts S1x32
  inb_S32x64_S32x64_0_0 : ∀ a, (![0, 0] : Fin 2 → Nat) a + S32x64.size a ≤ S32x64.size a
  h_S32x64 : 0 < S32x64.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  transposes_S32x64_p1_0_S64x32 : S32x64.Transposes [1, 0] S64x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  reduces_S10000x32_S10000 : S10000x32.Reduces [1] S10000
  broadcasts_S10000x1_S10000x32 : S10000x1.Broadcasts S10000x32
  bcast_S1200000x1_S1200000x32_0_1 : S1200000x1.BroadcastsInDim S1200000x32 (![0, 1] : Fin 2 → Fin S1200000x32.rank)
  bcast_S_S100000x32 : S_.BroadcastsInDim S100000x32 (![] : Fin 0 → Fin S100000x32.rank)
  shapeCasts_S16_S1x16 : S16.ShapeCasts S1x16
  shapeCasts_S10000x32_S10000x32 : S10000x32.ShapeCasts S10000x32
  inb_S16x32_S16x32_0_0 : ∀ a, (![0, 0] : Fin 2 → Nat) a + S16x32.size a ≤ S16x32.size a
  h_S16x32 : 0 < S16x32.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  transposes_S16x32_p1_0_S32x16 : S16x32.Transposes [1, 0] S32x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  reduces_S10000x16_S10000 : S10000x16.Reduces [1] S10000
  broadcasts_S10000x1_S10000x16 : S10000x1.Broadcasts S10000x16
  concatenates_S100000x64_S100000x64_S100000x32_S100000x16_S100000x176_d1 : Shape.Concatenates [S100000x64, S100000x64, S100000x32, S100000x16] S100000x176 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  gather_S100000x32_S1200000x1_S1200000x32_1_0_n_n_0_1_132_wf : GatherDims.WF S100000x32 S1200000x1 S1200000x32 [1] [0] [] [0] [] 1 ![1, 32]
  scatter_S100000x32_S1200000x1_S1200000x32_1_0_0_1_wf : ScatterDims.WF S100000x32 S1200000x1 S1200000x32 [1] [0] [0] 1
  dot_S10000x32_S32x16_S10000x16_1_0_0_1_n_n_wf : DotDims.WF S10000x32 S32x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S100000x64.size a
  hwx0_7 : ∀ i : grid0.Coords, EltTy.bits .f32 = 32 ∨ (Rect.block (s := S100000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x64.size a ≤ S32x64.size a
  hwx1_4 : ∀ i : grid1.Coords, EltTy.bits .f32 = 32 ∨ (Rect.block (s := S32x64) S32x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x32.size a ≤ S100000x32.size a
  hwx1_6 : ∀ i : grid1.Coords, EltTy.bits .f32 = 32 ∨ (Rect.block (s := S100000x32) S10000x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x32.size a ≤ S100000x32.size a
  hwx1_7 : ∀ i : grid1.Coords, EltTy.bits .f32 = 32 ∨ (Rect.block (s := S100000x32) S10000x32.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S100000x32.size a
  hwx2_1 : ∀ i : grid2.Coords, EltTy.bits .f32 = 32 ∨ (Rect.block (s := S100000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x32.size a ≤ S16x32.size a
  hwx2_2 : ∀ i : grid2.Coords, EltTy.bits .f32 = 32 ∨ (Rect.block (s := S16x32) S16x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x32.size a ≤ S16x32.size a
  hwx2_4 : ∀ i : grid2.Coords, EltTy.bits .f32 = 32 ∨ (Rect.block (s := S16x32) S16x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x16.size a ≤ S1x16.size a
  hwx2_5 : ∀ i : grid2.Coords, EltTy.bits .f32 = 32 ∨ (Rect.block (s := S1x16) S1x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x16.size a ≤ S100000x16.size a
  hwx2_6 : ∀ i : grid2.Coords, EltTy.bits .f32 = 32 ∨ (Rect.block (s := S100000x16) S10000x16.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x16.size a ≤ S100000x16.size a
  hwx2_7 : ∀ i : grid2.Coords, EltTy.bits .f32 = 32 ∨ (Rect.block (s := S100000x16) S10000x16.size (cc2_transform_7 i) (hinb2_7 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1200000x1_S1200000x32_1_0_n_n_0_1_132 : GatherDims S100000x32 S1200000x1 S1200000x32 where
  offsetDims := [1]
  collapsedSliceDims := [0]
  operandBatchingDims := []
  startIndicesBatchingDims := []
  startIndexMap := [0]
  indexVectorDim := 1
  sliceSizes := ![1, 32]
  wf := gather_S100000x32_S1200000x1_S1200000x32_1_0_n_n_0_1_132_wf
def scatter_S100000x32_S1200000x1_S1200000x32_1_0_0_1 : ScatterDims S100000x32 S1200000x1 S1200000x32 where
  updateWindowDims := [1]
  insertedWindowDims := [0]
  scatterDimsToOperandDims := [0]
  indexVectorDim := 1
  wf := scatter_S100000x32_S1200000x1_S1200000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_0) S10000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_1) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v15_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31_0) S10000x32.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v31_1) S10000x32.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v31_0) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S16x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S16x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v47_0) S10000x16.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v47_1) S10000x16.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S1200000 : Shape := ⟨1, ![1200000]⟩
abbrev S1200000x1 : Shape := ⟨2, ![1200000, 1]⟩
abbrev S_ : Shape := ⟨0, ![]⟩
abbrev S1200000x64 : Shape := ⟨2, ![1200000, 64]⟩
abbrev S1x64 : Shape := ⟨2, ![1, 64]⟩
abbrev S100000 : Shape := ⟨1, ![100000]⟩
abbrev S100000x1 : Shape := ⟨2, ![100000, 1]⟩
abbrev S64x32 : Shape := ⟨2, ![64, 32]⟩
abbrev S100000x32 : Shape := ⟨2, ![100000, 32]⟩
abbrev S1x32 : Shape := ⟨2, ![1, 32]⟩
abbrev S1200000x32 : Shape := ⟨2, ![1200000, 32]⟩
abbrev S32x16 : Shape := ⟨2, ![32, 16]⟩
abbrev S100000x16 : Shape := ⟨2, ![100000, 16]⟩
abbrev S1x16 : Shape := ⟨2, ![1, 16]⟩
abbrev S100000x176 : Shape := ⟨2, ![100000, 176]⟩

abbrev nBuf : Space → Nat
  | .hbm => 182
  | .vmem => 0
  | .smem => 0
  | _ => 0

abbrev hbmTy0_0 (i : Nat) : BufTy := match i % 128 with
  | 0 => ⟨S100000x64, .f32⟩
  | 1 => ⟨S64x64, .f32⟩
  | 2 => ⟨S64, .f32⟩
  | 3 => ⟨S64x64, .f32⟩
  | 4 => ⟨S64, .f32⟩
  | 5 => ⟨S32x64, .f32⟩
  | 6 => ⟨S32, .f32⟩
  | 7 => ⟨S32x64, .f32⟩
  | 8 => ⟨S32, .f32⟩
  | 9 => ⟨S16x32, .f32⟩
  | 10 => ⟨S16, .f32⟩
  | 11 => ⟨S16x32, .f32⟩
  | 12 => ⟨S16, .f32⟩
  | 13 => ⟨S1200000, .f32⟩
  | 14 => ⟨S1200000, .i32⟩
  | 15 => ⟨S1200000, .i32⟩
  | 16 => ⟨S1200000x1, .f32⟩
  | 17 => ⟨S_, .i32⟩
  | 18 => ⟨S1200000, .i32⟩
  | 19 => ⟨S1200000, .i1⟩
  | 20 => ⟨S_, .i32⟩
  | 21 => ⟨S1200000, .i32⟩
  | 22 => ⟨S1200000, .i32⟩
  | 23 => ⟨S1200000, .i32⟩
  | 24 => ⟨S1200000x1, .i32⟩
  | 25 => ⟨S1200000x64, .f32⟩
  | 26 => ⟨S1200000x64, .f32⟩
  | 27 => ⟨S1200000x64, .f32⟩
  | 28 => ⟨S_, .f32⟩
  | 29 => ⟨S100000x64, .f32⟩
  | 30 => ⟨S1200000x1, .i32⟩
  | 31 => ⟨S100000x64, .f32⟩
  | 32 => ⟨S100000x64, .f32⟩
  | 33 => ⟨S64x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S_, .f32⟩
  | 40 => ⟨S100000x64, .f32⟩
  | 41 => ⟨S100000x64, .i1⟩
  | 42 => ⟨S_, .f32⟩
  | 43 => ⟨S100000x64, .f32⟩
  | 44 => ⟨S100000x64, .f32⟩
  | 45 => ⟨S100000x64, .f32⟩
  | 46 => ⟨S100000x64, .f32⟩
  | 47 => ⟨S64x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S_, .f32⟩
  | 54 => ⟨S100000x64, .f32⟩
  | 55 => ⟨S100000x64, .i1⟩
  | 56 => ⟨S_, .f32⟩
  | 57 => ⟨S100000x64, .f32⟩
  | 58 => ⟨S100000x64, .f32⟩
  | 59 => ⟨S100000x64, .f32⟩
  | 60 => ⟨S100000x64, .f32⟩
  | 61 => ⟨S100000x64, .f32⟩
  | 62 => ⟨S_, .f32⟩
  | 63 => ⟨S100000, .f32⟩
  | 64 => ⟨S100000x1, .f32⟩
  | 65 => ⟨S100000x1, .f32⟩
  | 66 => ⟨S_, .f32⟩
  | 67 => ⟨S100000x1, .f32⟩
  | 68 => ⟨S100000x1, .f32⟩
  | 69 => ⟨S100000x64, .f32⟩
  | 70 => ⟨S100000x64, .f32⟩
  | 71 => ⟨S1200000x1, .f32⟩
  | 72 => ⟨S_, .i32⟩
  | 73 => ⟨S1200000, .i32⟩
  | 74 => ⟨S1200000, .i1⟩
  | 75 => ⟨S_, .i32⟩
  | 76 => ⟨S1200000, .i32⟩
  | 77 => ⟨S1200000, .i32⟩
  | 78 => ⟨S1200000, .i32⟩
  | 79 => ⟨S1200000x1, .i32⟩
  | 80 => ⟨S1200000x64, .f32⟩
  | 81 => ⟨S1200000x64, .f32⟩
  | 82 => ⟨S1200000x64, .f32⟩
  | 83 => ⟨S_, .f32⟩
  | 84 => ⟨S100000x64, .f32⟩
  | 85 => ⟨S1200000x1, .i32⟩
  | 86 => ⟨S100000x64, .f32⟩
  | 87 => ⟨S100000x64, .f32⟩
  | 88 => ⟨S64x32, .f32⟩
  | 89 => ⟨S100000x32, .f32⟩
  | 90 => ⟨S1x32, .f32⟩
  | 91 => ⟨S100000x32, .f32⟩
  | 92 => ⟨S100000x32, .f32⟩
  | 93 => ⟨S_, .f32⟩
  | 94 => ⟨S_, .f32⟩
  | 95 => ⟨S100000x32, .f32⟩
  | 96 => ⟨S100000x32, .i1⟩
  | 97 => ⟨S_, .f32⟩
  | 98 => ⟨S100000x32, .f32⟩
  | 99 => ⟨S100000x32, .f32⟩
  | 100 => ⟨S100000x32, .f32⟩
  | 101 => ⟨S100000x64, .f32⟩
  | 102 => ⟨S64x32, .f32⟩
  | 103 => ⟨S100000x32, .f32⟩
  | 104 => ⟨S1x32, .f32⟩
  | 105 => ⟨S100000x32, .f32⟩
  | 106 => ⟨S100000x32, .f32⟩
  | 107 => ⟨S_, .f32⟩
  | 108 => ⟨S_, .f32⟩
  | 109 => ⟨S100000x32, .f32⟩
  | 110 => ⟨S100000x32, .i1⟩
  | 111 => ⟨S_, .f32⟩
  | 112 => ⟨S100000x32, .f32⟩
  | 113 => ⟨S100000x32, .f32⟩
  | 114 => ⟨S100000x32, .f32⟩
  | 115 => ⟨S100000x32, .f32⟩
  | 116 => ⟨S100000x32, .f32⟩
  | 117 => ⟨S_, .f32⟩
  | 118 => ⟨S100000, .f32⟩
  | 119 => ⟨S100000x1, .f32⟩
  | 120 => ⟨S100000x1, .f32⟩
  | 121 => ⟨S_, .f32⟩
  | 122 => ⟨S100000x1, .f32⟩
  | 123 => ⟨S100000x1, .f32⟩
  | 124 => ⟨S100000x32, .f32⟩
  | 125 => ⟨S100000x32, .f32⟩
  | 126 => ⟨S1200000x1, .f32⟩
  | 127 => ⟨S_, .i32⟩
  | _ => ⟨S100000x64, .f32⟩

abbrev hbmTy0_1 (i : Nat) : BufTy := match i % 128 with
  | 0 => ⟨S1200000, .i32⟩
  | 1 => ⟨S1200000, .i1⟩
  | 2 => ⟨S_, .i32⟩
  | 3 => ⟨S1200000, .i32⟩
  | 4 => ⟨S1200000, .i32⟩
  | 5 => ⟨S1200000, .i32⟩
  | 6 => ⟨S1200000x1, .i32⟩
  | 7 => ⟨S1200000x32, .f32⟩
  | 8 => ⟨S1200000x32, .f32⟩
  | 9 => ⟨S1200000x32, .f32⟩
  | 10 => ⟨S_, .f32⟩
  | 11 => ⟨S100000x32, .f32⟩
  | 12 => ⟨S1200000x1, .i32⟩
  | 13 => ⟨S100000x32, .f32⟩
  | 14 => ⟨S100000x32, .f32⟩
  | 15 => ⟨S32x16, .f32⟩
  | 16 => ⟨S100000x16, .f32⟩
  | 17 => ⟨S1x16, .f32⟩
  | 18 => ⟨S100000x16, .f32⟩
  | 19 => ⟨S100000x16, .f32⟩
  | 20 => ⟨S_, .f32⟩
  | 21 => ⟨S_, .f32⟩
  | 22 => ⟨S100000x16, .f32⟩
  | 23 => ⟨S100000x16, .i1⟩
  | 24 => ⟨S_, .f32⟩
  | 25 => ⟨S100000x16, .f32⟩
  | 26 => ⟨S100000x16, .f32⟩
  | 27 => ⟨S100000x16, .f32⟩
  | 28 => ⟨S100000x32, .f32⟩
  | 29 => ⟨S32x16, .f32⟩
  | 30 => ⟨S100000x16, .f32⟩
  | 31 => ⟨S1x16, .f32⟩
  | 32 => ⟨S100000x16, .f32⟩
  | 33 => ⟨S100000x16, .f32⟩
  | 34 => ⟨S_, .f32⟩
  | 35 => ⟨S_, .f32⟩
  | 36 => ⟨S100000x16, .f32⟩
  | 37 => ⟨S100000x16, .i1⟩
  | 38 => ⟨S_, .f32⟩
  | 39 => ⟨S100000x16, .f32⟩
  | 40 => ⟨S100000x16, .f32⟩
  | 41 => ⟨S100000x16, .f32⟩
  | 42 => ⟨S100000x16, .f32⟩
  | 43 => ⟨S100000x16, .f32⟩
  | 44 => ⟨S_, .f32⟩
  | 45 => ⟨S100000, .f32⟩
  | 46 => ⟨S100000x1, .f32⟩
  | 47 => ⟨S100000x1, .f32⟩
  | 48 => ⟨S_, .f32⟩
  | 49 => ⟨S100000x1, .f32⟩
  | 50 => ⟨S100000x1, .f32⟩
  | 51 => ⟨S100000x16, .f32⟩
  | 52 => ⟨S100000x16, .f32⟩
  | 53 => ⟨S100000x176, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_2 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_3 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_4 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_5 : Ref sig .tc := ⟨.hbm, 72, rfl⟩
abbrev main_v37 : Ref sig .tc := ⟨.hbm, 73, rfl⟩
abbrev main_v38 : Ref sig .tc := ⟨.hbm, 74, rfl⟩
abbrev main_c_6 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_7 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_8 : Ref sig .tc := ⟨.hbm, 93, rfl⟩
abbrev main_call2_cst : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_9 : Ref sig .tc := ⟨.hbm, 107, rfl⟩
abbrev main_call3_cst : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_10 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_cst_11 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_c_12 : Ref sig .tc := ⟨.hbm, 127, rfl⟩
abbrev main_v73 : Ref sig .tc := ⟨.hbm, 128, rfl⟩
abbrev main_v74 : Ref sig .tc := ⟨.hbm, 129, rfl⟩
abbrev main_c_13 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_cst_14 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_15 : Ref sig .tc := ⟨.hbm, 148, rfl⟩
abbrev main_call4_cst : Ref sig .tc := ⟨.hbm, 149, rfl⟩
abbrev main_call4_v0 : Ref sig .tc := ⟨.hbm, 150, rfl⟩
abbrev main_call4_v1 : Ref sig .tc := ⟨.hbm, 151, rfl⟩
abbrev main_call4_v2 : Ref sig .tc := ⟨.hbm, 152, rfl⟩
abbrev main_call4_v3 : Ref sig .tc := ⟨.hbm, 153, rfl⟩
abbrev main_call4_v4 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_cst_16 : Ref sig .tc := ⟨.hbm, 162, rfl⟩
abbrev main_call5_cst : Ref sig .tc := ⟨.hbm, 163, rfl⟩
abbrev main_call5_v0 : Ref sig .tc := ⟨.hbm, 164, rfl⟩
abbrev main_call5_v1 : Ref sig .tc := ⟨.hbm, 165, rfl⟩
abbrev main_call5_v2 : Ref sig .tc := ⟨.hbm, 166, rfl⟩
abbrev main_call5_v3 : Ref sig .tc := ⟨.hbm, 167, rfl⟩
abbrev main_call5_v4 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_cst_17 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_cst_18 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩

abbrev nD : Nat := 1
abbrev τ : Topo := Topo.v7x

variable {F : FTy → Type} [FloatOps F]

class Facts₀ : Prop where
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  reducesTo_S100000x32_S100000_d1 : S100000x32.ReducesTo [1] S100000
  bcast_S100000x1_S100000x32_0_1 : S100000x1.BroadcastsInDim S100000x32 (![0, 1] : Fin 2 → Fin S100000x32.rank)
  bcast_S1200000x1_S1200000x32_0_1 : S1200000x1.BroadcastsInDim S1200000x32 (![0, 1] : Fin 2 → Fin S1200000x32.rank)
  transposes_S16x32_S32x16_1_0 : S16x32.Transposes [1, 0] S32x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  reducesTo_S100000x16_S100000_d1 : S100000x16.ReducesTo [1] S100000
  bcast_S100000x1_S100000x16_0_1 : S100000x1.BroadcastsInDim S100000x16 (![0, 1] : Fin 2 → Fin S100000x16.rank)
  concatenates_S100000x64_S100000x64_S100000x32_S100000x16_S100000x176_d1 : Shape.Concatenates [S100000x64, S100000x64, S100000x32, S100000x16] S100000x176 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  gather_S100000x32_S1200000x1_S1200000x32_1_0_n_n_0_1_132_wf : GatherDims.WF S100000x32 S1200000x1 S1200000x32 [1] [0] [] [0] [] 1 ![1, 32]
  scatter_S100000x32_S1200000x1_S1200000x32_1_0_0_1_wf : ScatterDims.WF S100000x32 S1200000x1 S1200000x32 [1] [0] [0] 1
  dot_S100000x32_S32x16_S100000x16_1_0_0_1_n_n_wf : DotDims.WF S100000x32 S32x16 S100000x16 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1200000x1_S1200000x32_1_0_n_n_0_1_132 : GatherDims S100000x32 S1200000x1 S1200000x32 where
  offsetDims := [1]
  collapsedSliceDims := [0]
  operandBatchingDims := []
  startIndicesBatchingDims := []
  startIndexMap := [0]
  indexVectorDim := 1
  sliceSizes := ![1, 32]
  wf := gather_S100000x32_S1200000x1_S1200000x32_1_0_n_n_0_1_132_wf
def scatter_S100000x32_S1200000x1_S1200000x32_1_0_0_1 : ScatterDims S100000x32 S1200000x1 S1200000x32 where
  updateWindowDims := [1]
  insertedWindowDims := [0]
  scatterDimsToOperandDims := [0]
  indexVectorDim := 1
  wf := scatter_S100000x32_S1200000x1_S1200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.BitsLayer0.lean ====
/-
  Layer 1 of the network as one grid of ten row blocks. At a grid point the body reads a block of ten thousand rows
  of the node features and of the aggregated neighbour features, the two weight matrices and the two bias rows, and writes
  the block of new features and the block of their row-normalised copy. This module says what the two written blocks
  hold as functions of the six blocks read, and that the body, run on any such blocks, ends with exactly those.
-/
import proofs.«145267_j3582002725212_1_alg».proof.Proof.Gen.Kernel.Launch
import proofs.«145267_j3582002725212_1_alg».proof.Proof.Gen.Kernel.Skeleton
import proofs.«145267_j3582002725212_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the layer is entered
variable (V : (c : Dev nD) → (b : Ref sig .tc) → Buf (Elt F) ((c : Thread nD τ).loc b))

/-- Block `t` of window `w`: the rows of its array that grid point `t` sees. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A read window's buffer holds its block at every grid point, whether or not the point fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- A read window's buffer holds its block at every grid point, whether or not the point fetched it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- A read window's buffer holds its block at every grid point, whether or not the point fetched it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- A read window's buffer holds its block at every grid point, whether or not the point fetched it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- A read window's buffer holds its block at every grid point, whether or not the point fetched it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- A read window's buffer holds its block at every grid point, whether or not the point fetched it. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end

/-! The body reads and writes each block whole. -/
abbrev r0_S10000x64 : Rect S10000x64 := Rect.unit (s := S10000x64) ![0, 0] S10000x64.size inb_S10000x64_S10000x64_0_0
abbrev r0_S64x64 : Rect S64x64 := Rect.unit (s := S64x64) ![0, 0] S64x64.size inb_S64x64_S64x64_0_0
abbrev r0_S1x64 : Rect S1x64 := Rect.unit (s := S1x64) ![0, 0] S1x64.size inb_S1x64_S1x64_0_0

/-- The block of new features written at a grid point, from the six blocks read. -/
def out0_6 (x0 : Vec F S10000x64 .f32) (x1 : Vec F S10000x64 .f32) (x2 : Vec F S64x64 .f32) (x3 : Vec F S1x64 .f32) (x4 : Vec F S64x64 .f32) (x5 : Vec F S1x64 .f32) : Vec F S10000x64 .f32 :=
  View.canon [⟨r0_S10000x64, k0_pay2 (View.ld x0 r0_S10000x64) (View.ld x1 r0_S10000x64) (View.ld x2 r0_S64x64) (View.ld x4 r0_S64x64) (View.ld x3 r0_S1x64) (View.ld x5 r0_S1x64)⟩]

/-- The block of row-normalised new features written at a grid point, from the six blocks read. -/
def out0_7 (x0 : Vec F S10000x64 .f32) (x1 : Vec F S10000x64 .f32) (x2 : Vec F S64x64 .f32) (x3 : Vec F S1x64 .f32) (x4 : Vec F S64x64 .f32) (x5 : Vec F S1x64 .f32) : Vec F S10000x64 .f32 :=
  View.canon [⟨r0_S10000x64, k0_pay1 (k0_pay2 (View.ld x0 r0_S10000x64) (View.ld x1 r0_S10000x64) (View.ld x2 r0_S64x64) (View.ld x4 r0_S64x64) (View.ld x3 r0_S1x64) (View.ld x5 r0_S1x64)) (k0_pay3 (View.ld x0 r0_S10000x64) (View.ld x1 r0_S10000x64) (View.ld x2 r0_S64x64) (View.ld x4 r0_S64x64) (View.ld x3 r0_S1x64) (View.ld x5 r0_S1x64))⟩]

/-- One whole-block store covers the block. -/
theorem cover0 (p0 : Vec F S10000x64 .f32) (y : S10000x64.Idx) :
    ∃ pc ∈ ([⟨r0_S10000x64, p0⟩] : List (View.Piece (Elt F) S10000x64 .f32)), y ∈ pc.1.set :=
  View.cover_of_tiled [⟨r0_S10000x64, p0⟩] S10000x64.size (by rfl) y

set_option maxHeartbeats 4000000 in
/-- The body, given the six read blocks in its first six buffers and anything in the last two, runs to the end leaving
    the read blocks as they were and the two written blocks at `out0_6` and `out0_7` of them. -/
theorem sound_kernel0 (c : Dev nD) (E : Set ℕ) (i : grid0.Coords)
    (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S10000x64 .f32) (harg8 : arg8.IsWhole)
    (x0 : Vec F S10000x64 .f32) (x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__agg_kernel i arg1 harg1 arg2 harg2 arg3 harg3 arg4 harg4 arg5 harg5 arg6 harg6 arg7 harg7 arg8 harg8) K := by
  simp only [cc0__agg_kernel_eq_skeleton]; unfold cc0__agg_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0 _)
  iexists _; isplitr
  swap; · iexact H7
  ipureintro
  try dsimp only
  exact View.read_writes_eq_canon _ _ _ (cover0 _)

section
variable (V : (c : Dev nD) → (b : Ref sig .tc) → Buf (Elt F) ((c : Thread nD τ).loc b))

/-- What each window's buffer holds after the body at each grid point: a read window its block, the two written
    windows the layer's two result blocks of the six read blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is given at grid point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end

end Cert.Kernel.Layers

end
-- ==== Proof.BitsLayer1.lean ====
/-
  Layer 2 of the network as one grid of ten row blocks. At a grid point the body reads a block of ten thousand rows
  of the node features and of the aggregated neighbour features, the two weight matrices and the two bias rows, and writes
  the block of new features and the block of their row-normalised copy. This module says what the two written blocks
  hold as functions of the six blocks read, and that the body, run on any such blocks, ends with exactly those.
-/
import proofs.«145267_j3582002725212_1_alg».proof.Proof.Gen.Kernel.Launch
import proofs.«145267_j3582002725212_1_alg».proof.Proof.Gen.Kernel.Skeleton
import proofs.«145267_j3582002725212_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the layer is entered
variable (V : (c : Dev nD) → (b : Ref sig .tc) → Buf (Elt F) ((c : Thread nD τ).loc b))

/-- Block `t` of window `w`: the rows of its array that grid point `t` sees. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A read window's buffer holds its block at every grid point, whether or not the point fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- A read window's buffer holds its block at every grid point, whether or not the point fetched it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- A read window's buffer holds its block at every grid point, whether or not the point fetched it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- A read window's buffer holds its block at every grid point, whether or not the point fetched it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- A read window's buffer holds its block at every grid point, whether or not the point fetched it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- A read window's buffer holds its block at every grid point, whether or not the point fetched it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! The body reads and writes each block whole. -/
abbrev r1_S10000x64 : Rect S10000x64 := Rect.unit (s := S10000x64) ![0, 0] S10000x64.size inb_S10000x64_S10000x64_0_0
abbrev r1_S32x64 : Rect S32x64 := Rect.unit (s := S32x64) ![0, 0] S32x64.size inb_S32x64_S32x64_0_0
abbrev r1_S1x32 : Rect S1x32 := Rect.unit (s := S1x32) ![0, 0] S1x32.size inb_S1x32_S1x32_0_0
abbrev r1_S10000x32 : Rect S10000x32 := Rect.unit (s := S10000x32) ![0, 0] S10000x32.size inb_S10000x32_S10000x32_0_0

/-- The block of new features written at a grid point, from the six blocks read. -/
def out1_6 (x0 : Vec F S10000x64 .f32) (x1 : Vec F S10000x64 .f32) (x2 : Vec F S32x64 .f32) (x3 : Vec F S1x32 .f32) (x4 : Vec F S32x64 .f32) (x5 : Vec F S1x32 .f32) : Vec F S10000x32 .f32 :=
  View.canon [⟨r1_S10000x32, k1_pay2 (View.ld x0 r1_S10000x64) (View.ld x1 r1_S10000x64) (View.ld x2 r1_S32x64) (View.ld x4 r1_S32x64) (View.ld x3 r1_S1x32) (View.ld x5 r1_S1x32)⟩]

/-- The block of row-normalised new features written at a grid point, from the six blocks read. -/
def out1_7 (x0 : Vec F S10000x64 .f32) (x1 : Vec F S10000x64 .f32) (x2 : Vec F S32x64 .f32) (x3 : Vec F S1x32 .f32) (x4 : Vec F S32x64 .f32) (x5 : Vec F S1x32 .f32) : Vec F S10000x32 .f32 :=
  View.canon [⟨r1_S10000x32, k1_pay1 (k1_pay2 (View.ld x0 r1_S10000x64) (View.ld x1 r1_S10000x64) (View.ld x2 r1_S32x64) (View.ld x4 r1_S32x64) (View.ld x3 r1_S1x32) (View.ld x5 r1_S1x32)) (k1_pay3 (View.ld x0 r1_S10000x64) (View.ld x1 r1_S10000x64) (View.ld x2 r1_S32x64) (View.ld x4 r1_S32x64) (View.ld x3 r1_S1x32) (View.ld x5 r1_S1x32))⟩]

/-- One whole-block store covers the block. -/
theorem cover1 (p0 : Vec F S10000x32 .f32) (y : S10000x32.Idx) :
    ∃ pc ∈ ([⟨r1_S10000x32, p0⟩] : List (View.Piece (Elt F) S10000x32 .f32)), y ∈ pc.1.set :=
  View.cover_of_tiled [⟨r1_S10000x32, p0⟩] S10000x32.size (by rfl) y

set_option maxHeartbeats 4000000 in
/-- The body, given the six read blocks in its first six buffers and anything in the last two, runs to the end leaving
    the read blocks as they were and the two written blocks at `out1_6` and `out1_7` of them. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole) (arg3 : Memref sig .tc .vmem S32x64 .f32) (harg3 : arg3.IsWhole) (arg4 : Memref sig .tc .vmem S1x32 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S10000x32 .f32) (harg7 : arg7.IsWhole) (arg8 : Memref sig .tc .vmem S10000x32 .f32) (harg8 : arg8.IsWhole)
    (x0 : Vec F S10000x64 .f32) (x1 : Vec F S10000x64 .f32) (x2 : Vec F S32x64 .f32) (x3 : Vec F S1x32 .f32) (x4 : Vec F S32x64 .f32) (x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__agg_kernel i arg1 harg1 arg2 harg2 arg3 harg3 arg4 harg4 arg5 harg5 arg6 harg6 arg7 harg7 arg8 harg8) K := by
  simp only [cc1__agg_kernel_eq_skeleton]; unfold cc1__agg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1 _)
  iexists _; isplitr
  swap; · iexact H7
  ipureintro
  try dsimp only
  exact View.read_writes_eq_canon _ _ _ (cover1 _)

section
variable (V : (c : Dev nD) → (b : Ref sig .tc) → Buf (Elt F) ((c : Thread nD τ).loc b))

/-- What each window's buffer holds after the body at each grid point: a read window its block, the two written
    windows the layer's two result blocks of the six read blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is given at grid point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end

end Cert.Kernel.Layers

end
-- ==== Proof.BitsLayer2.lean ====
/-
  Layer 3 of the network as one grid of ten row blocks. At a grid point the body reads a block of ten thousand rows
  of the node features and of the aggregated neighbour features, the two weight matrices and the two bias rows, and writes
  the block of new features and the block of their row-normalised copy. This module says what the two written blocks
  hold as functions of the six blocks read, and that the body, run on any such blocks, ends with exactly those.
-/
import proofs.«145267_j3582002725212_1_alg».proof.Proof.Gen.Kernel.Launch
import proofs.«145267_j3582002725212_1_alg».proof.Proof.Gen.Kernel.Skeleton
import proofs.«145267_j3582002725212_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the layer is entered
variable (V : (c : Dev nD) → (b : Ref sig .tc) → Buf (Elt F) ((c : Thread nD τ).loc b))

/-- Block `t` of window `w`: the rows of its array that grid point `t` sees. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- A read window's buffer holds its block at every grid point, whether or not the point fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- A read window's buffer holds its block at every grid point, whether or not the point fetched it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- A read window's buffer holds its block at every grid point, whether or not the point fetched it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- A read window's buffer holds its block at every grid point, whether or not the point fetched it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- A read window's buffer holds its block at every grid point, whether or not the point fetched it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- A read window's buffer holds its block at every grid point, whether or not the point fetched it. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end

/-! The body reads and writes each block whole. -/
abbrev r2_S10000x32 : Rect S10000x32 := Rect.unit (s := S10000x32) ![0, 0] S10000x32.size inb_S10000x32_S10000x32_0_0
abbrev r2_S16x32 : Rect S16x32 := Rect.unit (s := S16x32) ![0, 0] S16x32.size inb_S16x32_S16x32_0_0
abbrev r2_S1x16 : Rect S1x16 := Rect.unit (s := S1x16) ![0, 0] S1x16.size inb_S1x16_S1x16_0_0
abbrev r2_S10000x16 : Rect S10000x16 := Rect.unit (s := S10000x16) ![0, 0] S10000x16.size inb_S10000x16_S10000x16_0_0

/-- The block of new features written at a grid point, from the six blocks read. -/
def out2_6 (x0 : Vec F S10000x32 .f32) (x1 : Vec F S10000x32 .f32) (x2 : Vec F S16x32 .f32) (x3 : Vec F S1x16 .f32) (x4 : Vec F S16x32 .f32) (x5 : Vec F S1x16 .f32) : Vec F S10000x16 .f32 :=
  View.canon [⟨r2_S10000x16, k2_pay2 (View.ld x0 r2_S10000x32) (View.ld x1 r2_S10000x32) (View.ld x2 r2_S16x32) (View.ld x4 r2_S16x32) (View.ld x3 r2_S1x16) (View.ld x5 r2_S1x16)⟩]

/-- The block of row-normalised new features written at a grid point, from the six blocks read. -/
def out2_7 (x0 : Vec F S10000x32 .f32) (x1 : Vec F S10000x32 .f32) (x2 : Vec F S16x32 .f32) (x3 : Vec F S1x16 .f32) (x4 : Vec F S16x32 .f32) (x5 : Vec F S1x16 .f32) : Vec F S10000x16 .f32 :=
  View.canon [⟨r2_S10000x16, k2_pay1 (k2_pay2 (View.ld x0 r2_S10000x32) (View.ld x1 r2_S10000x32) (View.ld x2 r2_S16x32) (View.ld x4 r2_S16x32) (View.ld x3 r2_S1x16) (View.ld x5 r2_S1x16)) (k2_pay3 (View.ld x0 r2_S10000x32) (View.ld x1 r2_S10000x32) (View.ld x2 r2_S16x32) (View.ld x4 r2_S16x32) (View.ld x3 r2_S1x16) (View.ld x5 r2_S1x16))⟩]

/-- One whole-block store covers the block. -/
theorem cover2 (p0 : Vec F S10000x16 .f32) (y : S10000x16.Idx) :
    ∃ pc ∈ ([⟨r2_S10000x16, p0⟩] : List (View.Piece (Elt F) S10000x16 .f32)), y ∈ pc.1.set :=
  View.cover_of_tiled [⟨r2_S10000x16, p0⟩] S10000x16.size (by rfl) y

set_option maxHeartbeats 4000000 in
/-- The body, given the six read blocks in its first six buffers and anything in the last two, runs to the end leaving
    the read blocks as they were and the two written blocks at `out2_6` and `out2_7` of them. -/
theorem sound_kernel2 (c : Dev nD) (E : Set ℕ) (i : grid2.Coords)
    (arg1 : Memref sig .tc .vmem S10000x32 .f32) (harg1 : arg1.IsWhole) (arg2 : Memref sig .tc .vmem S10000x32 .f32) (harg2 : arg2.IsWhole) (arg3 : Memref sig .tc .vmem S16x32 .f32) (harg3 : arg3.IsWhole) (arg4 : Memref sig .tc .vmem S1x16 .f32) (harg4 : arg4.IsWhole) (arg5 : Memref sig .tc .vmem S16x32 .f32) (harg5 : arg5.IsWhole) (arg6 : Memref sig .tc .vmem S1x16 .f32) (harg6 : arg6.IsWhole) (arg7 : Memref sig .tc .vmem S10000x16 .f32) (harg7 : arg7.IsWhole) (arg8 : Memref sig .tc .vmem S10000x16 .f32) (harg8 : arg8.IsWhole)
    (x0 : Vec F S10000x32 .f32) (x1 : Vec F S10000x32 .f32) (x2 : Vec F S16x32 .f32) (x3 : Vec F S1x16 .f32) (x4 : Vec F S16x32 .f32) (x5 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__agg_kernel i arg1 harg1 arg2 harg2 arg3 harg3 arg4 harg4 arg5 harg5 arg6 harg6 arg7 harg7 arg8 harg8) K := by
  simp only [cc2__agg_kernel_eq_skeleton]; unfold cc2__agg_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2 _)
  iexists _; isplitr
  swap; · iexact H7
  ipureintro
  try dsimp only
  exact View.read_writes_eq_canon _ _ _ (cover2 _)

section
variable (V : (c : Dev nD) → (b : Ref sig .tc) → Buf (Elt F) ((c : Thread nD τ).loc b))

/-- What each window's buffer holds after the body at each grid point: a read window its block, the two written
    windows the layer's two result blocks of the six read blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is given at grid point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end

end Cert.Kernel.Layers

end
-- ==== Proof.BitsRun.lean ====
/-
  The whole program as seven stretches in order: host operations, layer 1, host operations, layer 2, host operations,
  layer 3, the final concatenation. The contents of every buffer at each of the eight boundaries are named (a fold from the
  launch memory: a host stretch applies its operations; a layer leaves its two result arrays at what its ten write-backs
  produce and every other buffer as it found it), and every weakly fair execution is shown to terminate, nothing
  faulting, with every buffer at the last boundary's contents.
-/
import proofs.«145267_j3582002725212_1_alg».proof.Proof.BitsLayer0
import proofs.«145267_j3582002725212_1_alg».proof.Proof.BitsLayer1
import proofs.«145267_j3582002725212_1_alg».proof.Proof.BitsLayer2

set_option maxRecDepth 16384

noncomputable section

namespace Cert.Kernel.Layers

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the eight boundaries -/

/-- At launch. -/
abbrev W0 : Dev nD → Valuation τ sig (Elt F) := fun c b => (s₀ m ρ).mem ((c : Dev nD), b)
/-- After the host stretch before layer 1. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After layer 1: its arrays at what the ten grid points leave, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A layer changes only its two result arrays: an array it reads ends as it was found. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After the host stretch before layer 2. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After layer 2: its arrays at what the ten grid points leave, every other buffer as before. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A layer changes only its two result arrays: an array it reads ends as it was found. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After the host stretch before layer 3. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After layer 3: its arrays at what the ten grid points leave, every other buffer as before. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A layer changes only its two result arrays: an array it reads ends as it was found. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- After the final concatenation. -/
abbrev W7 : Dev nD → Valuation τ sig (Elt F) := fun c => StableHlo.after hostOps3 (W6 m ρ c)

/-! ## The proof data, the thread state, the segments -/

abbrev adm : (p : Fin 3) → (pcfgs (F := F) p).Adm := fun p => (cfgs p).toPCfg_adm
/-- Each layer's proof data at the contents it is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- Beside the buffers: the random generator's register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- Layer 1 as a segment: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2 as a segment: entered with every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3 as a segment: entered with every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor

/-- The seven stretches in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ),
    .host (hseg hostOps3 hostOps3_sub hostOps3_fresh' (W6 m ρ)) ]
theorem main_run (c : Dev nD) : main (F := F) c = Pipeline.Seg.run (segs m ρ) := (main_chain c).trans (by chain_rfl)

set_option backward.isDefEq.respectTransparency.types false in
/-- Every weakly fair execution of the program terminates, nothing faulting, and ends with every unscoped buffer at
    the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => show (iprop(StableHlo.held (c : Thread nD τ) (Pipeline.ucRefs τ sig) (W7 m ρ c) ∗ R c) : sProp 𝕄)
        ⊢ iprop(Tₙ m ρ c ∗ ∃ W, owes (c : Thread nD τ) (0 : CellTallies nD τ sig Unit) W) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Layers

end
-- ==== Proof.BitsFrame.lean ====
/-
  Every argument array ends as launched, read off the buffers' contents at the eight boundaries.

  A host stretch leaves every buffer it does not write as it was; a layer changes only its two result arrays (an
  array it reads ends as it was found, a buffer that is no window's array is not touched). So a buffer that no host
  stretch writes and that is no layer's result array holds at the last boundary what it held at launch: each of
  the sixteen arguments does, which with the run gives the frame.
-/
import proofs.«145267_j3582002725212_1_alg».proof.Proof.BitsRun
import proofs.«145267_j3582002725212_1_alg».proof.Proof.Gen.Kernel.Regions
import proofs.«145267_j3582002725212_1_alg».proof.Proof.Gen.Pre_finite_inputs
import proofs.«145267_j3582002725212_1_alg».proof.Defs

noncomputable section

namespace Cert.Kernel.Layers

open Cert.Kernel Cert.Kernel.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-! ## What each stretch leaves unchanged -/

/-- At launch the boundary's contents are the memory's. -/
theorem W0_eq (c : Dev nD) (r : Ref sig .tc) : W0 m ρ c (Proc.devRef .tc r) = m ((c : Thread nD τ).loc r) := rfl

/-- The host stretch before layer 1 leaves a buffer it does not write as it was. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- Of layer 1's windows, all but the two result arrays' are read only. -/
theorem isOut0 : ∀ w : Fin cfg0.W, Pipeline.arrRef spec0 w ≠ main_v15_0 → Pipeline.arrRef spec0 w ≠ main_v15_1 → (cfg0.win w).isOut = false := by
  decide

/-- Layer 1 leaves every buffer other than its two result arrays as it found it. -/
theorem W2_keep (c : Dev nD) (b : Ref sig .tc) (h6 : b ≠ main_v15_0) (h7 : b ≠ main_v15_1) :
    W2 m ρ c (Proc.devRef .tc b) = W1 m ρ c (Proc.devRef .tc b) := by
  by_cases h : ∃ w, Pipeline.arrRef spec0 w = b
  · obtain ⟨w, rfl⟩ := h
    exact W2_in m ρ c w (isOut0 w h6 h7)
  · exact W2_of_ne m ρ c b fun w e => h ⟨w, e⟩

/-- The host stretch before layer 2 leaves a buffer it does not write as it was. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- Of layer 2's windows, all but the two result arrays' are read only. -/
theorem isOut1 : ∀ w : Fin cfg1.W, Pipeline.arrRef spec1 w ≠ main_v31_0 → Pipeline.arrRef spec1 w ≠ main_v31_1 → (cfg1.win w).isOut = false := by
  decide

/-- Layer 2 leaves every buffer other than its two result arrays as it found it. -/
theorem W4_keep (c : Dev nD) (b : Ref sig .tc) (h6 : b ≠ main_v31_0) (h7 : b ≠ main_v31_1) :
    W4 m ρ c (Proc.devRef .tc b) = W3 m ρ c (Proc.devRef .tc b) := by
  by_cases h : ∃ w, Pipeline.arrRef spec1 w = b
  · obtain ⟨w, rfl⟩ := h
    exact W4_in m ρ c w (isOut1 w h6 h7)
  · exact W4_of_ne m ρ c b fun w e => h ⟨w, e⟩

/-- The host stretch before layer 3 leaves a buffer it does not write as it was. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- Of layer 3's windows, all but the two result arrays' are read only. -/
theorem isOut2 : ∀ w : Fin cfg2.W, Pipeline.arrRef spec2 w ≠ main_v47_0 → Pipeline.arrRef spec2 w ≠ main_v47_1 → (cfg2.win w).isOut = false := by
  decide

/-- Layer 3 leaves every buffer other than its two result arrays as it found it. -/
theorem W6_keep (c : Dev nD) (b : Ref sig .tc) (h6 : b ≠ main_v47_0) (h7 : b ≠ main_v47_1) :
    W6 m ρ c (Proc.devRef .tc b) = W5 m ρ c (Proc.devRef .tc b) := by
  by_cases h : ∃ w, Pipeline.arrRef spec2 w = b
  · obtain ⟨w, rfl⟩ := h
    exact W6_in m ρ c w (isOut2 w h6 h7)
  · exact W6_of_ne m ρ c b fun w e => h ⟨w, e⟩

/-- The host stretch of the final concatenation leaves a buffer it does not write as it was. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-- A buffer no host stretch writes and that is no layer's result array holds at the last boundary what it held at
    launch. -/
theorem W7_of_launch (c : Dev nD) (r : Ref sig .tc) (h0 : r ∉ hostOps0_W) (h1 : r ∉ hostOps1_W) (h2 : r ∉ hostOps2_W) (h3 : r ∉ hostOps3_W)
    (ha : r ≠ main_v15_0) (hb : r ≠ main_v15_1) (hc : r ≠ main_v31_0) (hd : r ≠ main_v31_1) (he : r ≠ main_v47_0) (hf : r ≠ main_v47_1) :
    W7 m ρ c (Proc.devRef .tc r) = m ((c : Thread nD τ).loc r) :=
  (W7_of m ρ c r h3).trans <| (W6_keep m ρ c r he hf).trans <| (W5_of m ρ c r h2).trans <| (W4_keep m ρ c r hc hd).trans <|
    (W3_of m ρ c r h1).trans <| (W2_keep m ρ c r ha hb).trans <| (W1_of m ρ c r h0).trans (W0_eq m ρ c r)

/-! ## No stretch changes an argument -/

theorem W7_main_arg0 (c : Dev nD) : W7 m ρ c (Proc.devRef .tc main_arg0) = m ((c : Thread nD τ).loc main_arg0) :=
  W7_of_launch m ρ c main_arg0 (by decide) (by decide) (by decide) (by decide) (by decide) (by decide) (by decide) (by decide) (by decide) (by decide)
theorem W7_main_arg1 (c : Dev nD) : W7 m ρ c (Proc.devRef .tc main_arg1) = m ((c : Thread nD τ).loc main_arg1) :=
  W7_of_launch m ρ c main_arg1 (by decide) (by decide) (by decide) (by decide) (by decide) (by decide) (by decide) (by decide) (by decide) (by decide)
theorem W7_main_arg2 (c : Dev nD) : W7 m ρ c (Proc.devRef .tc main_arg2) = m ((c : Thread nD τ).loc main_arg2) :=
  W7_of_launch m ρ c main_arg2 (by decide) (by decide) (by decide) (by decide) (by decide) (by decide) (by decide) (by decide) (by decide) (by decide)
theorem W7_main_arg3 (c : Dev nD) : W7 m ρ c (Proc.devRef .tc main_arg3) = m ((c : Thread nD τ).loc main_arg3) :=
  W7_of_launch m ρ c main_arg3 (by decide) (by decide) (by decide) (by decide) (by decide) (by decide) (by decide) (by decide) (by decide) (by decide)
theorem W7_main_arg4 (c : Dev nD) : W7 m ρ c (Proc.devRef .tc main_arg4) = m ((c : Thread nD τ).loc main_arg4) :=
  W7_of_launch m ρ c main_arg4 (by decide) (by decide) (by decide) (by decide) (by decide) (by decide) (by decide) (by decide) (by decide) (by decide)
theorem W7_main_arg5 (c : Dev nD) : W7 m ρ c (Proc.devRef .tc main_arg5) = m ((c : Thread nD τ).loc main_arg5) :=
  W7_of_launch m ρ c main_arg5 (by decide) (by decide) (by decide) (by decide) (by decide) (by decide) (by decide) (by decide) (by decide) (by decide)
theorem W7_main_arg6 (c : Dev nD) : W7 m ρ c (Proc.devRef .tc main_arg6) = m ((c : Thread nD τ).loc main_arg6) :=
  W7_of_launch m ρ c main_arg6 (by decide) (by decide) (by decide) (by decide) (by decide) (by decide) (by decide) (by decide) (by decide) (by decide)
theorem W7_main_arg7 (c : Dev nD) : W7 m ρ c (Proc.devRef .tc main_arg7) = m ((c : Thread nD τ).loc main_arg7) :=
  W7_of_launch m ρ c main_arg7 (by decide) (by decide) (by decide) (by decide) (by decide) (by decide) (by decide) (by decide) (by decide) (by decide)
theorem W7_main_arg8 (c : Dev nD) : W7 m ρ c (Proc.devRef .tc main_arg8) = m ((c : Thread nD τ).loc main_arg8) :=
  W7_of_launch m ρ c main_arg8 (by decide) (by decide) (by decide) (by decide) (by decide) (by decide) (by decide) (by decide) (by decide) (by decide)
theorem W7_main_arg9 (c : Dev nD) : W7 m ρ c (Proc.devRef .tc main_arg9) = m ((c : Thread nD τ).loc main_arg9) :=
  W7_of_launch m ρ c main_arg9 (by decide) (by decide) (by decide) (by decide) (by decide) (by decide) (by decide) (by decide) (by decide) (by decide)
theorem W7_main_arg10 (c : Dev nD) : W7 m ρ c (Proc.devRef .tc main_arg10) = m ((c : Thread nD τ).loc main_arg10) :=
  W7_of_launch m ρ c main_arg10 (by decide) (by decide) (by decide) (by decide) (by decide) (by decide) (by decide) (by decide) (by decide) (by decide)
theorem W7_main_arg11 (c : Dev nD) : W7 m ρ c (Proc.devRef .tc main_arg11) = m ((c : Thread nD τ).loc main_arg11) :=
  W7_of_launch m ρ c main_arg11 (by decide) (by decide) (by decide) (by decide) (by decide) (by decide) (by decide) (by decide) (by decide) (by decide)
theorem W7_main_arg12 (c : Dev nD) : W7 m ρ c (Proc.devRef .tc main_arg12) = m ((c : Thread nD τ).loc main_arg12) :=
  W7_of_launch m ρ c main_arg12 (by decide) (by decide) (by decide) (by decide) (by decide) (by decide) (by decide) (by decide) (by decide) (by decide)
theorem W7_main_arg13 (c : Dev nD) : W7 m ρ c (Proc.devRef .tc main_arg13) = m ((c : Thread nD τ).loc main_arg13) :=
  W7_of_launch m ρ c main_arg13 (by decide) (by decide) (by decide) (by decide) (by decide) (by decide) (by decide) (by decide) (by decide) (by decide)
theorem W7_main_arg14 (c : Dev nD) : W7 m ρ c (Proc.devRef .tc main_arg14) = m ((c : Thread nD τ).loc main_arg14) :=
  W7_of_launch m ρ c main_arg14 (by decide) (by decide) (by decide) (by decide) (by decide) (by decide) (by decide) (by decide) (by decide) (by decide)
theorem W7_main_arg15 (c : Dev nD) : W7 m ρ c (Proc.devRef .tc main_arg15) = m ((c : Thread nD τ).loc main_arg15) :=
  W7_of_launch m ρ c main_arg15 (by decide) (by decide) (by decide) (by decide) (by decide) (by decide) (by decide) (by decide) (by decide) (by decide)

/-! ## The frame -/

/-- The program runs and its argument arrays end unchanged. -/
theorem frame_k : Cert.frame_Kernel := fun m ρ _ =>
  (θ_run _ _ _).mono (fun r h c => ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c),
      (h c _ (mem_uc main_arg13 (by decide))).trans (W7_main_arg13 m ρ c),
      (h c _ (mem_uc main_arg14 (by decide))).trans (W7_main_arg14 m ρ c),
      (h c _ (mem_uc main_arg15 (by decide))).trans (W7_main_arg15 m ρ c)⟩)
    (run (F := Bits) m ρ)

end Cert.Kernel.Layers

end
-- ==== Proof.IdealLayer0.lean ====
/-
  Layer 1 of the network as one grid of ten row blocks. At a grid point the body reads a block of ten thousand rows
  of the node features and of the aggregated neighbour features, the two weight matrices and the two bias rows, and writes
  the block of new features and the block of their row-normalised copy. This module says what the two written blocks
  hold as functions of the six blocks read, and that the body, run on any such blocks, ends with exactly those.
-/
import proofs.«145267_j3582002725212_1_alg».proof.Proof.Gen.KernelIdeal.Launch
import proofs.«145267_j3582002725212_1_alg».proof.Proof.Gen.KernelIdeal.Skeleton
import proofs.«145267_j3582002725212_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the layer is entered
variable (V : (c : Dev nD) → (b : Ref sig .tc) → Buf (Elt F) ((c : Thread nD τ).loc b))

/-- Block `t` of window `w`: the rows of its array that grid point `t` sees. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A read window's buffer holds its block at every grid point, whether or not the point fetched it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- A read window's buffer holds its block at every grid point, whether or not the point fetched it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- A read window's buffer holds its block at every grid point, whether or not the point fetched it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- A read window's buffer holds its block at every grid point, whether or not the point fetched it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- A read window's buffer holds its block at every grid point, whether or not the point fetched it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- A read window's buffer holds its block at every grid point, whether or not the point fetched it. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end

/-! The body reads and writes each block whole. -/
abbrev r0_S10000x64 : Rect S10000x64 := Rect.unit (s := S10000x64) ![0, 0] S10000x64.size inb_S10000x64_S10000x64_0_0
abbrev r0_S64x64 : Rect S64x64 := Rect.unit (s := S64x64) ![0, 0] S64x64.size inb_S64x64_S64x64_0_0
abbrev r0_S1x64 : Rect S1x64 := Rect.unit (s := S1x64) ![0, 0] S1x64.size inb_S1x64_S1x64_0_0

/-- The block of new features written at a grid point, from the six blocks read. -/
def out0_6 (x0 : Vec F S10000x64 .f32) (x1 : Vec F S10000x64 .f32) (x2 : Vec F S64x64 .f32) (x3 : Vec F S1x64 .f32) (x4 : Vec F S64x64 .f32) (x5 : Vec F S1x64 .f32) : Vec F S10000x64 .f32 :=
  View.canon [⟨r0_S10000x64, k0_pay2 (View.ld x0 r0_S10000x64) (View.ld x1 r0_S10000x64) (View.ld x2 r0_S64x64) (View.ld x4 r0_S64x64) (View.ld x3 r0_S1x64) (View.ld x5 r0_S1x64)⟩]

/-- The block of row-normalised new features written at a grid point, from the six blocks read. -/
def out0_7 (x0 : Vec F S10000x64 .f32) (x1 : Vec F S10000x64 .f32) (x2 : Vec F S64x64 .f32) (x3 : Vec F S1x64 .f32) (x4 : Vec F S64x64 .f32) (x5 : Vec F S1x64 .f32) : Vec F S10000x64 .f32 :=
  View.canon [⟨r0_S10000x64, k0_pay1 (k0_pay2 (View.ld x0 r0_S10000x64) (View.ld x1 r0_S10000x64) (View.ld x2 r0_S64x64) (View.ld x4 r0_S64x64) (View.ld x3 r0_S1x64) (View.ld x5 r0_S1x64)) (k0_pay3 (View.ld x0 r0_S10000x64) (View.ld x1 r0_S10000x64) (View.ld x2 r0_S64x64) (View.ld x4 r0_S64x64) (View.ld x3 r0_S1x64) (View.ld x5 r0_S1x64))⟩]

/-- One whole-block store covers the block. -/
theorem cover0 (p0 : Vec F S10000x64 .f32) (y : S10000x64.Idx) :
    ∃ pc ∈ ([⟨r0_S10000x64, p0⟩] : List (View.Piece (Elt F) S10000x64 .f32)), y ∈ pc.1.set :=
  View.cover_of_tiled [⟨r0_S10000x64, p0⟩] S10000x64.size (by rfl) y

set_option maxHeartbeats 4000000 in
/-- The body, given the six read blocks in its first six buffers and anything in the last two, runs to the end leaving
    the read blocks as they were and the two written blocks at `out0_6` and `out0_7` of them. -/
theorem sound_kernel0 (c : Dev nD) (E : Set ℕ) (i : grid0.Coords)
    (arg1 : Memref sig .tc .vmem S10000x64 .f32) (harg1 : arg1.IsWhole) (arg2 : Memref sig .tc .vmem S10000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S10000x64 .f32) (harg7 : arg7.IsWhole) (arg8 : Memref sig .tc .vmem S10000x64 .f32) (harg8 : arg8.IsWhole)
    (x0 : Vec F S10000x64 .f32) (x1 : Vec F S10000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__agg_kernel i arg1 harg1 arg2 harg2 arg3 harg3 arg4 harg4 arg5 harg5 arg6 harg6 arg7 harg7 arg8 harg8) K := by
  simp only [cc0__agg_kernel_eq_skeleton]; unfold cc0__agg_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0 _)
  iexists _; isplitr
  swap; · iexact H7
  ipureintro
  try dsimp only
  exact View.read_writes_eq_canon _ _ _ (cover0 _)

section
variable (V : (c : Dev nD) → (b : Ref sig .tc) → Buf (Elt F) ((c : Thread nD τ).loc b))

/-- What each window's buffer holds after the body at each grid point: a read window its block, the two written
    windows the layer's two result blocks of the six read blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is given at grid point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) V c) (defs₀ (F := F)) Variants.none () Set.univ := fun t => by
  rw [bigSep_W0, bigSep_W0]
  exact sound_body0 V c t

end

end Cert.KernelIdeal.Layers

end
-- ==== Proof.IdealLayer1.lean ====
/-
  Layer 2 of the network as one grid of ten row blocks. At a grid point the body reads a block of ten thousand rows
  of the node features and of the aggregated neighbour features, the two weight matrices and the two bias rows, and writes
  the block of new features and the block of their row-normalised copy. This module says what the two written blocks
  hold as functions of the six blocks read, and that the body, run on any such blocks, ends with exactly those.
-/
import proofs.«145267_j3582002725212_1_alg».proof.Proof.Gen.KernelIdeal.Launch
import proofs.«145267_j3582002725212_1_alg».proof.Proof.Gen.KernelIdeal.Skeleton
import proofs.«145267_j3582002725212_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the layer is entered
variable (V : (c : Dev nD) → (b : Ref sig .tc) → Buf (Elt F) ((c : Thread nD τ).loc b))

/-- Block `t` of window `w`: the rows of its array that grid point `t` sees. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A read window's buffer holds its block at every grid point, whether or not the point fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- A read window's buffer holds its block at every grid point, whether or not the point fetched it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- A read window's buffer holds its block at every grid point, whether or not the point fetched it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- A read window's buffer holds its block at every grid point, whether or not the point fetched it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- A read window's buffer holds its block at every grid point, whether or not the point fetched it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- A read window's buffer holds its block at every grid point, whether or not the point fetched it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! The body reads and writes each block whole. -/
abbrev r1_S10000x64 : Rect S10000x64 := Rect.unit (s := S10000x64) ![0, 0] S10000x64.size inb_S10000x64_S10000x64_0_0
abbrev r1_S32x64 : Rect S32x64 := Rect.unit (s := S32x64) ![0, 0] S32x64.size inb_S32x64_S32x64_0_0
abbrev r1_S1x32 : Rect S1x32 := Rect.unit (s := S1x32) ![0, 0] S1x32.size inb_S1x32_S1x32_0_0
abbrev r1_S10000x32 : Rect S10000x32 := Rect.unit (s := S10000x32) ![0, 0] S10000x32.size inb_S10000x32_S10000x32_0_0

/-- The block of new features written at a grid point, from the six blocks read. -/
def out1_6 (x0 : Vec F S10000x64 .f32) (x1 : Vec F S10000x64 .f32) (x2 : Vec F S32x64 .f32) (x3 : Vec F S1x32 .f32) (x4 : Vec F S32x64 .f32) (x5 : Vec F S1x32 .f32) : Vec F S10000x32 .f32 :=
  View.canon [⟨r1_S10000x32, k1_pay2 (View.ld x0 r1_S10000x64) (View.ld x1 r1_S10000x64) (View.ld x2 r1_S32x64) (View.ld x4 r1_S32x64) (View.ld x3 r1_S1x32) (View.ld x5 r1_S1x32)⟩]

/-- The block of row-normalised new features written at a grid point, from the six blocks read. -/
def out1_7 (x0 : Vec F S10000x64 .f32) (x1 : Vec F S10000x64 .f32) (x2 : Vec F S32x64 .f32) (x3 : Vec F S1x32 .f32) (x4 : Vec F S32x64 .f32) (x5 : Vec F S1x32 .f32) : Vec F S10000x32 .f32 :=
  View.canon [⟨r1_S10000x32, k1_pay1 (k1_pay2 (View.ld x0 r1_S10000x64) (View.ld x1 r1_S10000x64) (View.ld x2 r1_S32x64) (View.ld x4 r1_S32x64) (View.ld x3 r1_S1x32) (View.ld x5 r1_S1x32)) (k1_pay3 (View.ld x0 r1_S10000x64) (View.ld x1 r1_S10000x64) (View.ld x2 r1_S32x64) (View.ld x4 r1_S32x64) (View.ld x3 r1_S1x32) (View.ld x5 r1_S1x32))⟩]

/-- One whole-block store covers the block. -/
theorem cover1 (p0 : Vec F S10000x32 .f32) (y : S10000x32.Idx) :
    ∃ pc ∈ ([⟨r1_S10000x32, p0⟩] : List (View.Piece (Elt F) S10000x32 .f32)), y ∈ pc.1.set :=
  View.cover_of_tiled [⟨r1_S10000x32, p0⟩] S10000x32.size (by rfl) y

set_option maxHeartbeats 4000000 in
/-- The body, given the six read blocks in its first six buffers and anything in the last two, runs to the end leaving
    the read blocks as they were and the two written blocks at `out1_6` and `out1_7` of them. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole) (arg3 : Memref sig .tc .vmem S32x64 .f32) (harg3 : arg3.IsWhole) (arg4 : Memref sig .tc .vmem S1x32 .f32) (harg4 : arg4.IsWhole) (arg5 : Memref sig .tc .vmem S32x64 .f32) (harg5 : arg5.IsWhole) (arg6 : Memref sig .tc .vmem S1x32 .f32) (harg6 : arg6.IsWhole) (arg7 : Memref sig .tc .vmem S10000x32 .f32) (harg7 : arg7.IsWhole) (arg8 : Memref sig .tc .vmem S10000x32 .f32) (harg8 : arg8.IsWhole)
    (x0 : Vec F S10000x64 .f32) (x1 : Vec F S10000x64 .f32) (x2 : Vec F S32x64 .f32) (x3 : Vec F S1x32 .f32) (x4 : Vec F S32x64 .f32) (x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__agg_kernel i arg1 harg1 arg2 harg2 arg3 harg3 arg4 harg4 arg5 harg5 arg6 harg6 arg7 harg7 arg8 harg8) K := by
  simp only [cc1__agg_kernel_eq_skeleton]; unfold cc1__agg_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1 _)
  iexists _; isplitr
  swap; · iexact H7
  ipureintro
  try dsimp only
  exact View.read_writes_eq_canon _ _ _ (cover1 _)

section
variable (V : (c : Dev nD) → (b : Ref sig .tc) → Buf (Elt F) ((c : Thread nD τ).loc b))

/-- What each window's buffer holds after the body at each grid point: a read window its block, the two written
    windows the layer's two result blocks of the six read blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is given at grid point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation1 (c : Dev nD) : BodyObligation (dat1 (F := F) V c) (defs₀ (F := F)) Variants.none () Set.univ := fun t => by
  rw [bigSep_W1, bigSep_W1]
  exact sound_body1 V c t

end

end Cert.KernelIdeal.Layers

end
-- ==== Proof.IdealLayer2.lean ====
/-
  Layer 3 of the network as one grid of ten row blocks. At a grid point the body reads a block of ten thousand rows
  of the node features and of the aggregated neighbour features, the two weight matrices and the two bias rows, and writes
  the block of new features and the block of their row-normalised copy. This module says what the two written blocks
  hold as functions of the six blocks read, and that the body, run on any such blocks, ends with exactly those.
-/
import proofs.«145267_j3582002725212_1_alg».proof.Proof.Gen.KernelIdeal.Launch
import proofs.«145267_j3582002725212_1_alg».proof.Proof.Gen.KernelIdeal.Skeleton
import proofs.«145267_j3582002725212_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffers' contents when the layer is entered
variable (V : (c : Dev nD) → (b : Ref sig .tc) → Buf (Elt F) ((c : Thread nD τ).loc b))

/-- Block `t` of window `w`: the rows of its array that grid point `t` sees. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- A read window's buffer holds its block at every grid point, whether or not the point fetched it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- A read window's buffer holds its block at every grid point, whether or not the point fetched it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- A read window's buffer holds its block at every grid point, whether or not the point fetched it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- A read window's buffer holds its block at every grid point, whether or not the point fetched it. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- A read window's buffer holds its block at every grid point, whether or not the point fetched it. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- A read window's buffer holds its block at every grid point, whether or not the point fetched it. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end

/-! The body reads and writes each block whole. -/
abbrev r2_S10000x32 : Rect S10000x32 := Rect.unit (s := S10000x32) ![0, 0] S10000x32.size inb_S10000x32_S10000x32_0_0
abbrev r2_S16x32 : Rect S16x32 := Rect.unit (s := S16x32) ![0, 0] S16x32.size inb_S16x32_S16x32_0_0
abbrev r2_S1x16 : Rect S1x16 := Rect.unit (s := S1x16) ![0, 0] S1x16.size inb_S1x16_S1x16_0_0
abbrev r2_S10000x16 : Rect S10000x16 := Rect.unit (s := S10000x16) ![0, 0] S10000x16.size inb_S10000x16_S10000x16_0_0

/-- The block of new features written at a grid point, from the six blocks read. -/
def out2_6 (x0 : Vec F S10000x32 .f32) (x1 : Vec F S10000x32 .f32) (x2 : Vec F S16x32 .f32) (x3 : Vec F S1x16 .f32) (x4 : Vec F S16x32 .f32) (x5 : Vec F S1x16 .f32) : Vec F S10000x16 .f32 :=
  View.canon [⟨r2_S10000x16, k2_pay2 (View.ld x0 r2_S10000x32) (View.ld x1 r2_S10000x32) (View.ld x2 r2_S16x32) (View.ld x4 r2_S16x32) (View.ld x3 r2_S1x16) (View.ld x5 r2_S1x16)⟩]

/-- The block of row-normalised new features written at a grid point, from the six blocks read. -/
def out2_7 (x0 : Vec F S10000x32 .f32) (x1 : Vec F S10000x32 .f32) (x2 : Vec F S16x32 .f32) (x3 : Vec F S1x16 .f32) (x4 : Vec F S16x32 .f32) (x5 : Vec F S1x16 .f32) : Vec F S10000x16 .f32 :=
  View.canon [⟨r2_S10000x16, k2_pay1 (k2_pay2 (View.ld x0 r2_S10000x32) (View.ld x1 r2_S10000x32) (View.ld x2 r2_S16x32) (View.ld x4 r2_S16x32) (View.ld x3 r2_S1x16) (View.ld x5 r2_S1x16)) (k2_pay3 (View.ld x0 r2_S10000x32) (View.ld x1 r2_S10000x32) (View.ld x2 r2_S16x32) (View.ld x4 r2_S16x32) (View.ld x3 r2_S1x16) (View.ld x5 r2_S1x16))⟩]

/-- One whole-block store covers the block. -/
theorem cover2 (p0 : Vec F S10000x16 .f32) (y : S10000x16.Idx) :
    ∃ pc ∈ ([⟨r2_S10000x16, p0⟩] : List (View.Piece (Elt F) S10000x16 .f32)), y ∈ pc.1.set :=
  View.cover_of_tiled [⟨r2_S10000x16, p0⟩] S10000x16.size (by rfl) y

set_option maxHeartbeats 4000000 in
/-- The body, given the six read blocks in its first six buffers and anything in the last two, runs to the end leaving
    the read blocks as they were and the two written blocks at `out2_6` and `out2_7` of them. -/
theorem sound_kernel2 (c : Dev nD) (E : Set ℕ) (i : grid2.Coords)
    (arg1 : Memref sig .tc .vmem S10000x32 .f32) (harg1 : arg1.IsWhole) (arg2 : Memref sig .tc .vmem S10000x32 .f32) (harg2 : arg2.IsWhole) (arg3 : Memref sig .tc .vmem S16x32 .f32) (harg3 : arg3.IsWhole) (arg4 : Memref sig .tc .vmem S1x16 .f32) (harg4 : arg4.IsWhole) (arg5 : Memref sig .tc .vmem S16x32 .f32) (harg5 : arg5.IsWhole) (arg6 : Memref sig .tc .vmem S1x16 .f32) (harg6 : arg6.IsWhole) (arg7 : Memref sig .tc .vmem S10000x16 .f32) (harg7 : arg7.IsWhole) (arg8 : Memref sig .tc .vmem S10000x16 .f32) (harg8 : arg8.IsWhole)
    (x0 : Vec F S10000x32 .f32) (x1 : Vec F S10000x32 .f32) (x2 : Vec F S16x32 .f32) (x3 : Vec F S1x16 .f32) (x4 : Vec F S16x32 .f32) (x5 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__agg_kernel i arg1 harg1 arg2 harg2 arg3 harg3 arg4 harg4 arg5 harg5 arg6 harg6 arg7 harg7 arg8 harg8) K := by
  simp only [cc2__agg_kernel_eq_skeleton]; unfold cc2__agg_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2 _)
  iexists _; isplitr
  swap; · iexact H7
  ipureintro
  try dsimp only
  exact View.read_writes_eq_canon _ _ _ (cover2 _)

section
variable (V : (c : Dev nD) → (b : Ref sig .tc) → Buf (Elt F) ((c : Thread nD τ).loc b))

/-- What each window's buffer holds after the body at each grid point: a read window its block, the two written
    windows the layer's two result blocks of the six read blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is given at grid point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end

end Cert.KernelIdeal.Layers

end
-- ==== Proof.IdealRun.lean ====
/-
  The whole program as seven stretches in order: host operations, layer 1, host operations, layer 2, host operations,
  layer 3, the final concatenation. The contents of every buffer at each of the eight boundaries are named (a fold from the
  launch memory: a host stretch applies its operations; a layer leaves its two result arrays at what its ten write-backs
  produce and every other buffer as it found it), and every weakly fair execution is shown to terminate, nothing
  faulting, with every buffer at the last boundary's contents.
-/
import proofs.«145267_j3582002725212_1_alg».proof.Proof.IdealLayer0
import proofs.«145267_j3582002725212_1_alg».proof.Proof.IdealLayer1
import proofs.«145267_j3582002725212_1_alg».proof.Proof.IdealLayer2

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the eight boundaries -/

/-- At launch. -/
abbrev W0 : Dev nD → Valuation τ sig (Elt F) := fun c b => (s₀ m ρ).mem ((c : Dev nD), b)
/-- After the host stretch before layer 1. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After layer 1: its arrays at what the ten grid points leave, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A layer changes only its two result arrays: an array it reads ends as it was found. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After the host stretch before layer 2. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After layer 2: its arrays at what the ten grid points leave, every other buffer as before. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A layer changes only its two result arrays: an array it reads ends as it was found. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After the host stretch before layer 3. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After layer 3: its arrays at what the ten grid points leave, every other buffer as before. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A layer changes only its two result arrays: an array it reads ends as it was found. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- After the final concatenation. -/
abbrev W7 : Dev nD → Valuation τ sig (Elt F) := fun c => StableHlo.after hostOps3 (W6 m ρ c)

/-! ## The proof data, the thread state, the segments -/

abbrev adm : (p : Fin 3) → (pcfgs (F := F) p).Adm := fun p => (cfgs p).toPCfg_adm
/-- Each layer's proof data at the contents it is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- Beside the buffers: the random generator's register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- Layer 1 as a segment: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 2 as a segment: entered with every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Layer 3 as a segment: entered with every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor

/-- The seven stretches in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ),
    .host (hseg hostOps3 hostOps3_sub hostOps3_fresh' (W6 m ρ)) ]
theorem main_run (c : Dev nD) : main (F := F) c = Pipeline.Seg.run (segs m ρ) := (main_chain c).trans (by chain_rfl)

set_option backward.isDefEq.respectTransparency.types false in
/-- Every weakly fair execution of the program terminates, nothing faulting, and ends with every unscoped buffer at
    the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => show (iprop(StableHlo.held (c : Thread nD τ) (Pipeline.ucRefs τ sig) (W7 m ρ c) ∗ R c) : sProp 𝕄)
        ⊢ iprop(Tₙ m ρ c ∗ ∃ W, owes (c : Thread nD τ) (0 : CellTallies nD τ sig Unit) W) from by
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Layers

end
-- ==== Proof.IdealFrame.lean ====
/-
  Every argument array ends as launched, read off the buffers' contents at the eight boundaries.

  A host stretch leaves every buffer it does not write as it was; a layer changes only its two result arrays (an
  array it reads ends as it was found, a buffer that is no window's array is not touched). So a buffer that no host
  stretch writes and that is no layer's result array holds at the last boundary what it held at launch: each of
  the sixteen arguments does, which with the run gives the frame.
-/
import proofs.«145267_j3582002725212_1_alg».proof.Proof.IdealRun
import proofs.«145267_j3582002725212_1_alg».proof.Proof.Gen.KernelIdeal.Regions
import proofs.«145267_j3582002725212_1_alg».proof.Proof.Gen.Pre_finite_inputs
import proofs.«145267_j3582002725212_1_alg».proof.Defs

noncomputable section

namespace Cert.KernelIdeal.Layers

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ) (ρ : Dev nD → PrngReg)

/-! ## What each stretch leaves unchanged -/

/-- At launch the boundary's contents are the memory's. -/
theorem W0_eq (c : Dev nD) (r : Ref sig .tc) : W0 m ρ c (Proc.devRef .tc r) = m ((c : Thread nD τ).loc r) := rfl

/-- The host stretch before layer 1 leaves a buffer it does not write as it was. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- Of layer 1's windows, all but the two result arrays' are read only. -/
theorem isOut0 : ∀ w : Fin cfg0.W, Pipeline.arrRef spec0 w ≠ main_v15_0 → Pipeline.arrRef spec0 w ≠ main_v15_1 → (cfg0.win w).isOut = false := by
  decide

/-- Layer 1 leaves every buffer other than its two result arrays as it found it. -/
theorem W2_keep (c : Dev nD) (b : Ref sig .tc) (h6 : b ≠ main_v15_0) (h7 : b ≠ main_v15_1) :
    W2 m ρ c (Proc.devRef .tc b) = W1 m ρ c (Proc.devRef .tc b) := by
  by_cases h : ∃ w, Pipeline.arrRef spec0 w = b
  · obtain ⟨w, rfl⟩ := h
    exact W2_in m ρ c w (isOut0 w h6 h7)
  · exact W2_of_ne m ρ c b fun w e => h ⟨w, e⟩

/-- The host stretch before layer 2 leaves a buffer it does not write as it was. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- Of layer 2's windows, all but the two result arrays' are read only. -/
theorem isOut1 : ∀ w : Fin cfg1.W, Pipeline.arrRef spec1 w ≠ main_v31_0 → Pipeline.arrRef spec1 w ≠ main_v31_1 → (cfg1.win w).isOut = false := by
  decide

/-- Layer 2 leaves every buffer other than its two result arrays as it found it. -/
theorem W4_keep (c : Dev nD) (b : Ref sig .tc) (h6 : b ≠ main_v31_0) (h7 : b ≠ main_v31_1) :
    W4 m ρ c (Proc.devRef .tc b) = W3 m ρ c (Proc.devRef .tc b) := by
  by_cases h : ∃ w, Pipeline.arrRef spec1 w = b
  · obtain ⟨w, rfl⟩ := h
    exact W4_in m ρ c w (isOut1 w h6 h7)
  · exact W4_of_ne m ρ c b fun w e => h ⟨w, e⟩

/-- The host stretch before layer 3 leaves a buffer it does not write as it was. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- Of layer 3's windows, all but the two result arrays' are read only. -/
theorem isOut2 : ∀ w : Fin cfg2.W, Pipeline.arrRef spec2 w ≠ main_v47_0 → Pipeline.arrRef spec2 w ≠ main_v47_1 → (cfg2.win w).isOut = false := by
  decide

/-- Layer 3 leaves every buffer other than its two result arrays as it found it. -/
theorem W6_keep (c : Dev nD) (b : Ref sig .tc) (h6 : b ≠ main_v47_0) (h7 : b ≠ main_v47_1) :
    W6 m ρ c (Proc.devRef .tc b) = W5 m ρ c (Proc.devRef .tc b) := by
  by_cases h : ∃ w, Pipeline.arrRef spec2 w = b
  · obtain ⟨w, rfl⟩ := h
    exact W6_in m ρ c w (isOut2 w h6 h7)
  · exact W6_of_ne m ρ c b fun w e => h ⟨w, e⟩

/-- The host stretch of the final concatenation leaves a buffer it does not write as it was. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-- A buffer no host stretch writes and that is no layer's result array holds at the last boundary what it held at
    launch. -/
theorem W7_of_launch (c : Dev nD) (r : Ref sig .tc) (h0 : r ∉ hostOps0_W) (h1 : r ∉ hostOps1_W) (h2 : r ∉ hostOps2_W) (h3 : r ∉ hostOps3_W)
    (ha : r ≠ main_v15_0) (hb : r ≠ main_v15_1) (hc : r ≠ main_v31_0) (hd : r ≠ main_v31_1) (he : r ≠ main_v47_0) (hf : r ≠ main_v47_1) :
    W7 m ρ c (Proc.devRef .tc r) = m ((c : Thread nD τ).loc r) :=
  (W7_of m ρ c r h3).trans <| (W6_keep m ρ c r he hf).trans <| (W5_of m ρ c r h2).trans <| (W4_keep m ρ c r hc hd).trans <|
    (W3_of m ρ c r h1).trans <| (W2_keep m ρ c r ha hb).trans <| (W1_of m ρ c r h0).trans (W0_eq m ρ c r)

/-! ## No stretch changes an argument -/

theorem W7_main_arg0 (c : Dev nD) : W7 m ρ c (Proc.devRef .tc main_arg0) = m ((c : Thread nD τ).loc main_arg0) :=
  W7_of_launch m ρ c main_arg0 (by decide) (by decide) (by decide) (by decide) (by decide) (by decide) (by decide) (by decide) (by decide) (by decide)
theorem W7_main_arg1 (c : Dev nD) : W7 m ρ c (Proc.devRef .tc main_arg1) = m ((c : Thread nD τ).loc main_arg1) :=
  W7_of_launch m ρ c main_arg1 (by decide) (by decide) (by decide) (by decide) (by decide) (by decide) (by decide) (by decide) (by decide) (by decide)
theorem W7_main_arg2 (c : Dev nD) : W7 m ρ c (Proc.devRef .tc main_arg2) = m ((c : Thread nD τ).loc main_arg2) :=
  W7_of_launch m ρ c main_arg2 (by decide) (by decide) (by decide) (by decide) (by decide) (by decide) (by decide) (by decide) (by decide) (by decide)
theorem W7_main_arg3 (c : Dev nD) : W7 m ρ c (Proc.devRef .tc main_arg3) = m ((c : Thread nD τ).loc main_arg3) :=
  W7_of_launch m ρ c main_arg3 (by decide) (by decide) (by decide) (by decide) (by decide) (by decide) (by decide) (by decide) (by decide) (by decide)
theorem W7_main_arg4 (c : Dev nD) : W7 m ρ c (Proc.devRef .tc main_arg4) = m ((c : Thread nD τ).loc main_arg4) :=
  W7_of_launch m ρ c main_arg4 (by decide) (by decide) (by decide) (by decide) (by decide) (by decide) (by decide) (by decide) (by decide) (by decide)
theorem W7_main_arg5 (c : Dev nD) : W7 m ρ c (Proc.devRef .tc main_arg5) = m ((c : Thread nD τ).loc main_arg5) :=
  W7_of_launch m ρ c main_arg5 (by decide) (by decide) (by decide) (by decide) (by decide) (by decide) (by decide) (by decide) (by decide) (by decide)
theorem W7_main_arg6 (c : Dev nD) : W7 m ρ c (Proc.devRef .tc main_arg6) = m ((c : Thread nD τ).loc main_arg6) :=
  W7_of_launch m ρ c main_arg6 (by decide) (by decide) (by decide) (by decide) (by decide) (by decide) (by decide) (by decide) (by decide) (by decide)
theorem W7_main_arg7 (c : Dev nD) : W7 m ρ c (Proc.devRef .tc main_arg7) = m ((c : Thread nD τ).loc main_arg7) :=
  W7_of_launch m ρ c main_arg7 (by decide) (by decide) (by decide) (by decide) (by decide) (by decide) (by decide) (by decide) (by decide) (by decide)
theorem W7_main_arg8 (c : Dev nD) : W7 m ρ c (Proc.devRef .tc main_arg8) = m ((c : Thread nD τ).loc main_arg8) :=
  W7_of_launch m ρ c main_arg8 (by decide) (by decide) (by decide) (by decide) (by decide) (by decide) (by decide) (by decide) (by decide) (by decide)
theorem W7_main_arg9 (c : Dev nD) : W7 m ρ c (Proc.devRef .tc main_arg9) = m ((c : Thread nD τ).loc main_arg9) :=
  W7_of_launch m ρ c main_arg9 (by decide) (by decide) (by decide) (by decide) (by decide) (by decide) (by decide) (by decide) (by decide) (by decide)
theorem W7_main_arg10 (c : Dev nD) : W7 m ρ c (Proc.devRef .tc main_arg10) = m ((c : Thread nD τ).loc main_arg10) :=
  W7_of_launch m ρ c main_arg10 (by decide) (by decide) (by decide) (by decide) (by decide) (by decide) (by decide) (by decide) (by decide) (by decide)
theorem W7_main_arg11 (c : Dev nD) : W7 m ρ c (Proc.devRef .tc main_arg11) = m ((c : Thread nD τ).loc main_arg11) :=
  W7_of_launch m ρ c main_arg11 (by decide) (by decide) (by decide) (by decide) (by decide) (by decide) (by decide) (by decide) (by decide) (by decide)
theorem W7_main_arg12 (c : Dev nD) : W7 m ρ c (Proc.devRef .tc main_arg12) = m ((c : Thread nD τ).loc main_arg12) :=
  W7_of_launch m ρ c main_arg12 (by decide) (by decide) (by decide) (by decide) (by decide) (by decide) (by decide) (by decide) (by decide) (by decide)
theorem W7_main_arg13 (c : Dev nD) : W7 m ρ c (Proc.devRef .tc main_arg13) = m ((c : Thread nD τ).loc main_arg13) :=
  W7_of_launch m ρ c main_arg13 (by decide) (by decide) (by decide) (by decide) (by decide) (by decide) (by decide) (by decide) (by decide) (by decide)
theorem W7_main_arg14 (c : Dev nD) : W7 m ρ c (Proc.devRef .tc main_arg14) = m ((c : Thread nD τ).loc main_arg14) :=
  W7_of_launch m ρ c main_arg14 (by decide) (by decide) (by decide) (by decide) (by decide) (by decide) (by decide) (by decide) (by decide) (by decide)
theorem W7_main_arg15 (c : Dev nD) : W7 m ρ c (Proc.devRef .tc main_arg15) = m ((c : Thread nD τ).loc main_arg15) :=
  W7_of_launch m ρ c main_arg15 (by decide) (by decide) (by decide) (by decide) (by decide) (by decide) (by decide) (by decide) (by decide) (by decide)

/-! ## The frame -/

/-- The program runs and its argument arrays end unchanged. -/
theorem frame_ki : Cert.frame_KernelIdeal := fun m ρ _ =>
  (θ_run _ _ _).mono (fun r h c => ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c),
      (h c _ (mem_uc main_arg13 (by decide))).trans (W7_main_arg13 m ρ c),
      (h c _ (mem_uc main_arg14 (by decide))).trans (W7_main_arg14 m ρ c),
      (h c _ (mem_uc main_arg15 (by decide))).trans (W7_main_arg15 m ρ c)⟩)
    (run (F := Ideal) m ρ)

end Cert.KernelIdeal.Layers

end
-- ==== Proof.IdealBlocks.lean ====
/-
  Where a block sits in its array. Grid point t of a layer reads rows 10000·t … 10000·t + 9999 of the node features and
  of the neighbour sums and writes the same rows of the two result arrays; the weights and the bias rows are read whole at
  every point. The ten row blocks of a result array cover it.
-/
import proofs.«145267_j3582002725212_1_alg».proof.Proof.IdealLayer0
import proofs.«145267_j3582002725212_1_alg».proof.Proof.IdealLayer1
import proofs.«145267_j3582002725212_1_alg».proof.Proof.IdealLayer2
import Idealize.ShloMosaic.Lib.ValueIdx
import Idealize.ShloMosaic.Lib.Pipeline.Value

set_option maxRecDepth 16384

noncomputable section

namespace Cert.KernelIdeal.Layers

open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

section
variable (V : (c : Dev nD) → (b : Ref sig .tc) → Buf (Elt F) ((c : Thread nD τ).loc b))

/-! ## Layer 1 -/

/-- The block index of every window at every grid point. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem lt0 (t : Fin cfg0.N) (p : Fin 10000) : t.val * 10000 + p.val < 100000 := by
  have h : t.val < 10 := lt_of_lt_of_eq t.isLt (show cfg0.N = 10 from N_0)
  omega

/-- Row p of block t of window 0 is row 10000·t + p of its array. -/
theorem emb0_0 (t : Fin cfg0.N) (p : Fin 10000) (k : Fin 64) :
    ((cfg0.win 0).blk t).view.emb (ix2 p k) = ix2 (⟨t.val * 10000 + p.val, lt0 t p⟩ : Fin 100000) k := by
  obtain ⟨e0a, e0b, e1a, e1b, e2a, e2b, e3a, e3b, e4a, e4b, e5a, e5b, e6a, e6b, e7a, e7b⟩ := idx0 t
  funext a; apply Fin.ext
  match a with
  | ⟨0, _⟩ => show win0_0.index t (0 : Fin 2) * 10000 + 1 * p.val = t.val * 10000 + p.val; omega
  | ⟨1, _⟩ => show win0_0.index t (1 : Fin 2) * 64 + 1 * k.val = k.val; omega
theorem iblk0_0_apply (c : Dev nD) (t : Fin cfg0.N) (p : Fin 10000) (k : Fin 64) :
    iblk0 V c 0 t (ix2 p k) = V c main_arg0 (ix2 (⟨t.val * 10000 + p.val, lt0 t p⟩ : Fin 100000) k) := by
  show V c main_arg0 (((cfg0.win 0).blk t).view.emb (ix2 p k)) = _
  rw [emb0_0]

/-- Row p of block t of window 1 is row 10000·t + p of its array. -/
theorem emb0_1 (t : Fin cfg0.N) (p : Fin 10000) (k : Fin 64) :
    ((cfg0.win 1).blk t).view.emb (ix2 p k) = ix2 (⟨t.val * 10000 + p.val, lt0 t p⟩ : Fin 100000) k := by
  obtain ⟨e0a, e0b, e1a, e1b, e2a, e2b, e3a, e3b, e4a, e4b, e5a, e5b, e6a, e6b, e7a, e7b⟩ := idx0 t
  funext a; apply Fin.ext
  match a with
  | ⟨0, _⟩ => show win0_1.index t (0 : Fin 2) * 10000 + 1 * p.val = t.val * 10000 + p.val; omega
  | ⟨1, _⟩ => show win0_1.index t (1 : Fin 2) * 64 + 1 * k.val = k.val; omega
theorem iblk0_1_apply (c : Dev nD) (t : Fin cfg0.N) (p : Fin 10000) (k : Fin 64) :
    iblk0 V c 1 t (ix2 p k) = V c main_v12 (ix2 (⟨t.val * 10000 + p.val, lt0 t p⟩ : Fin 100000) k) := by
  show V c main_v12 (((cfg0.win 1).blk t).view.emb (ix2 p k)) = _
  rw [emb0_1]

/-- Window 2 is read whole at every grid point. -/
theorem iblk0_2_apply (c : Dev nD) (t : Fin cfg0.N) (p : Fin 64) (k : Fin 64) :
    iblk0 V c 2 t (ix2 p k) = V c main_arg1 (ix2 p k) := by
  obtain ⟨e0a, e0b, e1a, e1b, e2a, e2b, e3a, e3b, e4a, e4b, e5a, e5b, e6a, e6b, e7a, e7b⟩ := idx0 t
  show V c main_arg1 (((cfg0.win 2).blk t).view.emb (ix2 p k)) = _
  have h : ((cfg0.win 2).blk t).view.emb (ix2 p k) = ix2 p k := by
    funext a; apply Fin.ext
    match a with
    | ⟨0, _⟩ => show win0_2.index t (0 : Fin 2) * 64 + 1 * p.val = p.val; omega
    | ⟨1, _⟩ => show win0_2.index t (1 : Fin 2) * 64 + 1 * k.val = k.val; omega
  rw [h]

/-- Window 3 is read whole at every grid point. -/
theorem iblk0_3_apply (c : Dev nD) (t : Fin cfg0.N) (p : Fin 1) (k : Fin 64) :
    iblk0 V c 3 t (ix2 p k) = V c main_v13 (ix2 p k) := by
  obtain ⟨e0a, e0b, e1a, e1b, e2a, e2b, e3a, e3b, e4a, e4b, e5a, e5b, e6a, e6b, e7a, e7b⟩ := idx0 t
  show V c main_v13 (((cfg0.win 3).blk t).view.emb (ix2 p k)) = _
  have h : ((cfg0.win 3).blk t).view.emb (ix2 p k) = ix2 p k := by
    funext a; apply Fin.ext
    match a with
    | ⟨0, _⟩ => show win0_3.index t (0 : Fin 2) * 1 + 1 * p.val = p.val; omega
    | ⟨1, _⟩ => show win0_3.index t (1 : Fin 2) * 64 + 1 * k.val = k.val; omega
  rw [h]

/-- Window 4 is read whole at every grid point. -/
theorem iblk0_4_apply (c : Dev nD) (t : Fin cfg0.N) (p : Fin 64) (k : Fin 64) :
    iblk0 V c 4 t (ix2 p k) = V c main_arg3 (ix2 p k) := by
  obtain ⟨e0a, e0b, e1a, e1b, e2a, e2b, e3a, e3b, e4a, e4b, e5a, e5b, e6a, e6b, e7a, e7b⟩ := idx0 t
  show V c main_arg3 (((cfg0.win 4).blk t).view.emb (ix2 p k)) = _
  have h : ((cfg0.win 4).blk t).view.emb (ix2 p k) = ix2 p k := by
    funext a; apply Fin.ext
    match a with
    | ⟨0, _⟩ => show win0_4.index t (0 : Fin 2) * 64 + 1 * p.val = p.val; omega
    | ⟨1, _⟩ => show win0_4.index t (1 : Fin 2) * 64 + 1 * k.val = k.val; omega
  rw [h]

/-- Window 5 is read whole at every grid point. -/
theorem iblk0_5_apply (c : Dev nD) (t : Fin cfg0.N) (p : Fin 1) (k : Fin 64) :
    iblk0 V c 5 t (ix2 p k) = V c main_v14 (ix2 p k) := by
  obtain ⟨e0a, e0b, e1a, e1b, e2a, e2b, e3a, e3b, e4a, e4b, e5a, e5b, e6a, e6b, e7a, e7b⟩ := idx0 t
  show V c main_v14 (((cfg0.win 5).blk t).view.emb (ix2 p k)) = _
  have h : ((cfg0.win 5).blk t).view.emb (ix2 p k) = ix2 p k := by
    funext a; apply Fin.ext
    match a with
    | ⟨0, _⟩ => show win0_5.index t (0 : Fin 2) * 1 + 1 * p.val = p.val; omega
    | ⟨1, _⟩ => show win0_5.index t (1 : Fin 2) * 64 + 1 * k.val = k.val; omega
  rw [h]

/-- Row p of block t of window 6 is row 10000·t + p of its array. -/
theorem emb0_6 (t : Fin cfg0.N) (p : Fin 10000) (k : Fin 64) :
    ((cfg0.win 6).blk t).view.emb (ix2 p k) = ix2 (⟨t.val * 10000 + p.val, lt0 t p⟩ : Fin 100000) k := by
  obtain ⟨e0a, e0b, e1a, e1b, e2a, e2b, e3a, e3b, e4a, e4b, e5a, e5b, e6a, e6b, e7a, e7b⟩ := idx0 t
  funext a; apply Fin.ext
  match a with
  | ⟨0, _⟩ => show win0_6.index t (0 : Fin 2) * 10000 + 1 * p.val = t.val * 10000 + p.val; omega
  | ⟨1, _⟩ => show win0_6.index t (1 : Fin 2) * 64 + 1 * k.val = k.val; omega

/-- Row p of block t of window 7 is row 10000·t + p of its array. -/
theorem emb0_7 (t : Fin cfg0.N) (p : Fin 10000) (k : Fin 64) :
    ((cfg0.win 7).blk t).view.emb (ix2 p k) = ix2 (⟨t.val * 10000 + p.val, lt0 t p⟩ : Fin 100000) k := by
  obtain ⟨e0a, e0b, e1a, e1b, e2a, e2b, e3a, e3b, e4a, e4b, e5a, e5b, e6a, e6b, e7a, e7b⟩ := idx0 t
  funext a; apply Fin.ext
  match a with
  | ⟨0, _⟩ => show win0_7.index t (0 : Fin 2) * 10000 + 1 * p.val = t.val * 10000 + p.val; omega
  | ⟨1, _⟩ => show win0_7.index t (1 : Fin 2) * 64 + 1 * k.val = k.val; omega

theorem mem_blk0_6 (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v15_0).slice (win0_6.rect t)).set ↔ _
  rw [View.set_slice_whole, Rect.mem_set_unit]
  exact Iff.rfl

/-- Every row of result array 1 lies in one of the ten blocks written back. -/
theorem cover0_6 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨e0a, e0b, e1a, e1b, e2a, e2b, e3a, e3b, e4a, e4b, e5a, e5b, e6a, e6b, e7a, e7b⟩ := idx0 t
  have q0 : win0_6.index t (0 : Fin 2) = (i 0).val / 10000 := e6a
  refine ⟨t, flush0_6 t, ?_⟩
  rw [mem_blk0_6]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

theorem mem_blk0_7 (t : Fin cfg0.N) (i : S100000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole main_v15_1).slice (win0_7.rect t)).set ↔ _
  rw [View.set_slice_whole, Rect.mem_set_unit]
  exact Iff.rfl

/-- Every row of result array 2 lies in one of the ten blocks written back. -/
theorem cover0_7 (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨e0a, e0b, e1a, e1b, e2a, e2b, e3a, e3b, e4a, e4b, e5a, e5b, e6a, e6b, e7a, e7b⟩ := idx0 t
  have q0 : win0_7.index t (0 : Fin 2) = (i 0).val / 10000 := e7a
  refine ⟨t, flush0_7 t, ?_⟩
  rw [mem_blk0_7]
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 64 ≤ (i 1).val ∧ (i 1).val < win0_7.index t (1 : Fin 2) * 64 + 64; omega

/-! ## Layer 2 -/

/-- The block index of every window at every grid point. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem lt1 (t : Fin cfg1.N) (p : Fin 10000) : t.val * 10000 + p.val < 100000 := by
  have h : t.val < 10 := lt_of_lt_of_eq t.isLt (show cfg1.N = 10 from N_1)
  omega

/-- Row p of block t of window 0 is row 10000·t + p of its array. -/
theorem emb1_0 (t : Fin cfg1.N) (p : Fin 10000) (k : Fin 64) :
    ((cfg1.win 0).blk t).view.emb (ix2 p k) = ix2 (⟨t.val * 10000 + p.val, lt1 t p⟩ : Fin 100000) k := by
  obtain ⟨e0a, e0b, e1a, e1b, e2a, e2b, e3a, e3b, e4a, e4b, e5a, e5b, e6a, e6b, e7a, e7b⟩ := idx1 t
  funext a; apply Fin.ext
  match a with
  | ⟨0, _⟩ => show win1_0.index t (0 : Fin 2) * 10000 + 1 * p.val = t.val * 10000 + p.val; omega
  | ⟨1, _⟩ => show win1_0.index t (1 : Fin 2) * 64 + 1 * k.val = k.val; omega
theorem iblk1_0_apply (c : Dev nD) (t : Fin cfg1.N) (p : Fin 10000) (k : Fin 64) :
    iblk1 V c 0 t (ix2 p k) = V c main_v15_0 (ix2 (⟨t.val * 10000 + p.val, lt1 t p⟩ : Fin 100000) k) := by
  show V c main_v15_0 (((cfg1.win 0).blk t).view.emb (ix2 p k)) = _
  rw [emb1_0]

/-- Row p of block t of window 1 is row 10000·t + p of its array. -/
theorem emb1_1 (t : Fin cfg1.N) (p : Fin 10000) (k : Fin 64) :
    ((cfg1.win 1).blk t).view.emb (ix2 p k) = ix2 (⟨t.val * 10000 + p.val, lt1 t p⟩ : Fin 100000) k := by
  obtain ⟨e0a, e0b, e1a, e1b, e2a, e2b, e3a, e3b, e4a, e4b, e5a, e5b, e6a, e6b, e7a, e7b⟩ := idx1 t
  funext a; apply Fin.ext
  match a with
  | ⟨0, _⟩ => show win1_1.index t (0 : Fin 2) * 10000 + 1 * p.val = t.val * 10000 + p.val; omega
  | ⟨1, _⟩ => show win1_1.index t (1 : Fin 2) * 64 + 1 * k.val = k.val; omega
theorem iblk1_1_apply (c : Dev nD) (t : Fin cfg1.N) (p : Fin 10000) (k : Fin 64) :
    iblk1 V c 1 t (ix2 p k) = V c main_v28 (ix2 (⟨t.val * 10000 + p.val, lt1 t p⟩ : Fin 100000) k) := by
  show V c main_v28 (((cfg1.win 1).blk t).view.emb (ix2 p k)) = _
  rw [emb1_1]

/-- Window 2 is read whole at every grid point. -/
theorem iblk1_2_apply (c : Dev nD) (t : Fin cfg1.N) (p : Fin 32) (k : Fin 64) :
    iblk1 V c 2 t (ix2 p k) = V c main_arg5 (ix2 p k) := by
  obtain ⟨e0a, e0b, e1a, e1b, e2a, e2b, e3a, e3b, e4a, e4b, e5a, e5b, e6a, e6b, e7a, e7b⟩ := idx1 t
  show V c main_arg5 (((cfg1.win 2).blk t).view.emb (ix2 p k)) = _
  have h : ((cfg1.win 2).blk t).view.emb (ix2 p k) = ix2 p k := by
    funext a; apply Fin.ext
    match a with
    | ⟨0, _⟩ => show win1_2.index t (0 : Fin 2) * 32 + 1 * p.val = p.val; omega
    | ⟨1, _⟩ => show win1_2.index t (1 : Fin 2) * 64 + 1 * k.val = k.val; omega
  rw [h]

/-- Window 3 is read whole at every grid point. -/
theorem iblk1_3_apply (c : Dev nD) (t : Fin cfg1.N) (p : Fin 1) (k : Fin 32) :
    iblk1 V c 3 t (ix2 p k) = V c main_v29 (ix2 p k) := by
  obtain ⟨e0a, e0b, e1a, e1b, e2a, e2b, e3a, e3b, e4a, e4b, e5a, e5b, e6a, e6b, e7a, e7b⟩ := idx1 t
  show V c main_v29 (((cfg1.win 3).blk t).view.emb (ix2 p k)) = _
  have h : ((cfg1.win 3).blk t).view.emb (ix2 p k) = ix2 p k := by
    funext a; apply Fin.ext
    match a with
    | ⟨0, _⟩ => show win1_3.index t (0 : Fin 2) * 1 + 1 * p.val = p.val; omega
    | ⟨1, _⟩ => show win1_3.index t (1 : Fin 2) * 32 + 1 * k.val = k.val; omega
  rw [h]

/-- Window 4 is read whole at every grid point. -/
theorem iblk1_4_apply (c : Dev nD) (t : Fin cfg1.N) (p : Fin 32) (k : Fin 64) :
    iblk1 V c 4 t (ix2 p k) = V c main_arg7 (ix2 p k) := by
  obtain ⟨e0a, e0b, e1a, e1b, e2a, e2b, e3a, e3b, e4a, e4b, e5a, e5b, e6a, e6b, e7a, e7b⟩ := idx1 t
  show V c main_arg7 (((cfg1.win 4).blk t).view.emb (ix2 p k)) = _
  have h : ((cfg1.win 4).blk t).view.emb (ix2 p k) = ix2 p k := by
    funext a; apply Fin.ext
    match a with
    | ⟨0, _⟩ => show win1_4.index t (0 : Fin 2) * 32 + 1 * p.val = p.val; omega
    | ⟨1, _⟩ => show win1_4.index t (1 : Fin 2) * 64 + 1 * k.val = k.val; omega
  rw [h]

/-- Window 5 is read whole at every grid point. -/
theorem iblk1_5_apply (c : Dev nD) (t : Fin cfg1.N) (p : Fin 1) (k : Fin 32) :
    iblk1 V c 5 t (ix2 p k) = V c main_v30 (ix2 p k) := by
  obtain ⟨e0a, e0b, e1a, e1b, e2a, e2b, e3a, e3b, e4a, e4b, e5a, e5b, e6a, e6b, e7a, e7b⟩ := idx1 t
  show V c main_v30 (((cfg1.win 5).blk t).view.emb (ix2 p k)) = _
  have h : ((cfg1.win 5).blk t).view.emb (ix2 p k) = ix2 p k := by
    funext a; apply Fin.ext
    match a with
    | ⟨0, _⟩ => show win1_5.index t (0 : Fin 2) * 1 + 1 * p.val = p.val; omega
    | ⟨1, _⟩ => show win1_5.index t (1 : Fin 2) * 32 + 1 * k.val = k.val; omega
  rw [h]

/-- Row p of block t of window 6 is row 10000·t + p of its array. -/
theorem emb1_6 (t : Fin cfg1.N) (p : Fin 10000) (k : Fin 32) :
    ((cfg1.win 6).blk t).view.emb (ix2 p k) = ix2 (⟨t.val * 10000 + p.val, lt1 t p⟩ : Fin 100000) k := by
  obtain ⟨e0a, e0b, e1a, e1b, e2a, e2b, e3a, e3b, e4a, e4b, e5a, e5b, e6a, e6b, e7a, e7b⟩ := idx1 t
  funext a; apply Fin.ext
  match a with
  | ⟨0, _⟩ => show win1_6.index t (0 : Fin 2) * 10000 + 1 * p.val = t.val * 10000 + p.val; omega
  | ⟨1, _⟩ => show win1_6.index t (1 : Fin 2) * 32 + 1 * k.val = k.val; omega

/-- Row p of block t of window 7 is row 10000·t + p of its array. -/
theorem emb1_7 (t : Fin cfg1.N) (p : Fin 10000) (k : Fin 32) :
    ((cfg1.win 7).blk t).view.emb (ix2 p k) = ix2 (⟨t.val * 10000 + p.val, lt1 t p⟩ : Fin 100000) k := by
  obtain ⟨e0a, e0b, e1a, e1b, e2a, e2b, e3a, e3b, e4a, e4b, e5a, e5b, e6a, e6b, e7a, e7b⟩ := idx1 t
  funext a; apply Fin.ext
  match a with
  | ⟨0, _⟩ => show win1_7.index t (0 : Fin 2) * 10000 + 1 * p.val = t.val * 10000 + p.val; omega
  | ⟨1, _⟩ => show win1_7.index t (1 : Fin 2) * 32 + 1 * k.val = k.val; omega

theorem mem_blk1_6 (t : Fin cfg1.N) (i : S100000x32.Idx) :
    i ∈ ((cfg1.win 6).blk t).view.set ↔ ∀ a : Fin 2, win1_6.index t a * S10000x32.size a ≤ (i a).val ∧ (i a).val < win1_6.index t a * S10000x32.size a + S10000x32.size a := by
  show i ∈ ((View.whole main_v31_0).slice (win1_6.rect t)).set ↔ _
  rw [View.set_slice_whole, Rect.mem_set_unit]
  exact Iff.rfl

/-- Every row of result array 1 lies in one of the ten blocks written back. -/
theorem cover1_6 (i : S100000x32.Idx) : ∃ t : Fin cfg1.N, (cfg1.win 6).flush t = true ∧ i ∈ ((cfg1.win 6).blk t).view.set := by
  have hi0 : (i 0).val < 100000 := (i 0).isLt
  have hi1 : (i 1).val < 32 := (i 1).isLt
  let t : Fin cfg1.N := ⟨(i 0).val / 10000, by rw [show cfg1.N = 10 from N_1]; omega⟩
  obtain ⟨e0a, e0b, e1a, e1b, e2a, e2b, e3a, e3b, e4a, e4b, e5a, e5b, e6a, e6b, e7a, e7b⟩ := idx1 t
  have q0 : win1_6.index t (0 : Fin 2) = (i 0).val / 10000 := e6a
  refine ⟨t, flush1_6 t, ?_⟩
  rw [mem_blk1_6]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 32 ≤ (i 1).val ∧ (i 1).val < win1_6.index t (1 : Fin 2) * 32 + 32; omega

theorem mem_blk1_7 (t : Fin cfg1.N) (i : S100000x32.Idx) :
    i ∈ ((cfg1.win 7).blk t).view.set ↔ ∀ a : Fin 2, win1_7.index t a * S10000x32.size a ≤ (i a).val ∧ (i a).val < win1_7.index t a * S10000x32.size a + S10000x32.size a := by
  show i ∈ ((View.whole main_v31_1).slice (win1_7.rect t)).set ↔ _
  rw [View.set_slice_whole, Rect.mem_set_unit]
  exact Iff.rfl

/-- Every row of result array 2 lies in one of the ten blocks written back. -/
theorem cover1_7 (i : S100000x32.Idx) : ∃ t : Fin cfg1.N, (cfg1.win 7).flush t = true ∧ i ∈ ((cfg1.win 7).blk t).view.set := by
  have hi0 : (i 0).val < 100000 := (i 0).isLt
  have hi1 : (i 1).val < 32 := (i 1).isLt
  let t : Fin cfg1.N := ⟨(i 0).val / 10000, by rw [show cfg1.N = 10 from N_1]; omega⟩
  obtain ⟨e0a, e0b, e1a, e1b, e2a, e2b, e3a, e3b, e4a, e4b, e5a, e5b, e6a, e6b, e7a, e7b⟩ := idx1 t
  have q0 : win1_7.index t (0 : Fin 2) = (i 0).val / 10000 := e7a
  refine ⟨t, flush1_7 t, ?_⟩
  rw [mem_blk1_7]
  intro a
  match a with
  | ⟨0, _⟩ => show win1_7.index t (0 : Fin 2) * 10000 ≤ (i 0).val ∧ (i 0).val < win1_7.index t (0 : Fin 2) * 10000 + 10000; omega
  | ⟨1, _⟩ => show win1_7.index t (1 : Fin 2) * 32 ≤ (i 1).val ∧ (i 1).val < win1_7.index t (1 : Fin 2) * 32 + 32; omega

/-! ## Layer 3 -/

/-- The block index of every window at every grid point. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem lt2 (t : Fin cfg2.N) (p : Fin 10000) : t.val * 10000 + p.val < 100000 := by
  have h : t.val < 10 := lt_of_lt_of_eq t.isLt (show cfg2.N = 10 from N_2)
  omega

/-- Row p of block t of window 0 is row 10000·t + p of its array. -/
theorem emb2_0 (t : Fin cfg2.N) (p : Fin 10000) (k : Fin 32) :
    ((cfg2.win 0).blk t).view.emb (ix2 p k) = ix2 (⟨t.val * 10000 + p.val, lt2 t p⟩ : Fin 100000) k := by
  obtain ⟨e0a, e0b, e1a, e1b, e2a, e2b, e3a, e3b, e4a, e4b, e5a, e5b, e6a, e6b, e7a, e7b⟩ := idx2 t
  funext a; apply Fin.ext
  match a with
  | ⟨0, _⟩ => show win2_0.index t (0 : Fin 2) * 10000 + 1 * p.val = t.val * 10000 + p.val; omega
  | ⟨1, _⟩ => show win2_0.index t (1 : Fin 2) * 32 + 1 * k.val = k.val; omega
theorem iblk2_0_apply (c : Dev nD) (t : Fin cfg2.N) (p : Fin 10000) (k : Fin 32) :
    iblk2 V c 0 t (ix2 p k) = V c main_v31_0 (ix2 (⟨t.val * 10000 + p.val, lt2 t p⟩ : Fin 100000) k) := by
  show V c main_v31_0 (((cfg2.win 0).blk t).view.emb (ix2 p k)) = _
  rw [emb2_0]

/-- Row p of block t of window 1 is row 10000·t + p of its array. -/
theorem emb2_1 (t : Fin cfg2.N) (p : Fin 10000) (k : Fin 32) :
    ((cfg2.win 1).blk t).view.emb (ix2 p k) = ix2 (⟨t.val * 10000 + p.val, lt2 t p⟩ : Fin 100000) k := by
  obtain ⟨e0a, e0b, e1a, e1b, e2a, e2b, e3a, e3b, e4a, e4b, e5a, e5b, e6a, e6b, e7a, e7b⟩ := idx2 t
  funext a; apply Fin.ext
  match a with
  | ⟨0, _⟩ => show win2_1.index t (0 : Fin 2) * 10000 + 1 * p.val = t.val * 10000 + p.val; omega
  | ⟨1, _⟩ => show win2_1.index t (1 : Fin 2) * 32 + 1 * k.val = k.val; omega
theorem iblk2_1_apply (c : Dev nD) (t : Fin cfg2.N) (p : Fin 10000) (k : Fin 32) :
    iblk2 V c 1 t (ix2 p k) = V c main_v44 (ix2 (⟨t.val * 10000 + p.val, lt2 t p⟩ : Fin 100000) k) := by
  show V c main_v44 (((cfg2.win 1).blk t).view.emb (ix2 p k)) = _
  rw [emb2_1]

/-- Window 2 is read whole at every grid point. -/
theorem iblk2_2_apply (c : Dev nD) (t : Fin cfg2.N) (p : Fin 16) (k : Fin 32) :
    iblk2 V c 2 t (ix2 p k) = V c main_arg9 (ix2 p k) := by
  obtain ⟨e0a, e0b, e1a, e1b, e2a, e2b, e3a, e3b, e4a, e4b, e5a, e5b, e6a, e6b, e7a, e7b⟩ := idx2 t
  show V c main_arg9 (((cfg2.win 2).blk t).view.emb (ix2 p k)) = _
  have h : ((cfg2.win 2).blk t).view.emb (ix2 p k) = ix2 p k := by
    funext a; apply Fin.ext
    match a with
    | ⟨0, _⟩ => show win2_2.index t (0 : Fin 2) * 16 + 1 * p.val = p.val; omega
    | ⟨1, _⟩ => show win2_2.index t (1 : Fin 2) * 32 + 1 * k.val = k.val; omega
  rw [h]

/-- Window 3 is read whole at every grid point. -/
theorem iblk2_3_apply (c : Dev nD) (t : Fin cfg2.N) (p : Fin 1) (k : Fin 16) :
    iblk2 V c 3 t (ix2 p k) = V c main_v45 (ix2 p k) := by
  obtain ⟨e0a, e0b, e1a, e1b, e2a, e2b, e3a, e3b, e4a, e4b, e5a, e5b, e6a, e6b, e7a, e7b⟩ := idx2 t
  show V c main_v45 (((cfg2.win 3).blk t).view.emb (ix2 p k)) = _
  have h : ((cfg2.win 3).blk t).view.emb (ix2 p k) = ix2 p k := by
    funext a; apply Fin.ext
    match a with
    | ⟨0, _⟩ => show win2_3.index t (0 : Fin 2) * 1 + 1 * p.val = p.val; omega
    | ⟨1, _⟩ => show win2_3.index t (1 : Fin 2) * 16 + 1 * k.val = k.val; omega
  rw [h]

/-- Window 4 is read whole at every grid point. -/
theorem iblk2_4_apply (c : Dev nD) (t : Fin cfg2.N) (p : Fin 16) (k : Fin 32) :
    iblk2 V c 4 t (ix2 p k) = V c main_arg11 (ix2 p k) := by
  obtain ⟨e0a, e0b, e1a, e1b, e2a, e2b, e3a, e3b, e4a, e4b, e5a, e5b, e6a, e6b, e7a, e7b⟩ := idx2 t
  show V c main_arg11 (((cfg2.win 4).blk t).view.emb (ix2 p k)) = _
  have h : ((cfg2.win 4).blk t).view.emb (ix2 p k) = ix2 p k := by
    funext a; apply Fin.ext
    match a with
    | ⟨0, _⟩ => show win2_4.index t (0 : Fin 2) * 16 + 1 * p.val = p.val; omega
    | ⟨1, _⟩ => show win2_4.index t (1 : Fin 2) * 32 + 1 * k.val = k.val; omega
  rw [h]

/-- Window 5 is read whole at every grid point. -/
theorem iblk2_5_apply (c : Dev nD) (t : Fin cfg2.N) (p : Fin 1) (k : Fin 16) :
    iblk2 V c 5 t (ix2 p k) = V c main_v46 (ix2 p k) := by
  obtain ⟨e0a, e0b, e1a, e1b, e2a, e2b, e3a, e3b, e4a, e4b, e5a, e5b, e6a, e6b, e7a, e7b⟩ := idx2 t
  show V c main_v46 (((cfg2.win 5).blk t).view.emb (ix2 p k)) = _
  have h : ((cfg2.win 5).blk t).view.emb (ix2 p k) = ix2 p k := by
    funext a; apply Fin.ext
    match a with
    | ⟨0, _⟩ => show win2_5.index t (0 : Fin 2) * 1 + 1 * p.val = p.val; omega
    | ⟨1, _⟩ => show win2_5.index t (1 : Fin 2) * 16 + 1 * k.val = k.val; omega
  rw [h]

/-- Row p of block t of window 6 is row 10000·t + p of its array. -/
theorem emb2_6 (t : Fin cfg2.N) (p : Fin 10000) (k : Fin 16) :
    ((cfg2.win 6).blk t).view.emb (ix2 p k) = ix2 (⟨t.val * 10000 + p.val, lt2 t p⟩ : Fin 100000) k := by
  obtain ⟨e0a, e0b, e1a, e1b, e2a, e2b, e3a, e3b, e4a, e4b, e5a, e5b, e6a, e6b, e7a, e7b⟩ := idx2 t
  funext a; apply Fin.ext
  match a with
  | ⟨0, _⟩ => show win2_6.index t (0 : Fin 2) * 10000 + 1 * p.val = t.val * 10000 + p.val; omega
  | ⟨1, _⟩ => show win2_6.index t (1 : Fin 2) * 16 + 1 * k.val = k.val; omega

/-- Row p of block t of window 7 is row 10000·t + p of its array. -/
theorem emb2_7 (t : Fin cfg2.N) (p : Fin 10000) (k : Fin 16) :
    ((cfg2.win 7).blk t).view.emb (ix2 p k) = ix2 (⟨t.val * 10000 + p.val, lt2 t p⟩ : Fin 100000) k := by
  obtain ⟨e0a, e0b, e1a, e1b, e2a, e2b, e3a, e3b, e4a, e4b, e5a, e5b, e6a, e6b, e7a, e7b⟩ := idx2 t
  funext a; apply Fin.ext
  match a with
  | ⟨0, _⟩ => show win2_7.index t (0 : Fin 2) * 10000 + 1 * p.val = t.val * 10000 + p.val; omega
  | ⟨1, _⟩ => show win2_7.index t (1 : Fin 2) * 16 + 1 * k.val = k.val; omega

theorem mem_blk2_6 (t : Fin cfg2.N) (i : S100000x16.Idx) :
    i ∈ ((cfg2.win 6).blk t).view.set ↔ ∀ a : Fin 2, win2_6.index t a * S10000x16.size a ≤ (i a).val ∧ (i a).val < win2_6.index t a * S10000x16.size a + S10000x16.size a := by
  show i ∈ ((View.whole main_v47_0).slice (win2_6.rect t)).set ↔ _
  rw [View.set_slice_whole, Rect.mem_set_unit]
  exact Iff.rfl

/-- Every row of result array 1 lies in one of the ten blocks written back. -/
theorem cover2_6 (i : S100000x16.Idx) : ∃ t : Fin cfg2.N, (cfg2.win 6).flush t = true ∧ i ∈ ((cfg2.win 6).blk t).view.set := by
  have hi0 : (i 0).val < 100000 := (i 0).isLt
  have hi1 : (i 1).val < 16 := (i 1).isLt
  let t : Fin cfg2.N := ⟨(i 0).val / 10000, by rw [show cfg2.N = 10 from N_2]; omega⟩
  obtain ⟨e0a, e0b, e1a, e1b, e2a, e2b, e3a, e3b, e4a, e4b, e5a, e5b, e6a, e6b, e7a, e7b⟩ := idx2 t
  have q0 : win2_6.index t (0 : Fin 2) = (i 0).val / 10000 := e6a
  refine ⟨t, flush2_6 t, ?_⟩
  rw [mem_blk2_6]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 16 ≤ (i 1).val ∧ (i 1).val < win2_6.index t (1 : Fin 2) * 16 + 16; omega

theorem mem_blk2_7 (t : Fin cfg2.N) (i : S100000x16.Idx) :
    i ∈ ((cfg2.win 7).blk t).view.set ↔ ∀ a : Fin 2, win2_7.index t a * S10000x16.size a ≤ (i a).val ∧ (i a).val < win2_7.index t a * S10000x16.size a + S10000x16.size a := by
  show i ∈ ((View.whole main_v47_1).slice (win2_7.rect t)).set ↔ _
  rw [View.set_slice_whole, Rect.mem_set_unit]
  exact Iff.rfl

/-- Every row of result array 2 lies in one of the ten blocks written back. -/
theorem cover2_7 (i : S100000x16.Idx) : ∃ t : Fin cfg2.N, (cfg2.win 7).flush t = true ∧ i ∈ ((cfg2.win 7).blk t).view.set := by
  have hi0 : (i 0).val < 100000 := (i 0).isLt
  have hi1 : (i 1).val < 16 := (i 1).isLt
  let t : Fin cfg2.N := ⟨(i 0).val / 10000, by rw [show cfg2.N = 10 from N_2]; omega⟩
  obtain ⟨e0a, e0b, e1a, e1b, e2a, e2b, e3a, e3b, e4a, e4b, e5a, e5b, e6a, e6b, e7a, e7b⟩ := idx2 t
  have q0 : win2_7.index t (0 : Fin 2) = (i 0).val / 10000 := e7a
  refine ⟨t, flush2_7 t, ?_⟩
  rw [mem_blk2_7]
  intro a
  match a with
  | ⟨0, _⟩ => show win2_7.index t (0 : Fin 2) * 10000 ≤ (i 0).val ∧ (i 0).val < win2_7.index t (0 : Fin 2) * 10000 + 10000; omega
  | ⟨1, _⟩ => show win2_7.index t (1 : Fin 2) * 16 ≤ (i 1).val ∧ (i 1).val < win2_7.index t (1 : Fin 2) * 16 + 16; omega

end

end Cert.KernelIdeal.Layers

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«145267_j3582002725212_1_alg».proof.Proof.LibContract
import proofs.«145267_j3582002725212_1_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibHostRows.lean ====
/-
  The host's reductions along the rows of a matrix, read at a row, on the extended reals and for any extents.

  A `stablehlo.reduce` over axis 1 of an [n, k] matrix whose body takes the larger of two values is, at row r, the
  fold of max from the initial value over the row's k entries; one whose body adds is the initial value plus the sum
  of the row's k entries.
-/
import Idealize.ShloMosaic.PureOps.Ideal.Laws
import Idealize.ShloMosaic.Lib.ValueIdx

noncomputable section

open scoped BigOperators

namespace Idealize.ShloMosaic.HostRows

open Idealize.ShloMosaic Idealize.ShloMosaic.ValueIdx

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- On the extended reals the float maximum is the order's. -/
theorem maximumf_eq_max : (FloatOps.maximumf (F := Ideal) (φ := .f32)) = (max : EReal → EReal → EReal) := by
  funext x y; rfl

/-- A host reduce with max over the columns of an `[n, k]` matrix, at row `r`: the fold of max over that row. -/
theorem reduce_max_rows_apply {n k : ℕ} (z : (⟨2, ![n, k]⟩ : Shape).Idx → EReal) {u : Shape} (init : u.Idx → EReal)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduce (max : EReal → EReal → EReal) z init h' hu (ix1 r)
      = (Finset.univ : Finset (Fin k)).fold max (init (Shape.Idx.first hu)) (fun c => z (ix2 r c)) :=
  (Host.reduce_eq_fold_single max z init h' h hu (ix1 r)).trans
    (Finset.fold_congr fun c _ => congrArg z (lift_rows h r c))

/-- A host reduce with add over the columns of an `[n, k]` matrix, at row `r`: the initial value plus the row's sum. -/
theorem reduceAdd_rows_apply {n k : ℕ} (x : FVec Ideal ⟨2, ![n, k]⟩ .f32) {u : Shape} (init : u.Idx → EReal)
    (h' : (⟨2, ![n, k]⟩ : Shape).ReducesTo [1] ⟨1, ![n]⟩) (h : (⟨2, ![n, k]⟩ : Shape).Reduces [1] ⟨1, ![n]⟩)
    (hu : 0 < u.numel) (r : Fin n) :
    Host.reduceAdd (F := Ideal) (φ := .f32) x init h' hu (ix1 r) = init (Shape.Idx.first hu) + ∑ c : Fin k, x (ix2 r c) := by
  show Ideal.hostReduceAdd h' x (init (Shape.Idx.first hu)) (ix1 r) = _
  rw [Ideal.hostReduceAdd_single h' h]
  exact congrArg (init (Shape.Idx.first hu) + ·) (Finset.sum_congr rfl fun c _ => congrArg x (lift_rows h r c))

end Idealize.ShloMosaic.HostRows

end
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKgatLayer.lean ====
/-
  One layer of a bi-interaction graph network, as matrices of extended reals.

  A layer takes the node embeddings x : [n, K] and the aggregated neighbour messages s : [n, K] of the same nodes,
  two weight matrices w1, w2 : [N, K] (stored output-major, so the layer multiplies by their transposes) and two bias
  vectors b1, b2 : [N]. With the affine map  pre y w b (r, j) = ∑ k < K, y (r, k) · w (j, k) + b j  and the leaky
  rectifier  lrelu t = t if t ≥ 0, else slope · t  (slope the f32 word 0x3C23D70A), the layer's new embedding is
      ego (r, j) = lrelu (pre (x + s) w1 b1 (r, j)) + lrelu (pre (x ⊙ s) w2 b2 (r, j)),
  the sum and the product x ⊙ s taken entry by entry, and its normalised form divides every row by the larger of
  its Euclidean length and the f32 word 0x2B8CBCCC:
      normed e (r, j) = e (r, j) / max (√(∑ j' < N, e (r, j')²)) eps.
  Both are functions of one row of x, s (of e) at a time, so a block of rows of the result is the result of the block.
  A vector program spells the layer with an in-body transpose, roundings to bf16 that change nothing on the extended
  reals, a matrix product into the zero accumulator, the bias row laid over every row, a comparison against a splat
  zero and a select; a host program with a transpose, a dot_general, the bias vector broadcast in two steps, and the
  rectifier against constants sent to every entry. Each spelling is the function above, for any extents.
-/
import Idealize.ShloMosaic.Lib.ValueIdx
import Idealize.ShloMosaic.Lib.Pipeline.Value
import Idealize.ShloMosaic.Lib.ValueLayout
import Idealize.ShloMosaic.PureOps.Ideal.Laws
import proofs.«145267_j3582002725212_1_alg».proof.Proof.LibDenseVec
import proofs.«145267_j3582002725212_1_alg».proof.Proof.LibKeepdims
import proofs.«145267_j3582002725212_1_alg».proof.Proof.LibRowSum
import proofs.«145267_j3582002725212_1_alg».proof.Proof.LibHostRows
import proofs.«145267_j3582002725212_1_alg».proof.Proof.LibColumn

noncomputable section

open scoped BigOperators

namespace Idealize.ShloMosaic.Kgat

open Idealize.ShloMosaic Idealize.ShloMosaic.ValueIdx

variable {n K N : ℕ}

/-- An [a, b] matrix of extended reals. -/
abbrev Mat (a b : ℕ) := (⟨2, ![a, b]⟩ : Shape).Idx → EReal

/-! ## The specification -/

/-- The leaky rectifier: t where t ≥ 0, slope · t elsewhere, the comparison and the two words as the float operations
    read them on the extended reals. -/
def lrelu (t : EReal) : EReal :=
  Scalar.select (Ideal.cmp .oge t (Ideal.ofBits .f32 0x00000000#32)) t (Ideal.ofBits .f32 0x3C23D70A#32 * t)

/-- The affine map with an output-major weight matrix: entry (r, j) is ∑ k, y (r, k) · w (j, k) + b j. -/
def pre (y : Mat n K) (w : Mat N K) (b : Fin N → EReal) : Mat n N :=
  fun i => ∑ k : Fin K, y (ix2 (i 0) k) * w (ix2 (i 1) k) + b (i 1)

/-- The layer's new embedding: lrelu of the affine map of x + s by (w1, b1), plus lrelu of the affine map of the
    entrywise product x ⊙ s by (w2, b2). -/
def ego (x s : Mat n K) (w1 w2 : Mat N K) (b1 b2 : Fin N → EReal) : Mat n N :=
  fun i => lrelu (pre (fun q => x q + s q) w1 b1 i) + lrelu (pre (fun q => x q * s q) w2 b2 i)

/-- Every row divided by the larger of its Euclidean length and the word 0x2B8CBCCC. -/
def normed (e : Mat n N) : Mat n N :=
  fun i => Ideal.div (e i)
    (max (Ideal.sqrt (∑ j : Fin N, e (ix2 (i 0) j) * e (ix2 (i 0) j))) (Ideal.ofBits .f32 0x2B8CBCCC#32))

/-- The affine map at (r, j). -/
theorem pre_apply (y : Mat n K) (w : Mat N K) (b : Fin N → EReal) (r : Fin n) (j : Fin N) :
    pre y w b (ix2 r j) = ∑ k : Fin K, y (ix2 r k) * w (ix2 j k) + b j := rfl

/-- The new embedding at (r, j). -/
theorem ego_apply (x s : Mat n K) (w1 w2 : Mat N K) (b1 b2 : Fin N → EReal) (r : Fin n) (j : Fin N) :
    ego x s w1 w2 b1 b2 (ix2 r j)
      = lrelu (∑ k : Fin K, (x (ix2 r k) + s (ix2 r k)) * w1 (ix2 j k) + b1 j)
        + lrelu (∑ k : Fin K, (x (ix2 r k) * s (ix2 r k)) * w2 (ix2 j k) + b2 j) := rfl

/-- The normalised embedding at (r, j). -/
theorem normed_apply (e : Mat n N) (r : Fin n) (j : Fin N) :
    normed e (ix2 r j)
      = Ideal.div (e (ix2 r j))
          (max (Ideal.sqrt (∑ j' : Fin N, e (ix2 r j') * e (ix2 r j'))) (Ideal.ofBits .f32 0x2B8CBCCC#32)) := rfl

/-- The new embedding of a row depends on that row of x and s only: if row r' of (x', s') is row r of (x, s), then
    row r' of the one result is row r of the other, whatever the two row counts. -/
theorem ego_rows {n' : ℕ} (x' s' : Mat n' K) (x s : Mat n K) (w1 w2 : Mat N K) (b1 b2 : Fin N → EReal)
    (r' : Fin n') (r : Fin n) (hx : ∀ k, x' (ix2 r' k) = x (ix2 r k)) (hs : ∀ k, s' (ix2 r' k) = s (ix2 r k))
    (j : Fin N) : ego x' s' w1 w2 b1 b2 (ix2 r' j) = ego x s w1 w2 b1 b2 (ix2 r j) := by
  simp only [ego_apply, hx, hs]

/-- The normalised row likewise depends on that row only. -/
theorem normed_rows {n' : ℕ} (e' : Mat n' N) (e : Mat n N) (r' : Fin n') (r : Fin n)
    (he : ∀ j, e' (ix2 r' j) = e (ix2 r j)) (j : Fin N) : normed e' (ix2 r' j) = normed e (ix2 r j) := by
  simp only [normed_apply, he]

end Idealize.ShloMosaic.Kgat

end
-- ==== Proof.LibKgatSpell.lean ====
/-
  The two spellings of a bi-interaction layer are the layer.

  A vector program computes the layer on a block of rows: it transposes each output-major weight matrix, rounds the
  operands to bf16 (the identity on the extended reals), multiplies into the zero accumulator, lays the [1, N] bias row
  over every row, and rectifies by comparing with a splat zero and selecting between the value and the slope times the
  value; it normalises by summing the squares along each row, standing the sums up as a column, taking the root and
  the larger of it and a splat word, and dividing by that column spread along the rows. A host program transposes,
  contracts with dot_general, broadcasts the bias vector under a unit axis and down the rows, rectifies against
  constants sent to every entry, and normalises with a reduce from the zero constant and two broadcasts. Each is, as
  a whole array and for any extents, Kgat.ego, respectively Kgat.normed.
-/
import Idealize.ShloMosaic.Lib.ValueIdx
import Idealize.ShloMosaic.Lib.Pipeline.Value
import Idealize.ShloMosaic.Lib.ValueLayout
import Idealize.ShloMosaic.PureOps.Ideal.Laws
import proofs.«145267_j3582002725212_1_alg».proof.Proof.LibKgatLayer

noncomputable section

open scoped BigOperators

namespace Idealize.ShloMosaic.Kgat

open Idealize.ShloMosaic Idealize.ShloMosaic.ValueIdx

variable {n K N : ℕ}

/-! ## A printed dimension record -/

/-- Proves DenseVec.Plain D for a record D written out with contracting axes [1] and [0], free axes [0] and [1] and no
    batch axes: the contraction shape is read off the record; a free axis is not a batch axis and is the one free
    axis, so the operand's index there is the result's coordinate. -/
macro "plain_record" : tactic =>
  `(tactic| exact ⟨rfl, fun _ => rfl, rfl, rfl,
      fun j q => by unfold DotDims.lhsIdx; rw [dif_neg (by decide), dif_pos (by decide)]; rfl,
      fun j q => by unfold DotDims.rhsIdx; rw [dif_neg (by decide), dif_pos (by decide)]; rfl⟩)

example : DenseVec.Plain (DotDims.plain 7 3 5) := by plain_record

/-! ## The vector program's spelling -/

/-- Comparing with a splat zero and selecting the value or the splat slope times the value is the leaky rectifier at
    every entry. -/
theorem vec_act {s : Shape} (a : FVec Ideal s .f32) :
    select (cmpf .oge a (broadcast s (Scalar.ofBits (F := Ideal) .f32 0x00000000#32))) a
        (mulf (broadcast s (Scalar.ofBits (F := Ideal) .f32 0x3C23D70A#32)) a)
      = fun i => lrelu (a i) := rfl

/-- The product of the rounded operand with the rounded transpose of the weights, into the zero accumulator, plus the
    bias row laid over every row, is the affine map. -/
theorem vec_pre {D : DotDims (⟨2, ![n, K]⟩ : Shape) (⟨2, ![K, N]⟩ : Shape) (⟨2, ![n, N]⟩ : Shape)} (hD : DenseVec.Plain D)
    (y : FVec Ideal (⟨2, ![n, K]⟩ : Shape) .f32) (w : FVec Ideal (⟨2, ![N, K]⟩ : Shape) .f32)
    (b : FVec Ideal (⟨2, ![1, N]⟩ : Shape) .f32) (hφ : FTy.bf16.bits < FTy.f32.bits)
    (ht : (⟨2, ![N, K]⟩ : Shape).Transposes [1, 0] ⟨2, ![K, N]⟩)
    (hc : (⟨2, ![1, N]⟩ : Shape).ShapeCasts ⟨2, ![1, N]⟩) (hb : (⟨2, ![1, N]⟩ : Shape).Broadcasts ⟨2, ![n, N]⟩) :
    addf (matmul D none (truncf .bf16 y hφ) (truncf .bf16 (transpose (⟨2, ![K, N]⟩ : Shape) [1, 0] w ht) hφ)
          (constant (F := Ideal) (⟨2, ![n, N]⟩ : Shape) .f32 0x00000000#32))
        (broadcastTo (⟨2, ![n, N]⟩ : Shape) (shapeCast (⟨2, ![1, N]⟩ : Shape) b hc) hb)
      = pre y w (fun j => b (ix2 (0 : Fin 1) j)) := by
  funext i
  obtain ⟨r, j, rfl⟩ : ∃ (r : Fin n) (j : Fin N), i = ix2 r j := ⟨i 0, i 1, eq_ix2 i⟩
  rw [addf_apply, DenseVec.matmul_zero_ix2 hD, broadcastTo_1b_ab_apply, shapeCast_self, pre_apply]
  congr 1
  refine Finset.sum_congr rfl fun k _ => ?_
  rw [truncf_apply, truncf_apply, transpose_ix2_apply]

/-- The vector program's new embedding of a block of rows is the layer's. -/
theorem vec_ego {D : DotDims (⟨2, ![n, K]⟩ : Shape) (⟨2, ![K, N]⟩ : Shape) (⟨2, ![n, N]⟩ : Shape)} (hD : DenseVec.Plain D)
    (x s : FVec Ideal (⟨2, ![n, K]⟩ : Shape) .f32) (w1 w2 : FVec Ideal (⟨2, ![N, K]⟩ : Shape) .f32)
    (b1 b2 : FVec Ideal (⟨2, ![1, N]⟩ : Shape) .f32) (hφ : FTy.bf16.bits < FTy.f32.bits)
    (ht : (⟨2, ![N, K]⟩ : Shape).Transposes [1, 0] ⟨2, ![K, N]⟩)
    (hc : (⟨2, ![1, N]⟩ : Shape).ShapeCasts ⟨2, ![1, N]⟩) (hb : (⟨2, ![1, N]⟩ : Shape).Broadcasts ⟨2, ![n, N]⟩) :
    addf
        (select
          (cmpf .oge
            (addf (matmul D none (truncf .bf16 (addf x s) hφ) (truncf .bf16 (transpose (⟨2, ![K, N]⟩ : Shape) [1, 0] w1 ht) hφ)
                (constant (F := Ideal) (⟨2, ![n, N]⟩ : Shape) .f32 0x00000000#32))
              (broadcastTo (⟨2, ![n, N]⟩ : Shape) (shapeCast (⟨2, ![1, N]⟩ : Shape) b1 hc) hb))
            (broadcast (⟨2, ![n, N]⟩ : Shape) (Scalar.ofBits (F := Ideal) .f32 0x00000000#32)))
          (addf (matmul D none (truncf .bf16 (addf x s) hφ) (truncf .bf16 (transpose (⟨2, ![K, N]⟩ : Shape) [1, 0] w1 ht) hφ)
              (constant (F := Ideal) (⟨2, ![n, N]⟩ : Shape) .f32 0x00000000#32))
            (broadcastTo (⟨2, ![n, N]⟩ : Shape) (shapeCast (⟨2, ![1, N]⟩ : Shape) b1 hc) hb))
          (mulf (broadcast (⟨2, ![n, N]⟩ : Shape) (Scalar.ofBits (F := Ideal) .f32 0x3C23D70A#32))
            (addf (matmul D none (truncf .bf16 (addf x s) hφ) (truncf .bf16 (transpose (⟨2, ![K, N]⟩ : Shape) [1, 0] w1 ht) hφ)
                (constant (F := Ideal) (⟨2, ![n, N]⟩ : Shape) .f32 0x00000000#32))
              (broadcastTo (⟨2, ![n, N]⟩ : Shape) (shapeCast (⟨2, ![1, N]⟩ : Shape) b1 hc) hb))))
        (select
          (cmpf .oge
            (addf (matmul D none (truncf .bf16 (mulf x s) hφ) (truncf .bf16 (transpose (⟨2, ![K, N]⟩ : Shape) [1, 0] w2 ht) hφ)
                (constant (F := Ideal) (⟨2, ![n, N]⟩ : Shape) .f32 0x00000000#32))
              (broadcastTo (⟨2, ![n, N]⟩ : Shape) (shapeCast (⟨2, ![1, N]⟩ : Shape) b2 hc) hb))
            (broadcast (⟨2, ![n, N]⟩ : Shape) (Scalar.ofBits (F := Ideal) .f32 0x00000000#32)))
          (addf (matmul D none (truncf .bf16 (mulf x s) hφ) (truncf .bf16 (transpose (⟨2, ![K, N]⟩ : Shape) [1, 0] w2 ht) hφ)
              (constant (F := Ideal) (⟨2, ![n, N]⟩ : Shape) .f32 0x00000000#32))
            (broadcastTo (⟨2, ![n, N]⟩ : Shape) (shapeCast (⟨2, ![1, N]⟩ : Shape) b2 hc) hb))
          (mulf (broadcast (⟨2, ![n, N]⟩ : Shape) (Scalar.ofBits (F := Ideal) .f32 0x3C23D70A#32))
            (addf (matmul D none (truncf .bf16 (mulf x s) hφ) (truncf .bf16 (transpose (⟨2, ![K, N]⟩ : Shape) [1, 0] w2 ht) hφ)
                (constant (F := Ideal) (⟨2, ![n, N]⟩ : Shape) .f32 0x00000000#32))
              (broadcastTo (⟨2, ![n, N]⟩ : Shape) (shapeCast (⟨2, ![1, N]⟩ : Shape) b2 hc) hb))))
      = ego x s w1 w2 (fun j => b1 (ix2 (0 : Fin 1) j)) (fun j => b2 (ix2 (0 : Fin 1) j)) := by
  rw [vec_act, vec_act, vec_pre hD, vec_pre hD]
  rfl

/-- Dividing by the column of row lengths, each replaced by the splat word where that is larger, spread along the rows:
    the normalised embedding, given that the vector q holds each row's sum of squares. -/
theorem vec_normed_of (e : FVec Ideal (⟨2, ![n, N]⟩ : Shape) .f32) (q : FVec Ideal (⟨1, ![n]⟩ : Shape) .f32)
    (hq : ∀ r : Fin n, q (ix1 r) = ∑ j : Fin N, e (ix2 r j) * e (ix2 r j))
    (hc : (⟨1, ![n]⟩ : Shape).ShapeCasts ⟨2, ![n, 1]⟩) (hb : (⟨2, ![n, 1]⟩ : Shape).Broadcasts ⟨2, ![n, N]⟩) :
    divf e (broadcastTo (⟨2, ![n, N]⟩ : Shape)
        (maximumf (sqrt (shapeCast (⟨2, ![n, 1]⟩ : Shape) q hc))
          (broadcast (⟨2, ![n, 1]⟩ : Shape) (Scalar.ofBits (F := Ideal) .f32 0x2B8CBCCC#32))) hb)
      = normed e := by
  funext i
  obtain ⟨r, j, rfl⟩ : ∃ (r : Fin n) (j : Fin N), i = ix2 r j := ⟨i 0, i 1, eq_ix2 i⟩
  rw [divf_apply, broadcastTo_a1_ab_apply, maximumf_apply, normed_apply]
  show Ideal.div _ (max (Ideal.sqrt (shapeCast (⟨2, ![n, 1]⟩ : Shape) q hc (ix2 r (0 : Fin 1)))) _) = _
  rw [shapeCast_a_a1_apply, hq]
  rfl

/-- The same with the sums of squares spelled: the lane sum, into the zero accumulator, of the entrywise square. -/
theorem vec_normed (e : FVec Ideal (⟨2, ![n, N]⟩ : Shape) .f32)
    (h : (⟨2, ![n, N]⟩ : Shape).Reduces [1] ⟨1, ![n]⟩) (hφ : FKind.Formats .f32)
    (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, N]⟩) :
    divf e (broadcastTo (⟨2, ![n, N]⟩ : Shape)
        (maximumf (sqrt (shapeCast (⟨2, ![n, 1]⟩ : Shape)
            (multiReduction (F := Ideal) .add [1] (⟨1, ![n]⟩ : Shape) (mulf e e) 0x00000000#32 h hφ hacc) hc))
          (broadcast (⟨2, ![n, 1]⟩ : Shape) (Scalar.ofBits (F := Ideal) .f32 0x2B8CBCCC#32))) hb)
      = normed e :=
  vec_normed_of e _ (fun r => by rw [multiReduction_add_rows_apply]; rfl) hc hb

/-! ## The host program's spelling -/

/-- An [a, 1] column sent across its unit axis to [a, b] reads, at (i, j), the column's entry of row i. -/
theorem broadcastInDim_a1_ab_apply {α : Type} {a b : ℕ}
    (h2 : (⟨2, ![a, 1]⟩ : Shape).BroadcastsInDim ⟨2, ![a, b]⟩ ![0, 1]) (v : (⟨2, ![a, 1]⟩ : Shape).Idx → α)
    (i : Fin a) (j : Fin b) :
    broadcastInDim (⟨2, ![a, b]⟩ : Shape) ![0, 1] h2 v (ix2 i j) = v (ix2 i (0 : Fin 1)) := by
  refine broadcastInDim_apply _ h2 v (ix2 i j) (ix2 i (0 : Fin 1)) (fun x => ?_)
  match x with
  | ⟨0, _⟩ =>
    show i.val = if a = 1 then 0 else i.val
    split_ifs with h
    · have := i.isLt; omega
    · rfl
  | ⟨1, _⟩ =>
    show 0 = if (1 : Nat) = 1 then 0 else j.val
    rw [if_pos rfl]

/-- Comparing with the zero constant sent to every entry and selecting the value or the slope constant, sent to every
    entry, times the value is the leaky rectifier at every entry. -/
theorem host_act {s : Shape} (a : FVec Ideal s .f32) (h0 : (⟨0, ![]⟩ : Shape).BroadcastsInDim s ![]) :
    select (cmpf .oge a (broadcastInDim s ![] h0 (constant (F := Ideal) (⟨0, ![]⟩ : Shape) .f32 0x00000000#32))) a
        (mulf (broadcastInDim s ![] h0 (id (constant (F := Ideal) (⟨0, ![]⟩ : Shape) .f32 0x3C23D70A#32))) a)
      = fun i => lrelu (a i) := rfl

/-- The dot_general with the transposed weights plus the bias vector set under a unit axis and sent down the rows is
    the affine map. -/
theorem host_pre {D : DotDims (⟨2, ![n, K]⟩ : Shape) (⟨2, ![K, N]⟩ : Shape) (⟨2, ![n, N]⟩ : Shape)} (hD : DenseVec.Plain D)
    (y : FVec Ideal (⟨2, ![n, K]⟩ : Shape) .f32) (w : FVec Ideal (⟨2, ![N, K]⟩ : Shape) .f32)
    (b : FVec Ideal (⟨1, ![N]⟩ : Shape) .f32)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![n, N]⟩ ![0, 1]) :
    addf (Host.dotGeneral D none y (transpose (⟨2, ![K, N]⟩ : Shape) [1, 0] w ht))
        (broadcastInDim (⟨2, ![n, N]⟩ : Shape) ![0, 1] h2 (broadcastInDim (⟨2, ![1, N]⟩ : Shape) ![1] h1 b))
      = pre y w (fun j => b (ix1 j)) := by
  funext i
  obtain ⟨r, j, rfl⟩ : ∃ (r : Fin n) (j : Fin N), i = ix2 r j := ⟨i 0, i 1, eq_ix2 i⟩
  rw [addf_apply, DenseVec.dotGeneral_ix2 hD, Keepdims.cols_apply h1 h2 b r j, pre_apply]
  congr 1
  refine Finset.sum_congr rfl fun k _ => ?_
  rw [transpose_ix2_apply]

/-- The host program's new embedding is the layer's. -/
theorem host_ego {D : DotDims (⟨2, ![n, K]⟩ : Shape) (⟨2, ![K, N]⟩ : Shape) (⟨2, ![n, N]⟩ : Shape)} (hD : DenseVec.Plain D)
    (x s : FVec Ideal (⟨2, ![n, K]⟩ : Shape) .f32) (w1 w2 : FVec Ideal (⟨2, ![N, K]⟩ : Shape) .f32)
    (b1 b2 : FVec Ideal (⟨1, ![N]⟩ : Shape) .f32)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![n, N]⟩ ![0, 1])
    (h0 : (⟨0, ![]⟩ : Shape).BroadcastsInDim ⟨2, ![n, N]⟩ ![]) :
    addf
        (select
          (cmpf .oge
            (addf (Host.dotGeneral D none (addf x s) (transpose (⟨2, ![K, N]⟩ : Shape) [1, 0] w1 ht))
            (broadcastInDim (⟨2, ![n, N]⟩ : Shape) ![0, 1] h2 (broadcastInDim (⟨2, ![1, N]⟩ : Shape) ![1] h1 b1)))
            (broadcastInDim (⟨2, ![n, N]⟩ : Shape) ![] h0 (constant (F := Ideal) (⟨0, ![]⟩ : Shape) .f32 0x00000000#32)))
          (addf (Host.dotGeneral D none (addf x s) (transpose (⟨2, ![K, N]⟩ : Shape) [1, 0] w1 ht))
            (broadcastInDim (⟨2, ![n, N]⟩ : Shape) ![0, 1] h2 (broadcastInDim (⟨2, ![1, N]⟩ : Shape) ![1] h1 b1)))
          (mulf (broadcastInDim (⟨2, ![n, N]⟩ : Shape) ![] h0 (id (constant (F := Ideal) (⟨0, ![]⟩ : Shape) .f32 0x3C23D70A#32)))
            (addf (Host.dotGeneral D none (addf x s) (transpose (⟨2, ![K, N]⟩ : Shape) [1, 0] w1 ht))
            (broadcastInDim (⟨2, ![n, N]⟩ : Shape) ![0, 1] h2 (broadcastInDim (⟨2, ![1, N]⟩ : Shape) ![1] h1 b1)))))
        (select
          (cmpf .oge
            (addf (Host.dotGeneral D none (mulf x s) (transpose (⟨2, ![K, N]⟩ : Shape) [1, 0] w2 ht))
            (broadcastInDim (⟨2, ![n, N]⟩ : Shape) ![0, 1] h2 (broadcastInDim (⟨2, ![1, N]⟩ : Shape) ![1] h1 b2)))
            (broadcastInDim (⟨2, ![n, N]⟩ : Shape) ![] h0 (constant (F := Ideal) (⟨0, ![]⟩ : Shape) .f32 0x00000000#32)))
          (addf (Host.dotGeneral D none (mulf x s) (transpose (⟨2, ![K, N]⟩ : Shape) [1, 0] w2 ht))
            (broadcastInDim (⟨2, ![n, N]⟩ : Shape) ![0, 1] h2 (broadcastInDim (⟨2, ![1, N]⟩ : Shape) ![1] h1 b2)))
          (mulf (broadcastInDim (⟨2, ![n, N]⟩ : Shape) ![] h0 (id (constant (F := Ideal) (⟨0, ![]⟩ : Shape) .f32 0x3C23D70A#32)))
            (addf (Host.dotGeneral D none (mulf x s) (transpose (⟨2, ![K, N]⟩ : Shape) [1, 0] w2 ht))
            (broadcastInDim (⟨2, ![n, N]⟩ : Shape) ![0, 1] h2 (broadcastInDim (⟨2, ![1, N]⟩ : Shape) ![1] h1 b2)))))
      = ego x s w1 w2 (fun j => b1 (ix1 j)) (fun j => b2 (ix1 j)) := by
  rw [host_act, host_act, host_pre hD, host_pre hD]
  rfl

/-- The host's row normalisation — the reduce of the entrywise square from the zero constant, stood up as a column,
    its root, the larger of that and the constant word sent to the column, sent across the rows, and the quotient —
    is the normalised embedding. -/
theorem host_normed (e : FVec Ideal (⟨2, ![n, N]⟩ : Shape) .f32)
    (h' : (⟨2, ![n, N]⟩ : Shape).ReducesTo [1] ⟨1, ![n]⟩) (h : (⟨2, ![n, N]⟩ : Shape).Reduces [1] ⟨1, ![n]⟩)
    (hu : 0 < (⟨0, ![]⟩ : Shape).numel)
    (h1 : (⟨1, ![n]⟩ : Shape).BroadcastsInDim ⟨2, ![n, 1]⟩ ![0])
    (h0 : (⟨0, ![]⟩ : Shape).BroadcastsInDim ⟨2, ![n, 1]⟩ ![])
    (h2 : (⟨2, ![n, 1]⟩ : Shape).BroadcastsInDim ⟨2, ![n, N]⟩ ![0, 1]) :
    Host.divf e (broadcastInDim (⟨2, ![n, N]⟩ : Shape) ![0, 1] h2
        (maximumf
          (Host.sqrt (broadcastInDim (⟨2, ![n, 1]⟩ : Shape) ![0] h1
            (Host.reduceAdd (F := Ideal) (φ := .f32) (mulf e e)
              (constant (F := Ideal) (⟨0, ![]⟩ : Shape) .f32 0x00000000#32) h' hu)))
          (broadcastInDim (⟨2, ![n, 1]⟩ : Shape) ![] h0 (constant (F := Ideal) (⟨0, ![]⟩ : Shape) .f32 0x2B8CBCCC#32))))
      = normed e := by
  funext i
  obtain ⟨r, j, rfl⟩ : ∃ (r : Fin n) (j : Fin N), i = ix2 r j := ⟨i 0, i 1, eq_ix2 i⟩
  show Ideal.div (e (ix2 r j)) _ = _
  rw [broadcastInDim_a1_ab_apply, maximumf_apply, normed_apply]
  show Ideal.div _ (max (Ideal.sqrt (broadcastInDim (⟨2, ![n, 1]⟩ : Shape) ![0] h1
    (Host.reduceAdd (F := Ideal) (φ := .f32) (mulf e e) (constant (F := Ideal) (⟨0, ![]⟩ : Shape) .f32 0x00000000#32) h' hu)
    (ix2 r (0 : Fin 1)))) _) = _
  rw [Keepdims.column_apply h1, HostRows.reduceAdd_rows_apply _ _ h' h hu r]
  show Ideal.div _ (max (Ideal.sqrt (Ideal.ofBits .f32 0x00000000#32 + _)) _) = _
  rw [Ideal.ofBits_zero_f32, zero_add]
  rfl

end Idealize.ShloMosaic.Kgat

end
-- ==== Proof.KernelLayer.lean ====
/-
  The kernel's three layer bodies are the bi-interaction layer on a block of rows.

  Each body loads a block of 10000 rows of the embeddings and of the neighbour sums, the two weight matrices and the
  two [1, N] bias rows, and computes the new embedding of those rows (its first stored value) and that embedding
  divided row by row by the larger of the row's Euclidean length and a small word (its second). As whole blocks these
  are Kgat.ego of the loaded blocks, with the bias rows read as vectors, and Kgat.normed of the new embedding.
  Layers: [10000, 64] → 64, [10000, 64] → 32, [10000, 32] → 16.
-/
import proofs.«145267_j3582002725212_1_alg».proof.Proof.Gen.KernelIdeal.Skeleton
import proofs.«145267_j3582002725212_1_alg».proof.Proof.LibKgatLayer
import proofs.«145267_j3582002725212_1_alg».proof.Proof.LibKgatSpell

noncomputable section

namespace Cert.KernelIdeal.Layer

open Idealize.ShloMosaic Idealize.ShloMosaic.ValueIdx Cert.KernelIdeal Cert.KernelIdeal.Gen

/-- The first layer's product record contracts the operand's columns with the transposed weights' rows. -/
theorem plain0 : DenseVec.Plain dot_S10000x64_S64x64_S10000x64_1_0_0_1_n_n := by plain_record

/-- The first body's new embedding of its block is the layer's. -/
theorem k0_ego (x0 x1 : Vec Ideal S10000x64 .f32) (w1 w2 : Vec Ideal S64x64 .f32) (b1 b2 : Vec Ideal S1x64 .f32) :
    k0_pay2 (F := Ideal) x0 x1 w1 w2 b1 b2
      = Kgat.ego x0 x1 w1 w2 (fun j => b1 (ix2 (0 : Fin 1) j)) (fun j => b2 (ix2 (0 : Fin 1) j)) := by
  unfold k0_pay2
  rw [shapeCast_self x1]
  exact Kgat.vec_ego plain0 x0 x1 w1 w2 b1 b2 _ _ _ _

/-- The first body's stored normalised block is the normalised embedding. -/
theorem k0_norm (x0 x1 : Vec Ideal S10000x64 .f32) (w1 w2 : Vec Ideal S64x64 .f32) (b1 b2 : Vec Ideal S1x64 .f32) :
    k0_pay1 (F := Ideal) (k0_pay2 x0 x1 w1 w2 b1 b2) (k0_pay3 x0 x1 w1 w2 b1 b2)
      = Kgat.normed (k0_pay2 (F := Ideal) x0 x1 w1 w2 b1 b2) := by
  unfold k0_pay1 k0_pay3
  exact Kgat.vec_normed _ _ _ _ _ _

/-- The second layer's product record contracts the operand's columns with the transposed weights' rows. -/
theorem plain1 : DenseVec.Plain dot_S10000x64_S64x32_S10000x32_1_0_0_1_n_n := by plain_record

/-- The second body's new embedding of its block is the layer's. -/
theorem k1_ego (x0 x1 : Vec Ideal S10000x64 .f32) (w1 w2 : Vec Ideal S32x64 .f32) (b1 b2 : Vec Ideal S1x32 .f32) :
    k1_pay2 (F := Ideal) x0 x1 w1 w2 b1 b2
      = Kgat.ego x0 x1 w1 w2 (fun j => b1 (ix2 (0 : Fin 1) j)) (fun j => b2 (ix2 (0 : Fin 1) j)) := by
  unfold k1_pay2
  rw [shapeCast_self x0, shapeCast_self x1]
  exact Kgat.vec_ego plain1 x0 x1 w1 w2 b1 b2 _ _ _ _

/-- The second body's normalising step, applied to a block and its entrywise square, is the normalised block. -/
theorem k1_norm_of (e : FVec Ideal S10000x32 .f32) : k1_pay1 (F := Ideal) e (mulf e e) = Kgat.normed e := by
  unfold k1_pay1
  exact Kgat.vec_normed _ _ _ _ _ _

/-- The second body's stored normalised block is the normalised embedding. -/
theorem k1_norm (x0 x1 : Vec Ideal S10000x64 .f32) (w1 w2 : Vec Ideal S32x64 .f32) (b1 b2 : Vec Ideal S1x32 .f32) :
    k1_pay1 (F := Ideal) (k1_pay2 x0 x1 w1 w2 b1 b2) (k1_pay3 x0 x1 w1 w2 b1 b2)
      = Kgat.normed (k1_pay2 (F := Ideal) x0 x1 w1 w2 b1 b2) :=
  k1_norm_of _

/-- The third layer's product record contracts the operand's columns with the transposed weights' rows. -/
theorem plain2 : DenseVec.Plain dot_S10000x32_S32x16_S10000x16_1_0_0_1_n_n := by plain_record

/-- The third body's new embedding of its block is the layer's. -/
theorem k2_ego (x0 x1 : Vec Ideal S10000x32 .f32) (w1 w2 : Vec Ideal S16x32 .f32) (b1 b2 : Vec Ideal S1x16 .f32) :
    k2_pay2 (F := Ideal) x0 x1 w1 w2 b1 b2
      = Kgat.ego x0 x1 w1 w2 (fun j => b1 (ix2 (0 : Fin 1) j)) (fun j => b2 (ix2 (0 : Fin 1) j)) := by
  unfold k2_pay2
  rw [shapeCast_self x0, shapeCast_self x1]
  exact Kgat.vec_ego plain2 x0 x1 w1 w2 b1 b2 _ _ _ _

/-- The third body's normalising step, applied to a block and its entrywise square, is the normalised block. -/
theorem k2_norm_of (e : FVec Ideal S10000x16 .f32) : k2_pay1 (F := Ideal) e (mulf e e) = Kgat.normed e := by
  unfold k2_pay1
  exact Kgat.vec_normed _ _ _ _ _ _

/-- The third body's stored normalised block is the normalised embedding. -/
theorem k2_norm (x0 x1 : Vec Ideal S10000x32 .f32) (w1 w2 : Vec Ideal S16x32 .f32) (b1 b2 : Vec Ideal S1x16 .f32) :
    k2_pay1 (F := Ideal) (k2_pay2 x0 x1 w1 w2 b1 b2) (k2_pay3 x0 x1 w1 w2 b1 b2)
      = Kgat.normed (k2_pay2 (F := Ideal) x0 x1 w1 w2 b1 b2) :=
  k2_norm_of _

end Cert.KernelIdeal.Layer

end
-- ==== Proof.IdealValue.lean ====
/-
  Each layer's two result arrays as whole functions of the arrays the layer is entered with. A result block's row depends
  only on the same row of the node features and of the neighbour sums (and on the whole weights and biases), so the ten
  blocks written back are the ten row ranges of one array: the layer's specification applied to the whole input arrays.
-/
import proofs.«145267_j3582002725212_1_alg».proof.Proof.IdealBlocks
import proofs.«145267_j3582002725212_1_alg».proof.Proof.KernelLayer

set_option maxRecDepth 16384

noncomputable section

namespace Cert.KernelIdeal.Layers

open Cert.KernelIdeal Cert.KernelIdeal.Gen
open Idealize.ShloMosaic.ValueIdx Cert.KernelIdeal.Layer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt Ideal) ((c : Thread nD τ).loc b))

/-! ## Layer 1 -/

/-- The new features of layer 1, all hundred thousand rows, from the arrays the layer finds. -/
def E0 (c : Dev nD) : S100000x64.Idx → EReal :=
  Kgat.ego (n := 100000) (K := 64) (N := 64) (V c main_arg0) (V c main_v12) (V c main_arg1) (V c main_arg3) (fun j => V c main_v13 (ix2 (0 : Fin 1) j)) (fun j => V c main_v14 (ix2 (0 : Fin 1) j))

/-- Their row-normalised copy. -/
def N0 (c : Dev nD) : S100000x64.Idx → EReal := Kgat.normed (E0 V c)

/-- Row p of the block computed at grid point t is row 10000·t + p of the whole array. -/
theorem ego_blk0 (c : Dev nD) (t : Fin cfg0.N) (p : Fin 10000) (q : Fin 64) :
    Kgat.ego (n := 10000) (K := 64) (N := 64) (iblk0 V c 0 t) (iblk0 V c 1 t) (iblk0 V c 2 t) (iblk0 V c 4 t) (fun j => iblk0 V c 3 t (ix2 (0 : Fin 1) j)) (fun j => iblk0 V c 5 t (ix2 (0 : Fin 1) j)) (ix2 p q)
      = E0 V c (ix2 (⟨t.val * 10000 + p.val, lt0 t p⟩ : Fin 100000) q) := by
  unfold E0
  rw [Kgat.ego_apply, Kgat.ego_apply]
  simp only [iblk0_0_apply, iblk0_1_apply, iblk0_2_apply, iblk0_3_apply, iblk0_4_apply, iblk0_5_apply]

theorem flushed0_6_eq (c : Dev nD) (t : Fin cfg0.N) :
    (dat0 V c).flushed 6 t = ((cfg0.win 6).blk t).view.read (Elt Ideal) (E0 V c) := by
  show (cfg0.win 6).cut (grid0.coords t) ((dat0 V c).after 6 t) = _
  rw [after0_6]
  unfold out0_6
  rw [View.canon_unit_zero hz]
  simp only [View.ld_unit_zero (S := S10000x64) hz, View.ld_unit_zero (S := S64x64) hz, View.ld_unit_zero (S := S1x64) hz]
  rw [k0_ego]
  funext j
  obtain ⟨p, q, rfl⟩ : ∃ (p : Fin 10000) (q : Fin 64), j = ix2 p q := ⟨j 0, j 1, eq_ix2 j⟩
  show Kgat.ego (n := 10000) (K := 64) (N := 64) (iblk0 V c 0 t) (iblk0 V c 1 t) (iblk0 V c 2 t) (iblk0 V c 4 t) (fun j => iblk0 V c 3 t (ix2 (0 : Fin 1) j)) (fun j => iblk0 V c 5 t (ix2 (0 : Fin 1) j)) (ix2 p q) = E0 V c (((cfg0.win 6).blk t).view.emb (ix2 p q))
  rw [emb0_6]
  exact ego_blk0 V c t p q

/-- The first result array after the layer. -/
theorem final0_6 (c : Dev nD) : (dat0 V c).arrAt 6 cfg0.N = E0 V c :=
  (dat0 V c).arrAt_eq_of_cover 6 (E0 V c) (fun t _ => flushed0_6_eq V c t) cover0_6

theorem flushed0_7_eq (c : Dev nD) (t : Fin cfg0.N) :
    (dat0 V c).flushed 7 t = ((cfg0.win 7).blk t).view.read (Elt Ideal) (N0 V c) := by
  show (cfg0.win 7).cut (grid0.coords t) ((dat0 V c).after 7 t) = _
  rw [after0_7]
  unfold out0_7
  rw [View.canon_unit_zero hz]
  simp only [View.ld_unit_zero (S := S10000x64) hz, View.ld_unit_zero (S := S64x64) hz, View.ld_unit_zero (S := S1x64) hz]
  rw [k0_norm, k0_ego]
  funext j
  obtain ⟨p, q, rfl⟩ : ∃ (p : Fin 10000) (q : Fin 64), j = ix2 p q := ⟨j 0, j 1, eq_ix2 j⟩
  show Kgat.normed (Kgat.ego (n := 10000) (K := 64) (N := 64) (iblk0 V c 0 t) (iblk0 V c 1 t) (iblk0 V c 2 t) (iblk0 V c 4 t) (fun j => iblk0 V c 3 t (ix2 (0 : Fin 1) j)) (fun j => iblk0 V c 5 t (ix2 (0 : Fin 1) j))) (ix2 p q) = N0 V c (((cfg0.win 7).blk t).view.emb (ix2 p q))
  rw [emb0_7]
  exact Kgat.normed_rows _ _ p _ (fun j' => ego_blk0 V c t p j') q

/-- The second result array after the layer. -/
theorem final0_7 (c : Dev nD) : (dat0 V c).arrAt 7 cfg0.N = N0 V c :=
  (dat0 V c).arrAt_eq_of_cover 7 (N0 V c) (fun t _ => flushed0_7_eq V c t) cover0_7

/-! ## Layer 2 -/

/-- The new features of layer 2, all hundred thousand rows, from the arrays the layer finds. -/
def E1 (c : Dev nD) : S100000x32.Idx → EReal :=
  Kgat.ego (n := 100000) (K := 64) (N := 32) (V c main_v15_0) (V c main_v28) (V c main_arg5) (V c main_arg7) (fun j => V c main_v29 (ix2 (0 : Fin 1) j)) (fun j => V c main_v30 (ix2 (0 : Fin 1) j))

/-- Their row-normalised copy. -/
def N1 (c : Dev nD) : S100000x32.Idx → EReal := Kgat.normed (E1 V c)

/-- Row p of the block computed at grid point t is row 10000·t + p of the whole array. -/
theorem ego_blk1 (c : Dev nD) (t : Fin cfg1.N) (p : Fin 10000) (q : Fin 32) :
    Kgat.ego (n := 10000) (K := 64) (N := 32) (iblk1 V c 0 t) (iblk1 V c 1 t) (iblk1 V c 2 t) (iblk1 V c 4 t) (fun j => iblk1 V c 3 t (ix2 (0 : Fin 1) j)) (fun j => iblk1 V c 5 t (ix2 (0 : Fin 1) j)) (ix2 p q)
      = E1 V c (ix2 (⟨t.val * 10000 + p.val, lt1 t p⟩ : Fin 100000) q) := by
  unfold E1
  rw [Kgat.ego_apply, Kgat.ego_apply]
  simp only [iblk1_0_apply, iblk1_1_apply, iblk1_2_apply, iblk1_3_apply, iblk1_4_apply, iblk1_5_apply]

theorem flushed1_6_eq (c : Dev nD) (t : Fin cfg1.N) :
    (dat1 V c).flushed 6 t = ((cfg1.win 6).blk t).view.read (Elt Ideal) (E1 V c) := by
  show (cfg1.win 6).cut (grid1.coords t) ((dat1 V c).after 6 t) = _
  rw [after1_6]
  unfold out1_6
  rw [View.canon_unit_zero hz]
  simp only [View.ld_unit_zero (S := S10000x64) hz, View.ld_unit_zero (S := S32x64) hz, View.ld_unit_zero (S := S1x32) hz]
  rw [k1_ego]
  funext j
  obtain ⟨p, q, rfl⟩ : ∃ (p : Fin 10000) (q : Fin 32), j = ix2 p q := ⟨j 0, j 1, eq_ix2 j⟩
  show Kgat.ego (n := 10000) (K := 64) (N := 32) (iblk1 V c 0 t) (iblk1 V c 1 t) (iblk1 V c 2 t) (iblk1 V c 4 t) (fun j => iblk1 V c 3 t (ix2 (0 : Fin 1) j)) (fun j => iblk1 V c 5 t (ix2 (0 : Fin 1) j)) (ix2 p q) = E1 V c (((cfg1.win 6).blk t).view.emb (ix2 p q))
  rw [emb1_6]
  exact ego_blk1 V c t p q

/-- The first result array after the layer. -/
theorem final1_6 (c : Dev nD) : (dat1 V c).arrAt 6 cfg1.N = E1 V c :=
  (dat1 V c).arrAt_eq_of_cover 6 (E1 V c) (fun t _ => flushed1_6_eq V c t) cover1_6

theorem flushed1_7_eq (c : Dev nD) (t : Fin cfg1.N) :
    (dat1 V c).flushed 7 t = ((cfg1.win 7).blk t).view.read (Elt Ideal) (N1 V c) := by
  show (cfg1.win 7).cut (grid1.coords t) ((dat1 V c).after 7 t) = _
  rw [after1_7]
  unfold out1_7
  rw [View.canon_unit_zero hz]
  simp only [View.ld_unit_zero (S := S10000x64) hz, View.ld_unit_zero (S := S32x64) hz, View.ld_unit_zero (S := S1x32) hz]
  rw [k1_norm, k1_ego]
  funext j
  obtain ⟨p, q, rfl⟩ : ∃ (p : Fin 10000) (q : Fin 32), j = ix2 p q := ⟨j 0, j 1, eq_ix2 j⟩
  show Kgat.normed (Kgat.ego (n := 10000) (K := 64) (N := 32) (iblk1 V c 0 t) (iblk1 V c 1 t) (iblk1 V c 2 t) (iblk1 V c 4 t) (fun j => iblk1 V c 3 t (ix2 (0 : Fin 1) j)) (fun j => iblk1 V c 5 t (ix2 (0 : Fin 1) j))) (ix2 p q) = N1 V c (((cfg1.win 7).blk t).view.emb (ix2 p q))
  rw [emb1_7]
  exact Kgat.normed_rows _ _ p _ (fun j' => ego_blk1 V c t p j') q

/-- The second result array after the layer. -/
theorem final1_7 (c : Dev nD) : (dat1 V c).arrAt 7 cfg1.N = N1 V c :=
  (dat1 V c).arrAt_eq_of_cover 7 (N1 V c) (fun t _ => flushed1_7_eq V c t) cover1_7

/-! ## Layer 3 -/

/-- The new features of layer 3, all hundred thousand rows, from the arrays the layer finds. -/
def E2 (c : Dev nD) : S100000x16.Idx → EReal :=
  Kgat.ego (n := 100000) (K := 32) (N := 16) (V c main_v31_0) (V c main_v44) (V c main_arg9) (V c main_arg11) (fun j => V c main_v45 (ix2 (0 : Fin 1) j)) (fun j => V c main_v46 (ix2 (0 : Fin 1) j))

/-- Their row-normalised copy. -/
def N2 (c : Dev nD) : S100000x16.Idx → EReal := Kgat.normed (E2 V c)

/-- Row p of the block computed at grid point t is row 10000·t + p of the whole array. -/
theorem ego_blk2 (c : Dev nD) (t : Fin cfg2.N) (p : Fin 10000) (q : Fin 16) :
    Kgat.ego (n := 10000) (K := 32) (N := 16) (iblk2 V c 0 t) (iblk2 V c 1 t) (iblk2 V c 2 t) (iblk2 V c 4 t) (fun j => iblk2 V c 3 t (ix2 (0 : Fin 1) j)) (fun j => iblk2 V c 5 t (ix2 (0 : Fin 1) j)) (ix2 p q)
      = E2 V c (ix2 (⟨t.val * 10000 + p.val, lt2 t p⟩ : Fin 100000) q) := by
  unfold E2
  rw [Kgat.ego_apply, Kgat.ego_apply]
  simp only [iblk2_0_apply, iblk2_1_apply, iblk2_2_apply, iblk2_3_apply, iblk2_4_apply, iblk2_5_apply]

theorem flushed2_6_eq (c : Dev nD) (t : Fin cfg2.N) :
    (dat2 V c).flushed 6 t = ((cfg2.win 6).blk t).view.read (Elt Ideal) (E2 V c) := by
  show (cfg2.win 6).cut (grid2.coords t) ((dat2 V c).after 6 t) = _
  rw [after2_6]
  unfold out2_6
  rw [View.canon_unit_zero hz]
  simp only [View.ld_unit_zero (S := S10000x32) hz, View.ld_unit_zero (S := S16x32) hz, View.ld_unit_zero (S := S1x16) hz]
  rw [k2_ego]
  funext j
  obtain ⟨p, q, rfl⟩ : ∃ (p : Fin 10000) (q : Fin 16), j = ix2 p q := ⟨j 0, j 1, eq_ix2 j⟩
  show Kgat.ego (n := 10000) (K := 32) (N := 16) (iblk2 V c 0 t) (iblk2 V c 1 t) (iblk2 V c 2 t) (iblk2 V c 4 t) (fun j => iblk2 V c 3 t (ix2 (0 : Fin 1) j)) (fun j => iblk2 V c 5 t (ix2 (0 : Fin 1) j)) (ix2 p q) = E2 V c (((cfg2.win 6).blk t).view.emb (ix2 p q))
  rw [emb2_6]
  exact ego_blk2 V c t p q

/-- The first result array after the layer. -/
theorem final2_6 (c : Dev nD) : (dat2 V c).arrAt 6 cfg2.N = E2 V c :=
  (dat2 V c).arrAt_eq_of_cover 6 (E2 V c) (fun t _ => flushed2_6_eq V c t) cover2_6

theorem flushed2_7_eq (c : Dev nD) (t : Fin cfg2.N) :
    (dat2 V c).flushed 7 t = ((cfg2.win 7).blk t).view.read (Elt Ideal) (N2 V c) := by
  show (cfg2.win 7).cut (grid2.coords t) ((dat2 V c).after 7 t) = _
  rw [after2_7]
  unfold out2_7
  rw [View.canon_unit_zero hz]
  simp only [View.ld_unit_zero (S := S10000x32) hz, View.ld_unit_zero (S := S16x32) hz, View.ld_unit_zero (S := S1x16) hz]
  rw [k2_norm, k2_ego]
  funext j
  obtain ⟨p, q, rfl⟩ : ∃ (p : Fin 10000) (q : Fin 16), j = ix2 p q := ⟨j 0, j 1, eq_ix2 j⟩
  show Kgat.normed (Kgat.ego (n := 10000) (K := 32) (N := 16) (iblk2 V c 0 t) (iblk2 V c 1 t) (iblk2 V c 2 t) (iblk2 V c 4 t) (fun j => iblk2 V c 3 t (ix2 (0 : Fin 1) j)) (fun j => iblk2 V c 5 t (ix2 (0 : Fin 1) j))) (ix2 p q) = N2 V c (((cfg2.win 7).blk t).view.emb (ix2 p q))
  rw [emb2_7]
  exact Kgat.normed_rows _ _ p _ (fun j' => ego_blk2 V c t p j') q

/-- The second result array after the layer. -/
theorem final2_7 (c : Dev nD) : (dat2 V c).arrAt 7 cfg2.N = N2 V c :=
  (dat2 V c).arrAt_eq_of_cover 7 (N2 V c) (fun t _ => flushed2_7_eq V c t) cover2_7

end

end Cert.KernelIdeal.Layers

end
-- ==== Proof.IdealHost.lean ====
/-
  What the host stretches compute. Before each layer the host forms the neighbour sum of the current node features — every
  edge takes the row of its column node scaled by the edge's value, and the rows are added up at the edges' row nodes —
  and views each bias vector as a one-row matrix; after the third layer it lays the input features and the three
  normalised results side by side.
-/
import proofs.«145267_j3582002725212_1_alg».proof.Proof.IdealRun
import Idealize.ShloMosaic.Lib.StableHlo.Run

set_option maxRecDepth 16384

noncomputable section

namespace Cert.KernelIdeal.Layers

open Cert.KernelIdeal Cert.KernelIdeal.Gen
open Idealize.ShloMosaic.StableHlo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The neighbour sum of a [100000, 64] feature array over the edge list: values `ev`, row nodes `er`, column nodes `ec`
    (a negative column counted from the end). -/
def side64 (ev : FVec F S1200000 .f32) (er ec : IVec S1200000 32) (x : FVec F S100000x64 .f32) : FVec F S100000x64 .f32 :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 er)
    (mulf (broadcastInDim S1200000x64 ![0, 1] bcast_S1200000x1_S1200000x64_0_1 (broadcastInDim S1200000x1 ![0] bcast_S1200000_S1200000x1_0 ev))
      (Host.gather gather_S100000x64_S1200000x1_S1200000x64_1_0_n_n_0_1_164 x
        (broadcastInDim S1200000x1 ![0] bcast_S1200000_S1200000x1_0
          (select (cmpi .slt ec (broadcastInDim S1200000 ![] bcast_S_S1200000 (constantI S_ 32 0#32)))
            (addi ec (broadcastInDim S1200000 ![] bcast_S_S1200000 (constantI S_ 32 100000#32))) ec))))

/-- The neighbour sum of a [100000, 32] feature array. -/
def side32 (ev : FVec F S1200000 .f32) (er ec : IVec S1200000 32) (x : FVec F S100000x32 .f32) : FVec F S100000x32 .f32 :=
  Host.scatterAdd scatter_S100000x32_S1200000x1_S1200000x32_1_0_0_1
    (broadcastInDim S100000x32 ![] bcast_S_S100000x32 (constant S_ .f32 0x00000000#32))
    (broadcastInDim S1200000x1 ![0] bcast_S1200000_S1200000x1_0 er)
    (mulf (broadcastInDim S1200000x32 ![0, 1] bcast_S1200000x1_S1200000x32_0_1 (broadcastInDim S1200000x1 ![0] bcast_S1200000_S1200000x1_0 ev))
      (Host.gather gather_S100000x32_S1200000x1_S1200000x32_1_0_n_n_0_1_132 x
        (broadcastInDim S1200000x1 ![0] bcast_S1200000_S1200000x1_0
          (select (cmpi .slt ec (broadcastInDim S1200000 ![] bcast_S_S1200000 (constantI S_ 32 0#32)))
            (addi ec (broadcastInDim S1200000 ![] bcast_S_S1200000 (constantI S_ 32 100000#32))) ec))))

variable (m : (ℓ : Loc nD τ sig) → Buf (Elt F) ℓ) (ρ : Dev nD → PrngReg)

set_option maxHeartbeats 4000000 in
theorem W1_side (c : Dev nD) : (W1 m ρ c (Proc.devRef .tc main_v12) : FVec F S100000x64 .f32)
    = side64 (W0 m ρ c (Proc.devRef .tc main_arg13)) (W0 m ρ c (Proc.devRef .tc main_arg14)) (W0 m ρ c (Proc.devRef .tc main_arg15)) (W0 m ρ c (Proc.devRef .tc main_arg0)) := by
  dsimp only [W1, hostOps0]
  after_results_simp
  rfl
set_option maxHeartbeats 4000000 in
theorem W1_b1 (c : Dev nD) : (W1 m ρ c (Proc.devRef .tc main_v13) : FVec F S1x64 .f32) = shapeCast S1x64 (W0 m ρ c (Proc.devRef .tc main_arg2)) shapeCasts_S64_S1x64 := by
  dsimp only [W1, hostOps0]
  after_results_simp
  rfl
set_option maxHeartbeats 4000000 in
theorem W1_b2 (c : Dev nD) : (W1 m ρ c (Proc.devRef .tc main_v14) : FVec F S1x64 .f32) = shapeCast S1x64 (W0 m ρ c (Proc.devRef .tc main_arg4)) shapeCasts_S64_S1x64 := by
  dsimp only [W1, hostOps0]
  after_results_simp
  rfl

set_option maxHeartbeats 4000000 in
theorem W3_side (c : Dev nD) : (W3 m ρ c (Proc.devRef .tc main_v28) : FVec F S100000x64 .f32)
    = side64 (W2 m ρ c (Proc.devRef .tc main_arg13)) (W2 m ρ c (Proc.devRef .tc main_arg14)) (W2 m ρ c (Proc.devRef .tc main_arg15)) (W2 m ρ c (Proc.devRef .tc main_v15_0)) := by
  dsimp only [W3, hostOps1]
  after_results_simp
  rfl
set_option maxHeartbeats 4000000 in
theorem W3_b1 (c : Dev nD) : (W3 m ρ c (Proc.devRef .tc main_v29) : FVec F S1x32 .f32) = shapeCast S1x32 (W2 m ρ c (Proc.devRef .tc main_arg6)) shapeCasts_S32_S1x32 := by
  dsimp only [W3, hostOps1]
  after_results_simp
  rfl
set_option maxHeartbeats 4000000 in
theorem W3_b2 (c : Dev nD) : (W3 m ρ c (Proc.devRef .tc main_v30) : FVec F S1x32 .f32) = shapeCast S1x32 (W2 m ρ c (Proc.devRef .tc main_arg8)) shapeCasts_S32_S1x32 := by
  dsimp only [W3, hostOps1]
  after_results_simp
  rfl

set_option maxHeartbeats 4000000 in
theorem W5_side (c : Dev nD) : (W5 m ρ c (Proc.devRef .tc main_v44) : FVec F S100000x32 .f32)
    = side32 (W4 m ρ c (Proc.devRef .tc main_arg13)) (W4 m ρ c (Proc.devRef .tc main_arg14)) (W4 m ρ c (Proc.devRef .tc main_arg15)) (W4 m ρ c (Proc.devRef .tc main_v31_0)) := by
  dsimp only [W5, hostOps2]
  after_results_simp
  rfl
set_option maxHeartbeats 4000000 in
theorem W5_b1 (c : Dev nD) : (W5 m ρ c (Proc.devRef .tc main_v45) : FVec F S1x16 .f32) = shapeCast S1x16 (W4 m ρ c (Proc.devRef .tc main_arg10)) shapeCasts_S16_S1x16 := by
  dsimp only [W5, hostOps2]
  after_results_simp
  rfl
set_option maxHeartbeats 4000000 in
theorem W5_b2 (c : Dev nD) : (W5 m ρ c (Proc.devRef .tc main_v46) : FVec F S1x16 .f32) = shapeCast S1x16 (W4 m ρ c (Proc.devRef .tc main_arg12)) shapeCasts_S16_S1x16 := by
  dsimp only [W5, hostOps2]
  after_results_simp
  rfl

set_option maxHeartbeats 4000000 in
/-- The result: the input features and the three normalised arrays side by side. -/
theorem W7_out (c : Dev nD) : (W7 m ρ c (Proc.devRef .tc main_v48) : FVec F S100000x176 .f32)
    = concatenate S100000x176 1 [⟨S100000x64, W6 m ρ c (Proc.devRef .tc main_arg0)⟩, ⟨S100000x64, W6 m ρ c (Proc.devRef .tc main_v15_1)⟩,
        ⟨S100000x32, W6 m ρ c (Proc.devRef .tc main_v31_1)⟩, ⟨S100000x16, W6 m ρ c (Proc.devRef .tc main_v47_1)⟩]
      concatenates_S100000x64_S100000x64_S100000x32_S100000x16_S100000x176_d1 := by
  dsimp only [W7, hostOps3]
  after_results_simp
  rfl

end Cert.KernelIdeal.Layers

end
-- ==== Proof.IdealSpec.lean ====
/-
  The whole network as one function of its sixteen argument arrays, in the spelling the kernel program gives it: three
  layers, each fed the previous layer's new features and their neighbour sum, the biases read as one-row matrices; the
  result lays the input features and the three row-normalised layer outputs side by side.
-/
import proofs.«145267_j3582002725212_1_alg».proof.Proof.IdealHost
import proofs.«145267_j3582002725212_1_alg».proof.Proof.LibKgatLayer

set_option maxRecDepth 16384

noncomputable section

namespace Cert.KernelIdeal.Layers

open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A bias vector of 64 entries viewed as the one-row matrix the layer reads, entry by entry. -/
def row64 (b : FVec Ideal S64 .f32) : Fin 64 → EReal := fun j => (shapeCast S1x64 b shapeCasts_S64_S1x64 : FVec Ideal S1x64 .f32) (ix2 (0 : Fin 1) j)
/-- A bias vector of 32 entries viewed as a one-row matrix. -/
def row32 (b : FVec Ideal S32 .f32) : Fin 32 → EReal := fun j => (shapeCast S1x32 b shapeCasts_S32_S1x32 : FVec Ideal S1x32 .f32) (ix2 (0 : Fin 1) j)
/-- A bias vector of 16 entries viewed as a one-row matrix. -/
def row16 (b : FVec Ideal S16 .f32) : Fin 16 → EReal := fun j => (shapeCast S1x16 b shapeCasts_S16_S1x16 : FVec Ideal S1x16 .f32) (ix2 (0 : Fin 1) j)

/-- Layer 1's new features: the layer applied to the input features and their neighbour sum. -/
def feat1 (ev : FVec Ideal S1200000 .f32) (er ec : IVec S1200000 32) (x : FVec Ideal S100000x64 .f32)
    (w1 : FVec Ideal S64x64 .f32) (b1 : FVec Ideal S64 .f32) (w2 : FVec Ideal S64x64 .f32) (b2 : FVec Ideal S64 .f32) : FVec Ideal S100000x64 .f32 :=
  Kgat.ego (n := 100000) (K := 64) (N := 64) x (side64 ev er ec x) w1 w2 (row64 b1) (row64 b2)
/-- Layer 2's, from layer 1's. -/
def feat2 (ev : FVec Ideal S1200000 .f32) (er ec : IVec S1200000 32) (x : FVec Ideal S100000x64 .f32)
    (w1 : FVec Ideal S32x64 .f32) (b1 : FVec Ideal S32 .f32) (w2 : FVec Ideal S32x64 .f32) (b2 : FVec Ideal S32 .f32) : FVec Ideal S100000x32 .f32 :=
  Kgat.ego (n := 100000) (K := 64) (N := 32) x (side64 ev er ec x) w1 w2 (row32 b1) (row32 b2)
/-- Layer 3's, from layer 2's. -/
def feat3 (ev : FVec Ideal S1200000 .f32) (er ec : IVec S1200000 32) (x : FVec Ideal S100000x32 .f32)
    (w1 : FVec Ideal S16x32 .f32) (b1 : FVec Ideal S16 .f32) (w2 : FVec Ideal S16x32 .f32) (b2 : FVec Ideal S16 .f32) : FVec Ideal S100000x16 .f32 :=
  Kgat.ego (n := 100000) (K := 32) (N := 16) x (side32 ev er ec x) w1 w2 (row16 b1) (row16 b2)

/-- The network's result from its sixteen argument arrays (in the program's argument order). -/
def netOut (x : FVec Ideal S100000x64 .f32) (w1 : FVec Ideal S64x64 .f32) (b1 : FVec Ideal S64 .f32) (w2 : FVec Ideal S64x64 .f32) (b2 : FVec Ideal S64 .f32)
    (w3 : FVec Ideal S32x64 .f32) (b3 : FVec Ideal S32 .f32) (w4 : FVec Ideal S32x64 .f32) (b4 : FVec Ideal S32 .f32)
    (w5 : FVec Ideal S16x32 .f32) (b5 : FVec Ideal S16 .f32) (w6 : FVec Ideal S16x32 .f32) (b6 : FVec Ideal S16 .f32)
    (ev : FVec Ideal S1200000 .f32) (er ec : IVec S1200000 32) : FVec Ideal S100000x176 .f32 :=
  concatenate S100000x176 1
    [⟨S100000x64, x⟩,
     ⟨S100000x64, Kgat.normed (feat1 ev er ec x w1 b1 w2 b2)⟩,
     ⟨S100000x32, Kgat.normed (feat2 ev er ec (feat1 ev er ec x w1 b1 w2 b2) w3 b3 w4 b4)⟩,
     ⟨S100000x16, Kgat.normed (feat3 ev er ec (feat2 ev er ec (feat1 ev er ec x w1 b1 w2 b2) w3 b3 w4 b4) w5 b5 w6 b6)⟩]
    concatenates_S100000x64_S100000x64_S100000x32_S100000x16_S100000x176_d1

end Cert.KernelIdeal.Layers

end
-- ==== Proof.IdealOut.lean ====
/-
  The kernel program's result as the network function of the launch arrays. Walking the eight boundaries: a host stretch
  leaves every buffer it does not write as it was, a layer every buffer but its two result arrays; so each layer is entered
  with the previous layer's new features, their neighbour sum, and the untouched weights and biases.
-/
import proofs.«145267_j3582002725212_1_alg».proof.Proof.IdealValue
import proofs.«145267_j3582002725212_1_alg».proof.Proof.IdealSpec
import proofs.«145267_j3582002725212_1_alg».proof.Proof.Gen.KernelIdeal.Regions

set_option maxRecDepth 16384

noncomputable section

namespace Cert.KernelIdeal.Layers

open Cert.KernelIdeal Cert.KernelIdeal.Gen
open Idealize.ShloMosaic.ValueIdx Idealize.ShloMosaic.StableHlo
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Keep
variable (m : (ℓ : Loc nD τ sig) → Buf (Elt F) ℓ) (ρ : Dev nD → PrngReg)

/-- A host stretch leaves a buffer it does not write as it was. -/
theorem stretch0_keeps (c : Dev nD) (r : Ref sig .tc) (h : r ∉ hostOps0_W) :
    W1 m ρ c (Proc.devRef .tc r) = W0 m ρ c (Proc.devRef .tc r) :=
  StableHlo.after_of_writes_sub hostOps0 _ hostOps0_writes h

/-- A layer leaves every buffer but its two result arrays as it was. -/
theorem layer0_keeps (c : Dev nD) (b : Ref sig .tc) (h6 : b ≠ main_v15_0) (h7 : b ≠ main_v15_1) :
    W2 m ρ c (Proc.devRef .tc b) = W1 m ρ c (Proc.devRef .tc b) := by
  by_cases hb : ∃ w, Pipeline.arrRef spec0 w = b
  · obtain ⟨w, rfl⟩ := hb
    exact W2_in m ρ c w ((by decide : ∀ w : Fin cfg0.W, Pipeline.arrRef spec0 w ≠ main_v15_0 → Pipeline.arrRef spec0 w ≠ main_v15_1 → (cfg0.win w).isOut = false) w h6 h7)
  · exact W2_of_ne m ρ c b fun w e => hb ⟨w, e⟩

/-- A host stretch leaves a buffer it does not write as it was. -/
theorem stretch1_keeps (c : Dev nD) (r : Ref sig .tc) (h : r ∉ hostOps1_W) :
    W3 m ρ c (Proc.devRef .tc r) = W2 m ρ c (Proc.devRef .tc r) :=
  StableHlo.after_of_writes_sub hostOps1 _ hostOps1_writes h

/-- A layer leaves every buffer but its two result arrays as it was. -/
theorem layer1_keeps (c : Dev nD) (b : Ref sig .tc) (h6 : b ≠ main_v31_0) (h7 : b ≠ main_v31_1) :
    W4 m ρ c (Proc.devRef .tc b) = W3 m ρ c (Proc.devRef .tc b) := by
  by_cases hb : ∃ w, Pipeline.arrRef spec1 w = b
  · obtain ⟨w, rfl⟩ := hb
    exact W4_in m ρ c w ((by decide : ∀ w : Fin cfg1.W, Pipeline.arrRef spec1 w ≠ main_v31_0 → Pipeline.arrRef spec1 w ≠ main_v31_1 → (cfg1.win w).isOut = false) w h6 h7)
  · exact W4_of_ne m ρ c b fun w e => hb ⟨w, e⟩

/-- A host stretch leaves a buffer it does not write as it was. -/
theorem stretch2_keeps (c : Dev nD) (r : Ref sig .tc) (h : r ∉ hostOps2_W) :
    W5 m ρ c (Proc.devRef .tc r) = W4 m ρ c (Proc.devRef .tc r) :=
  StableHlo.after_of_writes_sub hostOps2 _ hostOps2_writes h

/-- A layer leaves every buffer but its two result arrays as it was. -/
theorem layer2_keeps (c : Dev nD) (b : Ref sig .tc) (h6 : b ≠ main_v47_0) (h7 : b ≠ main_v47_1) :
    W6 m ρ c (Proc.devRef .tc b) = W5 m ρ c (Proc.devRef .tc b) := by
  by_cases hb : ∃ w, Pipeline.arrRef spec2 w = b
  · obtain ⟨w, rfl⟩ := hb
    exact W6_in m ρ c w ((by decide : ∀ w : Fin cfg2.W, Pipeline.arrRef spec2 w ≠ main_v47_0 → Pipeline.arrRef spec2 w ≠ main_v47_1 → (cfg2.win w).isOut = false) w h6 h7)
  · exact W6_of_ne m ρ c b fun w e => hb ⟨w, e⟩

/-- A host stretch leaves a buffer it does not write as it was. -/
theorem stretch3_keeps (c : Dev nD) (r : Ref sig .tc) (h : r ∉ hostOps3_W) :
    W7 m ρ c (Proc.devRef .tc r) = W6 m ρ c (Proc.devRef .tc r) :=
  StableHlo.after_of_writes_sub hostOps3 _ hostOps3_writes h

theorem back1 (c : Dev nD) (b : Ref sig .tc) (s0 : b ∉ hostOps0_W) : W1 m ρ c (Proc.devRef .tc b) = W0 m ρ c (Proc.devRef .tc b) := stretch0_keeps m ρ c b s0
theorem back2 (c : Dev nD) (b : Ref sig .tc) (s0 : b ∉ hostOps0_W) (l0a : b ≠ main_v15_0) (l0b : b ≠ main_v15_1) : W2 m ρ c (Proc.devRef .tc b) = W0 m ρ c (Proc.devRef .tc b) :=
  (layer0_keeps m ρ c b l0a l0b).trans (back1 m ρ c b s0)
theorem back3 (c : Dev nD) (b : Ref sig .tc) (s0 : b ∉ hostOps0_W) (l0a : b ≠ main_v15_0) (l0b : b ≠ main_v15_1) (s1 : b ∉ hostOps1_W) : W3 m ρ c (Proc.devRef .tc b) = W0 m ρ c (Proc.devRef .tc b) :=
  (stretch1_keeps m ρ c b s1).trans (back2 m ρ c b s0 l0a l0b)
theorem back4 (c : Dev nD) (b : Ref sig .tc) (s0 : b ∉ hostOps0_W) (l0a : b ≠ main_v15_0) (l0b : b ≠ main_v15_1) (s1 : b ∉ hostOps1_W) (l1a : b ≠ main_v31_0) (l1b : b ≠ main_v31_1) : W4 m ρ c (Proc.devRef .tc b) = W0 m ρ c (Proc.devRef .tc b) :=
  (layer1_keeps m ρ c b l1a l1b).trans (back3 m ρ c b s0 l0a l0b s1)
theorem back5 (c : Dev nD) (b : Ref sig .tc) (s0 : b ∉ hostOps0_W) (l0a : b ≠ main_v15_0) (l0b : b ≠ main_v15_1) (s1 : b ∉ hostOps1_W) (l1a : b ≠ main_v31_0) (l1b : b ≠ main_v31_1) (s2 : b ∉ hostOps2_W) : W5 m ρ c (Proc.devRef .tc b) = W0 m ρ c (Proc.devRef .tc b) :=
  (stretch2_keeps m ρ c b s2).trans (back4 m ρ c b s0 l0a l0b s1 l1a l1b)
theorem back6 (c : Dev nD) (b : Ref sig .tc) (s0 : b ∉ hostOps0_W) (l0a : b ≠ main_v15_0) (l0b : b ≠ main_v15_1) (s1 : b ∉ hostOps1_W) (l1a : b ≠ main_v31_0) (l1b : b ≠ main_v31_1) (s2 : b ∉ hostOps2_W) (l2a : b ≠ main_v47_0) (l2b : b ≠ main_v47_1) : W6 m ρ c (Proc.devRef .tc b) = W0 m ρ c (Proc.devRef .tc b) :=
  (layer2_keeps m ρ c b l2a l2b).trans (back5 m ρ c b s0 l0a l0b s1 l1a l1b s2)

end Keep

variable (m : (ℓ : Loc nD τ sig) → Buf (Elt Ideal) ℓ) (ρ : Dev nD → PrngReg)

/-- Layer 1 is entered with the input features, their neighbour sum, and the first weights and bias rows. -/
theorem entry0 (c : Dev nD) : E0 (V1 m ρ) c = feat1 (m ((c : Thread nD τ).loc main_arg13)) (m ((c : Thread nD τ).loc main_arg14)) (m ((c : Thread nD τ).loc main_arg15))
    (m ((c : Thread nD τ).loc main_arg0)) (m ((c : Thread nD τ).loc main_arg1)) (m ((c : Thread nD τ).loc main_arg2)) (m ((c : Thread nD τ).loc main_arg3)) (m ((c : Thread nD τ).loc main_arg4)) := by
  unfold E0 feat1 row64
  dsimp only [V1]
  rw [W1_side, W1_b1, W1_b2, back1 m ρ c main_arg0 (by decide), back1 m ρ c main_arg1 (by decide), back1 m ρ c main_arg3 (by decide)]

theorem new0 (c : Dev nD) : W2 m ρ c (Proc.devRef .tc main_v15_0) = E0 (V1 m ρ) c := (W2_arr m ρ c 6).trans (final0_6 (V1 m ρ) c)
theorem nrm0 (c : Dev nD) : W2 m ρ c (Proc.devRef .tc main_v15_1) = N0 (V1 m ρ) c := (W2_arr m ρ c 7).trans (final0_7 (V1 m ρ) c)

/-- Layer 2 is entered with layer 1's new features, their neighbour sum, and the second weights and bias rows. -/
theorem entry1 (c : Dev nD) : E1 (V3 m ρ) c = feat2 (m ((c : Thread nD τ).loc main_arg13)) (m ((c : Thread nD τ).loc main_arg14)) (m ((c : Thread nD τ).loc main_arg15))
    (E0 (V1 m ρ) c) (m ((c : Thread nD τ).loc main_arg5)) (m ((c : Thread nD τ).loc main_arg6)) (m ((c : Thread nD τ).loc main_arg7)) (m ((c : Thread nD τ).loc main_arg8)) := by
  unfold E1 feat2 row32
  dsimp only [V3]
  rw [W3_side, W3_b1, W3_b2, stretch1_keeps m ρ c main_v15_0 (by decide), new0,
    back3 m ρ c main_arg5 (by decide) (by decide) (by decide) (by decide), back3 m ρ c main_arg7 (by decide) (by decide) (by decide) (by decide),
    back2 m ρ c main_arg13 (by decide) (by decide) (by decide), back2 m ρ c main_arg14 (by decide) (by decide) (by decide), back2 m ρ c main_arg15 (by decide) (by decide) (by decide),
    back2 m ρ c main_arg6 (by decide) (by decide) (by decide), back2 m ρ c main_arg8 (by decide) (by decide) (by decide)]

theorem new1 (c : Dev nD) : W4 m ρ c (Proc.devRef .tc main_v31_0) = E1 (V3 m ρ) c := (W4_arr m ρ c 6).trans (final1_6 (V3 m ρ) c)
theorem nrm1 (c : Dev nD) : W4 m ρ c (Proc.devRef .tc main_v31_1) = N1 (V3 m ρ) c := (W4_arr m ρ c 7).trans (final1_7 (V3 m ρ) c)

/-- Layer 3 is entered with layer 2's new features, their neighbour sum, and the third weights and bias rows. -/
theorem entry2 (c : Dev nD) : E2 (V5 m ρ) c = feat3 (m ((c : Thread nD τ).loc main_arg13)) (m ((c : Thread nD τ).loc main_arg14)) (m ((c : Thread nD τ).loc main_arg15))
    (E1 (V3 m ρ) c) (m ((c : Thread nD τ).loc main_arg9)) (m ((c : Thread nD τ).loc main_arg10)) (m ((c : Thread nD τ).loc main_arg11)) (m ((c : Thread nD τ).loc main_arg12)) := by
  unfold E2 feat3 row16
  dsimp only [V5]
  rw [W5_side, W5_b1, W5_b2, stretch2_keeps m ρ c main_v31_0 (by decide), new1,
    back5 m ρ c main_arg9 (by decide) (by decide) (by decide) (by decide) (by decide) (by decide) (by decide), back5 m ρ c main_arg11 (by decide) (by decide) (by decide) (by decide) (by decide) (by decide) (by decide),
    back4 m ρ c main_arg13 (by decide) (by decide) (by decide) (by decide) (by decide) (by decide), back4 m ρ c main_arg14 (by decide) (by decide) (by decide) (by decide) (by decide) (by decide), back4 m ρ c main_arg15 (by decide) (by decide) (by decide) (by decide) (by decide) (by decide),
    back4 m ρ c main_arg10 (by decide) (by decide) (by decide) (by decide) (by decide) (by decide), back4 m ρ c main_arg12 (by decide) (by decide) (by decide) (by decide) (by decide) (by decide)]

theorem nrm2 (c : Dev nD) : W6 m ρ c (Proc.devRef .tc main_v47_1) = N2 (V5 m ρ) c := (W6_arr m ρ c 7).trans (final2_7 (V5 m ρ) c)

/-- The program's result buffer ends holding the network function of the launch arrays. -/
theorem out_eq (c : Dev nD) : (W7 m ρ c (Proc.devRef .tc main_v48) : FVec Ideal S100000x176 .f32)
    = netOut (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12))
        (m ((c : Thread nD τ).loc main_arg13)) (m ((c : Thread nD τ).loc main_arg14)) (m ((c : Thread nD τ).loc main_arg15)) := by
  have h0 : W6 m ρ c (Proc.devRef .tc main_arg0) = m ((c : Thread nD τ).loc main_arg0) := back6 m ρ c main_arg0 (by decide) (by decide) (by decide) (by decide) (by decide) (by decide) (by decide) (by decide) (by decide)
  have h1 : W6 m ρ c (Proc.devRef .tc main_v15_1) = N0 (V1 m ρ) c :=
    (layer2_keeps m ρ c main_v15_1 (by decide) (by decide)).trans <| (stretch2_keeps m ρ c main_v15_1 (by decide)).trans <|
      (layer1_keeps m ρ c main_v15_1 (by decide) (by decide)).trans <| (stretch1_keeps m ρ c main_v15_1 (by decide)).trans (nrm0 m ρ c)
  have h2 : W6 m ρ c (Proc.devRef .tc main_v31_1) = N1 (V3 m ρ) c :=
    (layer2_keeps m ρ c main_v31_1 (by decide) (by decide)).trans <| (stretch2_keeps m ρ c main_v31_1 (by decide)).trans (nrm1 m ρ c)
  rw [W7_out, h0, h1, h2, nrm2]
  unfold netOut N0 N1 N2
  rw [entry2, entry1, entry0]

end Cert.KernelIdeal.Layers

end
-- ==== Proof.LibStretches.lean ====
/-
  Two facts for reading a long straight line of host operations in stretches.

  When a line of operations is the concatenation of two lines, the memory after it is the memory after the second
  line started from the memory after the first (after_append); so a long line can be evaluated stretch by stretch,
  each stretch over an arbitrary starting memory, and a value that several later operations read is evaluated once.
  A property of every operation of two lines holds of every operation of their concatenation (forall_append): the
  side condition a run over the whole line takes, assembled from the stretches'.
-/
import Idealize.ShloMosaic.Lib.StableHlo.Run

noncomputable section

namespace Idealize.ShloMosaic.StableHlo.Stretches

open Idealize.ShloMosaic Idealize.ShloMosaic.StableHlo

variable {τ : Topo} {sig : RefSig} {Val : EltTy → Type}

/-- The memory after two lines run one after the other is the memory after the second, from the memory after the
    first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every operation of two lines holds of every operation of their concatenation. -/
theorem forall_append {p : HloOp τ sig Val → Prop} : ∀ (l₁ l₂ : List (HloOp τ sig Val)), l₁.Forall p → l₂.Forall p → (l₁ ++ l₂).Forall p
  | [], _, _, h₂ => h₂
  | a :: l, l₂, h₁, h₂ => by
    rw [List.cons_append, List.forall_cons]; rw [List.forall_cons] at h₁; exact ⟨h₁.1, forall_append l l₂ h₁.2 h₂⟩

end Idealize.ShloMosaic.StableHlo.Stretches

end
-- ==== Proof.RefOps.lean ====
/-
  The reference program's @main as a straight line of host operations.

  @main is printed in three consecutive windows; each window is one list of operations, the six calls of the
  outlined leaky-relu functions written out at their call sites over the call's own buffers (seven operations
  each: the zero, its broadcast, the comparison, the slope's conversion, its broadcast, the product, the select).
  The whole program is the concatenation of the three lists. Beside the lists: that every operation touches
  TensorCore references only, determines its result, and which references each window writes (so that a reference
  outside them keeps its contents); and the run of the whole line: every weakly fair execution terminates with
  every buffer at the fold of the operations over the launch contents.
-/
import proofs.«145267_j3582002725212_1_alg».proof.Proof.Gen.ReferenceIdeal
import proofs.«145267_j3582002725212_1_alg».proof.Proof.LibStretches
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window's operations: the first layer whole, the second layer's neighbourhood sum and the first sum of its dense part. -/
abbrev ops0 : List (HloOp τ sig (Elt F)) :=
  [ unary main_arg13 main_v0 (broadcastInDim S1200000x1 ![0] bcast_S1200000_S1200000x1_0 : (⟨S1200000, .f32⟩ : BufTy).Contents (Elt F) → (⟨S1200000x1, .f32⟩ : BufTy).Contents (Elt F)),
    nullary main_c (constantI S_ 32 0#32),
    unary main_c main_v1 (broadcastInDim S1200000 ![] bcast_S_S1200000 : (⟨S_, .i32⟩ : BufTy).Contents (Elt F) → (⟨S1200000, .i32⟩ : BufTy).Contents (Elt F)),
    binary main_arg15 main_v1 main_v2 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 100000#32),
    unary main_c_0 main_v3 (broadcastInDim S1200000 ![] bcast_S_S1200000 : (⟨S_, .i32⟩ : BufTy).Contents (Elt F) → (⟨S1200000, .i32⟩ : BufTy).Contents (Elt F)),
    binary main_arg15 main_v3 main_v4 (addi : (⟨S1200000, .i32⟩ : BufTy).Contents (Elt F) → (⟨S1200000, .i32⟩ : BufTy).Contents (Elt F) → (⟨S1200000, .i32⟩ : BufTy).Contents (Elt F)),
    ternary main_v2 main_v4 main_arg15 main_v5 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v5 main_v6 (broadcastInDim S1200000x1 ![0] bcast_S1200000_S1200000x1_0 : (⟨S1200000, .i32⟩ : BufTy).Contents (Elt F) → (⟨S1200000x1, .i32⟩ : BufTy).Contents (Elt F)),
    binary main_arg0 main_v6 main_v7 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v0 main_v8 (broadcastInDim S1200000x64 ![0, 1] bcast_S1200000x1_S1200000x64_0_1 : (⟨S1200000x1, .f32⟩ : BufTy).Contents (Elt F) → (⟨S1200000x64, .f32⟩ : BufTy).Contents (Elt F)),
    binary main_v8 main_v7 main_v9 (mulf : (⟨S1200000x64, .f32⟩ : BufTy).Contents (Elt F) → (⟨S1200000x64, .f32⟩ : BufTy).Contents (Elt F) → (⟨S1200000x64, .f32⟩ : BufTy).Contents (Elt F)),
    nullary main_cst (constant S_ .f32 0x00000000#32),
    unary main_cst main_v10 (broadcastInDim S100000x64 ![] bcast_S_S100000x64 : (⟨S_, .f32⟩ : BufTy).Contents (Elt F) → (⟨S100000x64, .f32⟩ : BufTy).Contents (Elt F)),
    unary main_arg14 main_v11 (broadcastInDim S1200000x1 ![0] bcast_S1200000_S1200000x1_0 : (⟨S1200000, .i32⟩ : BufTy).Contents (Elt F) → (⟨S1200000x1, .i32⟩ : BufTy).Contents (Elt F)),
    ternary main_v10 main_v11 main_v9 main_v12 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    binary main_arg0 main_v12 main_v13 (addf : (⟨S100000x64, .f32⟩ : BufTy).Contents (Elt F) → (⟨S100000x64, .f32⟩ : BufTy).Contents (Elt F) → (⟨S100000x64, .f32⟩ : BufTy).Contents (Elt F)),
    unary main_arg1 main_v14 ((transpose S64x64 [1, 0] · transposes_S64x64_S64x64_1_0) : (⟨S64x64, .f32⟩ : BufTy).Contents (Elt F) → (⟨S64x64, .f32⟩ : BufTy).Contents (Elt F)),
    binary main_v13 main_v14 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg2 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x3C23D70A#32),
    TRef.nullary main_call0.cst (constant S_ .f32 0x00000000#32),
    TRef.unary main_call0.cst main_call0.v0 (broadcastInDim S100000x64 ![] bcast_S_S100000x64),
    TRef.binary (.of main_v18 : TRef sig ⟨S100000x64, .f32⟩) main_call0.v0 main_call0.v1 (cmpf .oge),
    TRef.unary (.of main_cst_1 : TRef sig ⟨S_, .f32⟩) main_call0.v2 id,
    TRef.unary main_call0.v2 main_call0.v3 (broadcastInDim S100000x64 ![] bcast_S_S100000x64),
    TRef.binary main_call0.v3 (.of main_v18 : TRef sig ⟨S100000x64, .f32⟩) main_call0.v4 mulf,
    TRef.ternary main_call0.v1 (.of main_v18 : TRef sig ⟨S100000x64, .f32⟩) main_call0.v4 main_call0.call0.v0 select,
    binary main_arg0 main_v12 main_v20 (mulf : (⟨S100000x64, .f32⟩ : BufTy).Contents (Elt F) → (⟨S100000x64, .f32⟩ : BufTy).Contents (Elt F) → (⟨S100000x64, .f32⟩ : BufTy).Contents (Elt F)),
    unary main_arg3 main_v21 ((transpose S64x64 [1, 0] · transposes_S64x64_S64x64_1_0) : (⟨S64x64, .f32⟩ : BufTy).Contents (Elt F) → (⟨S64x64, .f32⟩ : BufTy).Contents (Elt F)),
    binary main_v20 main_v21 main_v22 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v23 (broadcastInDim S1x64 ![1] bcast_S64_S1x64_1 : (⟨S64, .f32⟩ : BufTy).Contents (Elt F) → (⟨S1x64, .f32⟩ : BufTy).Contents (Elt F)),
    unary main_v23 main_v24 (broadcastInDim S100000x64 ![0, 1] bcast_S1x64_S100000x64_0_1 : (⟨S1x64, .f32⟩ : BufTy).Contents (Elt F) → (⟨S100000x64, .f32⟩ : BufTy).Contents (Elt F)),
    binary main_v22 main_v24 main_v25 (addf : (⟨S100000x64, .f32⟩ : BufTy).Contents (Elt F) → (⟨S100000x64, .f32⟩ : BufTy).Contents (Elt F) → (⟨S100000x64, .f32⟩ : BufTy).Contents (Elt F)),
    nullary main_cst_2 (constant S_ .f32 0x3C23D70A#32),
    TRef.nullary main_call1.cst (constant S_ .f32 0x00000000#32),
    TRef.unary main_call1.cst main_call1.v0 (broadcastInDim S100000x64 ![] bcast_S_S100000x64),
    TRef.binary (.of main_v25 : TRef sig ⟨S100000x64, .f32⟩) main_call1.v0 main_call1.v1 (cmpf .oge),
    TRef.unary (.of main_cst_2 : TRef sig ⟨S_, .f32⟩) main_call1.v2 id,
    TRef.unary main_call1.v2 main_call1.v3 (broadcastInDim S100000x64 ![] bcast_S_S100000x64),
    TRef.binary main_call1.v3 (.of main_v25 : TRef sig ⟨S100000x64, .f32⟩) main_call1.v4 mulf,
    TRef.ternary main_call1.v1 (.of main_v25 : TRef sig ⟨S100000x64, .f32⟩) main_call1.v4 main_call1.call0.v0 select,
    binary main_v19 main_v26 main_v27 (addf : (⟨S100000x64, .f32⟩ : BufTy).Contents (Elt F) → (⟨S100000x64, .f32⟩ : BufTy).Contents (Elt F) → (⟨S100000x64, .f32⟩ : BufTy).Contents (Elt F)),
    binary main_v27 main_v27 main_v28 (mulf : (⟨S100000x64, .f32⟩ : BufTy).Contents (Elt F) → (⟨S100000x64, .f32⟩ : BufTy).Contents (Elt F) → (⟨S100000x64, .f32⟩ : BufTy).Contents (Elt F)),
    nullary main_cst_3 (constant S_ .f32 0x00000000#32),
    binary main_v28 main_cst_3 main_v29 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v29 main_v30 (broadcastInDim S100000x1 ![0] bcast_S100000_S100000x1_0 : (⟨S100000, .f32⟩ : BufTy).Contents (Elt F) → (⟨S100000x1, .f32⟩ : BufTy).Contents (Elt F)),
    unary main_v30 main_v31 (Host.sqrt : (⟨S100000x1, .f32⟩ : BufTy).Contents (Elt F) → (⟨S100000x1, .f32⟩ : BufTy).Contents (Elt F)),
    nullary main_cst_4 (constant S_ .f32 0x2B8CBCCC#32),
    unary main_cst_4 main_v32 (broadcastInDim S100000x1 ![] bcast_S_S100000x1 : (⟨S_, .f32⟩ : BufTy).Contents (Elt F) → (⟨S100000x1, .f32⟩ : BufTy).Contents (Elt F)),
    binary main_v31 main_v32 main_v33 (maximumf : (⟨S100000x1, .f32⟩ : BufTy).Contents (Elt F) → (⟨S100000x1, .f32⟩ : BufTy).Contents (Elt F) → (⟨S100000x1, .f32⟩ : BufTy).Contents (Elt F)),
    unary main_v33 main_v34 (broadcastInDim S100000x64 ![0, 1] bcast_S100000x1_S100000x64_0_1 : (⟨S100000x1, .f32⟩ : BufTy).Contents (Elt F) → (⟨S100000x64, .f32⟩ : BufTy).Contents (Elt F)),
    binary main_v27 main_v34 main_v35 (Host.divf : (⟨S100000x64, .f32⟩ : BufTy).Contents (Elt F) → (⟨S100000x64, .f32⟩ : BufTy).Contents (Elt F) → (⟨S100000x64, .f32⟩ : BufTy).Contents (Elt F)),
    unary main_arg13 main_v36 (broadcastInDim S1200000x1 ![0] bcast_S1200000_S1200000x1_0 : (⟨S1200000, .f32⟩ : BufTy).Contents (Elt F) → (⟨S1200000x1, .f32⟩ : BufTy).Contents (Elt F)),
    nullary main_c_5 (constantI S_ 32 0#32),
    unary main_c_5 main_v37 (broadcastInDim S1200000 ![] bcast_S_S1200000 : (⟨S_, .i32⟩ : BufTy).Contents (Elt F) → (⟨S1200000, .i32⟩ : BufTy).Contents (Elt F)),
    binary main_arg15 main_v37 main_v38 (cmpi .slt : (⟨S1200000, .i32⟩ : BufTy).Contents (Elt F) → (⟨S1200000, .i32⟩ : BufTy).Contents (Elt F) → (⟨S1200000, .i1⟩ : BufTy).Contents (Elt F)),
    nullary main_c_6 (constantI S_ 32 100000#32),
    unary main_c_6 main_v39 (broadcastInDim S1200000 ![] bcast_S_S1200000 : (⟨S_, .i32⟩ : BufTy).Contents (Elt F) → (⟨S1200000, .i32⟩ : BufTy).Contents (Elt F)),
    binary main_arg15 main_v39 main_v40 (addi : (⟨S1200000, .i32⟩ : BufTy).Contents (Elt F) → (⟨S1200000, .i32⟩ : BufTy).Contents (Elt F) → (⟨S1200000, .i32⟩ : BufTy).Contents (Elt F)),
    ternary main_v38 main_v40 main_arg15 main_v41 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v41 main_v42 (broadcastInDim S1200000x1 ![0] bcast_S1200000_S1200000x1_0 : (⟨S1200000, .i32⟩ : BufTy).Contents (Elt F) → (⟨S1200000x1, .i32⟩ : BufTy).Contents (Elt F)),
    binary main_v27 main_v42 main_v43 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v36 main_v44 (broadcastInDim S1200000x64 ![0, 1] bcast_S1200000x1_S1200000x64_0_1 : (⟨S1200000x1, .f32⟩ : BufTy).Contents (Elt F) → (⟨S1200000x64, .f32⟩ : BufTy).Contents (Elt F)),
    binary main_v44 main_v43 main_v45 (mulf : (⟨S1200000x64, .f32⟩ : BufTy).Contents (Elt F) → (⟨S1200000x64, .f32⟩ : BufTy).Contents (Elt F) → (⟨S1200000x64, .f32⟩ : BufTy).Contents (Elt F)),
    nullary main_cst_7 (constant S_ .f32 0x00000000#32),
    unary main_cst_7 main_v46 (broadcastInDim S100000x64 ![] bcast_S_S100000x64 : (⟨S_, .f32⟩ : BufTy).Contents (Elt F) → (⟨S100000x64, .f32⟩ : BufTy).Contents (Elt F)),
    unary main_arg14 main_v47 (broadcastInDim S1200000x1 ![0] bcast_S1200000_S1200000x1_0 : (⟨S1200000, .i32⟩ : BufTy).Contents (Elt F) → (⟨S1200000x1, .i32⟩ : BufTy).Contents (Elt F)),
    ternary main_v46 main_v47 main_v45 main_v48 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    binary main_v27 main_v48 main_v49 (addf : (⟨S100000x64, .f32⟩ : BufTy).Contents (Elt F) → (⟨S100000x64, .f32⟩ : BufTy).Contents (Elt F) → (⟨S100000x64, .f32⟩ : BufTy).Contents (Elt F)) ]

/-- The second window's operations: the rest of the second layer and the third layer up to the squares of its output. -/
abbrev ops1 : List (HloOp τ sig (Elt F)) :=
  [ unary main_arg5 main_v50 ((transpose S64x32 [1, 0] · transposes_S32x64_S64x32_1_0) : (⟨S32x64, .f32⟩ : BufTy).Contents (Elt F) → (⟨S64x32, .f32⟩ : BufTy).Contents (Elt F)),
    binary main_v49 main_v50 main_v51 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg6 main_v52 (broadcastInDim S1x32 ![1] bcast_S32_S1x32_1 : (⟨S32, .f32⟩ : BufTy).Contents (Elt F) → (⟨S1x32, .f32⟩ : BufTy).Contents (Elt F)),
    unary main_v52 main_v53 (broadcastInDim S100000x32 ![0, 1] bcast_S1x32_S100000x32_0_1 : (⟨S1x32, .f32⟩ : BufTy).Contents (Elt F) → (⟨S100000x32, .f32⟩ : BufTy).Contents (Elt F)),
    binary main_v51 main_v53 main_v54 (addf : (⟨S100000x32, .f32⟩ : BufTy).Contents (Elt F) → (⟨S100000x32, .f32⟩ : BufTy).Contents (Elt F) → (⟨S100000x32, .f32⟩ : BufTy).Contents (Elt F)),
    nullary main_cst_8 (constant S_ .f32 0x3C23D70A#32),
    TRef.nullary main_call2.cst (constant S_ .f32 0x00000000#32),
    TRef.unary main_call2.cst main_call2.v0 (broadcastInDim S100000x32 ![] bcast_S_S100000x32),
    TRef.binary (.of main_v54 : TRef sig ⟨S100000x32, .f32⟩) main_call2.v0 main_call2.v1 (cmpf .oge),
    TRef.unary (.of main_cst_8 : TRef sig ⟨S_, .f32⟩) main_call2.v2 id,
    TRef.unary main_call2.v2 main_call2.v3 (broadcastInDim S100000x32 ![] bcast_S_S100000x32),
    TRef.binary main_call2.v3 (.of main_v54 : TRef sig ⟨S100000x32, .f32⟩) main_call2.v4 mulf,
    TRef.ternary main_call2.v1 (.of main_v54 : TRef sig ⟨S100000x32, .f32⟩) main_call2.v4 main_call2.call0.v0 select,
    binary main_v27 main_v48 main_v56 (mulf : (⟨S100000x64, .f32⟩ : BufTy).Contents (Elt F) → (⟨S100000x64, .f32⟩ : BufTy).Contents (Elt F) → (⟨S100000x64, .f32⟩ : BufTy).Contents (Elt F)),
    unary main_arg7 main_v57 ((transpose S64x32 [1, 0] · transposes_S32x64_S64x32_1_0) : (⟨S32x64, .f32⟩ : BufTy).Contents (Elt F) → (⟨S64x32, .f32⟩ : BufTy).Contents (Elt F)),
    binary main_v56 main_v57 main_v58 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg8 main_v59 (broadcastInDim S1x32 ![1] bcast_S32_S1x32_1 : (⟨S32, .f32⟩ : BufTy).Contents (Elt F) → (⟨S1x32, .f32⟩ : BufTy).Contents (Elt F)),
    unary main_v59 main_v60 (broadcastInDim S100000x32 ![0, 1] bcast_S1x32_S100000x32_0_1 : (⟨S1x32, .f32⟩ : BufTy).Contents (Elt F) → (⟨S100000x32, .f32⟩ : BufTy).Contents (Elt F)),
    binary main_v58 main_v60 main_v61 (addf : (⟨S100000x32, .f32⟩ : BufTy).Contents (Elt F) → (⟨S100000x32, .f32⟩ : BufTy).Contents (Elt F) → (⟨S100000x32, .f32⟩ : BufTy).Contents (Elt F)),
    nullary main_cst_9 (constant S_ .f32 0x3C23D70A#32),
    TRef.nullary main_call3.cst (constant S_ .f32 0x00000000#32),
    TRef.unary main_call3.cst main_call3.v0 (broadcastInDim S100000x32 ![] bcast_S_S100000x32),
    TRef.binary (.of main_v61 : TRef sig ⟨S100000x32, .f32⟩) main_call3.v0 main_call3.v1 (cmpf .oge),
    TRef.unary (.of main_cst_9 : TRef sig ⟨S_, .f32⟩) main_call3.v2 id,
    TRef.unary main_call3.v2 main_call3.v3 (broadcastInDim S100000x32 ![] bcast_S_S100000x32),
    TRef.binary main_call3.v3 (.of main_v61 : TRef sig ⟨S100000x32, .f32⟩) main_call3.v4 mulf,
    TRef.ternary main_call3.v1 (.of main_v61 : TRef sig ⟨S100000x32, .f32⟩) main_call3.v4 main_call3.call0.v0 select,
    binary main_v55 main_v62 main_v63 (addf : (⟨S100000x32, .f32⟩ : BufTy).Contents (Elt F) → (⟨S100000x32, .f32⟩ : BufTy).Contents (Elt F) → (⟨S100000x32, .f32⟩ : BufTy).Contents (Elt F)),
    binary main_v63 main_v63 main_v64 (mulf : (⟨S100000x32, .f32⟩ : BufTy).Contents (Elt F) → (⟨S100000x32, .f32⟩ : BufTy).Contents (Elt F) → (⟨S100000x32, .f32⟩ : BufTy).Contents (Elt F)),
    nullary main_cst_10 (constant S_ .f32 0x00000000#32),
    binary main_v64 main_cst_10 main_v65 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    unary main_v65 main_v66 (broadcastInDim S100000x1 ![0] bcast_S100000_S100000x1_0 : (⟨S100000, .f32⟩ : BufTy).Contents (Elt F) → (⟨S100000x1, .f32⟩ : BufTy).Contents (Elt F)),
    unary main_v66 main_v67 (Host.sqrt : (⟨S100000x1, .f32⟩ : BufTy).Contents (Elt F) → (⟨S100000x1, .f32⟩ : BufTy).Contents (Elt F)),
    nullary main_cst_11 (constant S_ .f32 0x2B8CBCCC#32),
    unary main_cst_11 main_v68 (broadcastInDim S100000x1 ![] bcast_S_S100000x1 : (⟨S_, .f32⟩ : BufTy).Contents (Elt F) → (⟨S100000x1, .f32⟩ : BufTy).Contents (Elt F)),
    binary main_v67 main_v68 main_v69 (maximumf : (⟨S100000x1, .f32⟩ : BufTy).Contents (Elt F) → (⟨S100000x1, .f32⟩ : BufTy).Contents (Elt F) → (⟨S100000x1, .f32⟩ : BufTy).Contents (Elt F)),
    unary main_v69 main_v70 (broadcastInDim S100000x32 ![0, 1] bcast_S100000x1_S100000x32_0_1 : (⟨S100000x1, .f32⟩ : BufTy).Contents (Elt F) → (⟨S100000x32, .f32⟩ : BufTy).Contents (Elt F)),
    binary main_v63 main_v70 main_v71 (Host.divf : (⟨S100000x32, .f32⟩ : BufTy).Contents (Elt F) → (⟨S100000x32, .f32⟩ : BufTy).Contents (Elt F) → (⟨S100000x32, .f32⟩ : BufTy).Contents (Elt F)),
    unary main_arg13 main_v72 (broadcastInDim S1200000x1 ![0] bcast_S1200000_S1200000x1_0 : (⟨S1200000, .f32⟩ : BufTy).Contents (Elt F) → (⟨S1200000x1, .f32⟩ : BufTy).Contents (Elt F)),
    nullary main_c_12 (constantI S_ 32 0#32),
    unary main_c_12 main_v73 (broadcastInDim S1200000 ![] bcast_S_S1200000 : (⟨S_, .i32⟩ : BufTy).Contents (Elt F) → (⟨S1200000, .i32⟩ : BufTy).Contents (Elt F)),
    binary main_arg15 main_v73 main_v74 (cmpi .slt : (⟨S1200000, .i32⟩ : BufTy).Contents (Elt F) → (⟨S1200000, .i32⟩ : BufTy).Contents (Elt F) → (⟨S1200000, .i1⟩ : BufTy).Contents (Elt F)),
    nullary main_c_13 (constantI S_ 32 100000#32),
    unary main_c_13 main_v75 (broadcastInDim S1200000 ![] bcast_S_S1200000 : (⟨S_, .i32⟩ : BufTy).Contents (Elt F) → (⟨S1200000, .i32⟩ : BufTy).Contents (Elt F)),
    binary main_arg15 main_v75 main_v76 (addi : (⟨S1200000, .i32⟩ : BufTy).Contents (Elt F) → (⟨S1200000, .i32⟩ : BufTy).Contents (Elt F) → (⟨S1200000, .i32⟩ : BufTy).Contents (Elt F)),
    ternary main_v74 main_v76 main_arg15 main_v77 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v77 main_v78 (broadcastInDim S1200000x1 ![0] bcast_S1200000_S1200000x1_0 : (⟨S1200000, .i32⟩ : BufTy).Contents (Elt F) → (⟨S1200000x1, .i32⟩ : BufTy).Contents (Elt F)),
    binary main_v63 main_v78 main_v79 ((fun x i => Host.gather gather_S100000x32_S1200000x1_S1200000x32_1_0_n_n_0_1_132 x i) : (⟨S100000x32, .f32⟩ : BufTy).Contents (Elt F) → (⟨S1200000x1, .i32⟩ : BufTy).Contents (Elt F) → (⟨S1200000x32, .f32⟩ : BufTy).Contents (Elt F)),
    unary main_v72 main_v80 (broadcastInDim S1200000x32 ![0, 1] bcast_S1200000x1_S1200000x32_0_1 : (⟨S1200000x1, .f32⟩ : BufTy).Contents (Elt F) → (⟨S1200000x32, .f32⟩ : BufTy).Contents (Elt F)),
    binary main_v80 main_v79 main_v81 (mulf : (⟨S1200000x32, .f32⟩ : BufTy).Contents (Elt F) → (⟨S1200000x32, .f32⟩ : BufTy).Contents (Elt F) → (⟨S1200000x32, .f32⟩ : BufTy).Contents (Elt F)),
    nullary main_cst_14 (constant S_ .f32 0x00000000#32),
    unary main_cst_14 main_v82 (broadcastInDim S100000x32 ![] bcast_S_S100000x32 : (⟨S_, .f32⟩ : BufTy).Contents (Elt F) → (⟨S100000x32, .f32⟩ : BufTy).Contents (Elt F)),
    unary main_arg14 main_v83 (broadcastInDim S1200000x1 ![0] bcast_S1200000_S1200000x1_0 : (⟨S1200000, .i32⟩ : BufTy).Contents (Elt F) → (⟨S1200000x1, .i32⟩ : BufTy).Contents (Elt F)),
    ternary main_v82 main_v83 main_v81 main_v84 ((fun x i u => Host.scatterAdd scatter_S100000x32_S1200000x1_S1200000x32_1_0_0_1 x i u) : (⟨S100000x32, .f32⟩ : BufTy).Contents (Elt F) → (⟨S1200000x1, .i32⟩ : BufTy).Contents (Elt F) → (⟨S1200000x32, .f32⟩ : BufTy).Contents (Elt F) → (⟨S100000x32, .f32⟩ : BufTy).Contents (Elt F)),
    binary main_v63 main_v84 main_v85 (addf : (⟨S100000x32, .f32⟩ : BufTy).Contents (Elt F) → (⟨S100000x32, .f32⟩ : BufTy).Contents (Elt F) → (⟨S100000x32, .f32⟩ : BufTy).Contents (Elt F)),
    unary main_arg9 main_v86 ((transpose S32x16 [1, 0] · transposes_S16x32_S32x16_1_0) : (⟨S16x32, .f32⟩ : BufTy).Contents (Elt F) → (⟨S32x16, .f32⟩ : BufTy).Contents (Elt F)),
    binary main_v85 main_v86 main_v87 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    unary main_arg10 main_v88 (broadcastInDim S1x16 ![1] bcast_S16_S1x16_1 : (⟨S16, .f32⟩ : BufTy).Contents (Elt F) → (⟨S1x16, .f32⟩ : BufTy).Contents (Elt F)),
    unary main_v88 main_v89 (broadcastInDim S100000x16 ![0, 1] bcast_S1x16_S100000x16_0_1 : (⟨S1x16, .f32⟩ : BufTy).Contents (Elt F) → (⟨S100000x16, .f32⟩ : BufTy).Contents (Elt F)),
    binary main_v87 main_v89 main_v90 (addf : (⟨S100000x16, .f32⟩ : BufTy).Contents (Elt F) → (⟨S100000x16, .f32⟩ : BufTy).Contents (Elt F) → (⟨S100000x16, .f32⟩ : BufTy).Contents (Elt F)),
    nullary main_cst_15 (constant S_ .f32 0x3C23D70A#32),
    TRef.nullary main_call4.cst (constant S_ .f32 0x00000000#32),
    TRef.unary main_call4.cst main_call4.v0 (broadcastInDim S100000x16 ![] bcast_S_S100000x16),
    TRef.binary (.of main_v90 : TRef sig ⟨S100000x16, .f32⟩) main_call4.v0 main_call4.v1 (cmpf .oge),
    TRef.unary (.of main_cst_15 : TRef sig ⟨S_, .f32⟩) main_call4.v2 id,
    TRef.unary main_call4.v2 main_call4.v3 (broadcastInDim S100000x16 ![] bcast_S_S100000x16),
    TRef.binary main_call4.v3 (.of main_v90 : TRef sig ⟨S100000x16, .f32⟩) main_call4.v4 mulf,
    TRef.ternary main_call4.v1 (.of main_v90 : TRef sig ⟨S100000x16, .f32⟩) main_call4.v4 main_call4.call0.v0 select,
    binary main_v63 main_v84 main_v92 (mulf : (⟨S100000x32, .f32⟩ : BufTy).Contents (Elt F) → (⟨S100000x32, .f32⟩ : BufTy).Contents (Elt F) → (⟨S100000x32, .f32⟩ : BufTy).Contents (Elt F)),
    unary main_arg11 main_v93 ((transpose S32x16 [1, 0] · transposes_S16x32_S32x16_1_0) : (⟨S16x32, .f32⟩ : BufTy).Contents (Elt F) → (⟨S32x16, .f32⟩ : BufTy).Contents (Elt F)),
    binary main_v92 main_v93 main_v94 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    unary main_arg12 main_v95 (broadcastInDim S1x16 ![1] bcast_S16_S1x16_1 : (⟨S16, .f32⟩ : BufTy).Contents (Elt F) → (⟨S1x16, .f32⟩ : BufTy).Contents (Elt F)),
    unary main_v95 main_v96 (broadcastInDim S100000x16 ![0, 1] bcast_S1x16_S100000x16_0_1 : (⟨S1x16, .f32⟩ : BufTy).Contents (Elt F) → (⟨S100000x16, .f32⟩ : BufTy).Contents (Elt F)),
    binary main_v94 main_v96 main_v97 (addf : (⟨S100000x16, .f32⟩ : BufTy).Contents (Elt F) → (⟨S100000x16, .f32⟩ : BufTy).Contents (Elt F) → (⟨S100000x16, .f32⟩ : BufTy).Contents (Elt F)),
    nullary main_cst_16 (constant S_ .f32 0x3C23D70A#32),
    TRef.nullary main_call5.cst (constant S_ .f32 0x00000000#32),
    TRef.unary main_call5.cst main_call5.v0 (broadcastInDim S100000x16 ![] bcast_S_S100000x16),
    TRef.binary (.of main_v97 : TRef sig ⟨S100000x16, .f32⟩) main_call5.v0 main_call5.v1 (cmpf .oge),
    TRef.unary (.of main_cst_16 : TRef sig ⟨S_, .f32⟩) main_call5.v2 id,
    TRef.unary main_call5.v2 main_call5.v3 (broadcastInDim S100000x16 ![] bcast_S_S100000x16),
    TRef.binary main_call5.v3 (.of main_v97 : TRef sig ⟨S100000x16, .f32⟩) main_call5.v4 mulf,
    TRef.ternary main_call5.v1 (.of main_v97 : TRef sig ⟨S100000x16, .f32⟩) main_call5.v4 main_call5.call0.v0 select,
    binary main_v91 main_v98 main_v99 (addf : (⟨S100000x16, .f32⟩ : BufTy).Contents (Elt F) → (⟨S100000x16, .f32⟩ : BufTy).Contents (Elt F) → (⟨S100000x16, .f32⟩ : BufTy).Contents (Elt F)),
    binary main_v99 main_v99 main_v100 (mulf : (⟨S100000x16, .f32⟩ : BufTy).Contents (Elt F) → (⟨S100000x16, .f32⟩ : BufTy).Contents (Elt F) → (⟨S100000x16, .f32⟩ : BufTy).Contents (Elt F)) ]

/-- The third window's operations: the third layer's row norms, the division, and the concatenation of the input with the three normalized outputs. -/
abbrev ops2 : List (HloOp τ sig (Elt F)) :=
  [ nullary main_cst_17 (constant S_ .f32 0x00000000#32),
    binary main_v100 main_cst_17 main_v101 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    unary main_v101 main_v102 (broadcastInDim S100000x1 ![0] bcast_S100000_S100000x1_0 : (⟨S100000, .f32⟩ : BufTy).Contents (Elt F) → (⟨S100000x1, .f32⟩ : BufTy).Contents (Elt F)),
    unary main_v102 main_v103 (Host.sqrt : (⟨S100000x1, .f32⟩ : BufTy).Contents (Elt F) → (⟨S100000x1, .f32⟩ : BufTy).Contents (Elt F)),
    nullary main_cst_18 (constant S_ .f32 0x2B8CBCCC#32),
    unary main_cst_18 main_v104 (broadcastInDim S100000x1 ![] bcast_S_S100000x1 : (⟨S_, .f32⟩ : BufTy).Contents (Elt F) → (⟨S100000x1, .f32⟩ : BufTy).Contents (Elt F)),
    binary main_v103 main_v104 main_v105 (maximumf : (⟨S100000x1, .f32⟩ : BufTy).Contents (Elt F) → (⟨S100000x1, .f32⟩ : BufTy).Contents (Elt F) → (⟨S100000x1, .f32⟩ : BufTy).Contents (Elt F)),
    unary main_v105 main_v106 (broadcastInDim S100000x16 ![0, 1] bcast_S100000x1_S100000x16_0_1 : (⟨S100000x1, .f32⟩ : BufTy).Contents (Elt F) → (⟨S100000x16, .f32⟩ : BufTy).Contents (Elt F)),
    binary main_v99 main_v106 main_v107 (Host.divf : (⟨S100000x16, .f32⟩ : BufTy).Contents (Elt F) → (⟨S100000x16, .f32⟩ : BufTy).Contents (Elt F) → (⟨S100000x16, .f32⟩ : BufTy).Contents (Elt F)),
    nary ![main_arg0, main_v35, main_v71, main_v107] main_v108 (fun u => concatenate S100000x176 1 [⟨S100000x64, u 0⟩, ⟨S100000x64, u 1⟩, ⟨S100000x32, u 2⟩, ⟨S100000x16, u 3⟩] concatenates_S100000x64_S100000x64_S100000x32_S100000x16_S100000x176_d1) ]

/-- @main's operations, in order: the three windows' one after the other. -/
abbrev ops : List (HloOp τ sig (Elt F)) := ops0 ++ (ops1 ++ ops2)

/-! ## Each window is the straight line of its operations

The outlined functions' definitions unfolded at their calls, both sides are one chain of steps once sequencing
is reassociated. -/

set_option maxRecDepth 8192 in
set_option maxHeartbeats 4000000 in
theorem part0_eq (c : Dev nD) : main_part0 (F := F) c = seq ops0 := by
  simp only [main_part0, fn_leaky_relu.body, fn_where.body, seq, bind_assoc, pure_bind]
  rfl

set_option maxRecDepth 8192 in
set_option maxHeartbeats 4000000 in
theorem part1_eq (c : Dev nD) : main_part1 (F := F) c = seq ops1 := by
  simp only [main_part1, fn_leaky_relu_0.body, fn_where_1.body, fn_leaky_relu_2.body, fn_where_3.body, seq, bind_assoc, pure_bind]
  rfl

theorem part2_eq (c : Dev nD) : main_part2 (F := F) c = seq ops2 := rfl

/-- @main is the straight line of all its operations: its three windows in order are the concatenation's line. -/
theorem main_eq (c : Dev nD) : main (F := F) c = seq ops :=
  calc main (F := F) c = (main_part0 c >>= fun _ => main_part1 c >>= fun _ => main_part2 c) := rfl
    _ = (seq ops0 >>= fun _ => seq ops1 >>= fun _ => seq ops2) := by rw [part0_eq, part1_eq, part2_eq]
    _ = seq (ops0 ++ (ops1 ++ ops2)) := by rw [seq_append, seq_append]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its result -/

theorem ops0_sub : (ops0 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub .., unary_bufs_sub .., ternary_bufs_sub .., binary_bufs_sub .., unary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., binary_bufs_sub .., nullary_bufs_sub .., binary_bufs_sub ..,
    unary_bufs_sub .., unary_bufs_sub .., nullary_bufs_sub .., unary_bufs_sub .., binary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., binary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

theorem ops1_sub : (ops1 : List (HloOp τ sig (Elt F))).Forall fun op => op.bufs ⊆ tcRefs τ sig :=
  ⟨unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., unary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    binary_bufs_sub .., unary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., binary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., binary_bufs_sub .., binary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

theorem ops2_sub : (ops2 : List (HloOp τ sig (Elt F))).Forall fun op => op.bufs ⊆ tcRefs τ sig :=
  ⟨nullary_bufs_sub .., binary_bufs_sub .., unary_bufs_sub .., unary_bufs_sub .., nullary_bufs_sub .., unary_bufs_sub ..,
    binary_bufs_sub .., unary_bufs_sub .., binary_bufs_sub .., nary_bufs_sub ..⟩

theorem ops2_fresh : (ops2 : List (HloOp τ sig (Elt F))).Forall fun op => op.fresh = ∅ :=
  ⟨rfl, rfl, rfl, rfl, rfl, rfl, rfl, rfl, rfl, rfl⟩

theorem ops_sub : (ops : List (HloOp τ sig (Elt F))).Forall fun op => op.bufs ⊆ tcRefs τ sig :=
  Stretches.forall_append _ _ ops0_sub (Stretches.forall_append _ _ ops1_sub ops2_sub)

theorem ops_fresh : ∀ op ∈ (ops : List (HloOp τ sig (Elt F))), op.fresh = ∅ :=
  List.forall_iff_forall_mem.mp (Stretches.forall_append _ _ ops0_fresh (Stretches.forall_append _ _ ops1_fresh ops2_fresh))

/-! ## What each window writes

Each operation writes its one result buffer; a reference that is none of a window's result buffers keeps its
contents through the window. -/

/-- An operation whose written set is one reference of a list writes inside the list. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The result buffers of window 1, in order. -/
abbrev W0 : List (Ref sig .tc) :=
  [main_v0, main_c, main_v1, main_v2, main_c_0, main_v3, main_v4, main_v5, main_v6, main_v7,
   main_v8, main_v9, main_cst, main_v10, main_v11, main_v12, main_v13, main_v14, main_v15, main_v16,
   main_v17, main_v18, main_cst_1, main_call0_cst, main_call0_v0, main_call0_v1, main_call0_v2, main_call0_v3, main_call0_v4, main_v19,
   main_v20, main_v21, main_v22, main_v23, main_v24, main_v25, main_cst_2, main_call1_cst, main_call1_v0, main_call1_v1,
   main_call1_v2, main_call1_v3, main_call1_v4, main_v26, main_v27, main_v28, main_cst_3, main_v29, main_v30, main_v31,
   main_cst_4, main_v32, main_v33, main_v34, main_v35, main_v36, main_c_5, main_v37, main_v38, main_c_6,
   main_v39, main_v40, main_v41, main_v42, main_v43, main_v44, main_v45, main_cst_7, main_v46, main_v47,
   main_v48, main_v49]

theorem ops0_writes : (ops0 : List (HloOp τ sig (Elt F))).Forall fun op => op.writes ⊆ (W0.map (Proc.devRef (τ := τ) .tc)).toFinset :=
  ⟨writes_sub_of_mem (y := main_v0) (by decide), writes_sub_of_mem (y := main_c) (by decide), writes_sub_of_mem (y := main_v1) (by decide),
    writes_sub_of_mem (y := main_v2) (by decide), writes_sub_of_mem (y := main_c_0) (by decide), writes_sub_of_mem (y := main_v3) (by decide),
    writes_sub_of_mem (y := main_v4) (by decide), writes_sub_of_mem (y := main_v5) (by decide), writes_sub_of_mem (y := main_v6) (by decide),
    writes_sub_of_mem (y := main_v7) (by decide), writes_sub_of_mem (y := main_v8) (by decide), writes_sub_of_mem (y := main_v9) (by decide),
    writes_sub_of_mem (y := main_cst) (by decide), writes_sub_of_mem (y := main_v10) (by decide), writes_sub_of_mem (y := main_v11) (by decide),
    writes_sub_of_mem (y := main_v12) (by decide), writes_sub_of_mem (y := main_v13) (by decide), writes_sub_of_mem (y := main_v14) (by decide),
    writes_sub_of_mem (y := main_v15) (by decide), writes_sub_of_mem (y := main_v16) (by decide), writes_sub_of_mem (y := main_v17) (by decide),
    writes_sub_of_mem (y := main_v18) (by decide), writes_sub_of_mem (y := main_cst_1) (by decide), writes_sub_of_mem (y := main_call0_cst) (by decide),
    writes_sub_of_mem (y := main_call0_v0) (by decide), writes_sub_of_mem (y := main_call0_v1) (by decide), writes_sub_of_mem (y := main_call0_v2) (by decide),
    writes_sub_of_mem (y := main_call0_v3) (by decide), writes_sub_of_mem (y := main_call0_v4) (by decide), writes_sub_of_mem (y := main_v19) (by decide),
    writes_sub_of_mem (y := main_v20) (by decide), writes_sub_of_mem (y := main_v21) (by decide), writes_sub_of_mem (y := main_v22) (by decide),
    writes_sub_of_mem (y := main_v23) (by decide), writes_sub_of_mem (y := main_v24) (by decide), writes_sub_of_mem (y := main_v25) (by decide),
    writes_sub_of_mem (y := main_cst_2) (by decide), writes_sub_of_mem (y := main_call1_cst) (by decide), writes_sub_of_mem (y := main_call1_v0) (by decide),
    writes_sub_of_mem (y := main_call1_v1) (by decide), writes_sub_of_mem (y := main_call1_v2) (by decide), writes_sub_of_mem (y := main_call1_v3) (by decide),
    writes_sub_of_mem (y := main_call1_v4) (by decide), writes_sub_of_mem (y := main_v26) (by decide), writes_sub_of_mem (y := main_v27) (by decide),
    writes_sub_of_mem (y := main_v28) (by decide), writes_sub_of_mem (y := main_cst_3) (by decide), writes_sub_of_mem (y := main_v29) (by decide),
    writes_sub_of_mem (y := main_v30) (by decide), writes_sub_of_mem (y := main_v31) (by decide), writes_sub_of_mem (y := main_cst_4) (by decide),
    writes_sub_of_mem (y := main_v32) (by decide), writes_sub_of_mem (y := main_v33) (by decide), writes_sub_of_mem (y := main_v34) (by decide),
    writes_sub_of_mem (y := main_v35) (by decide), writes_sub_of_mem (y := main_v36) (by decide), writes_sub_of_mem (y := main_c_5) (by decide),
    writes_sub_of_mem (y := main_v37) (by decide), writes_sub_of_mem (y := main_v38) (by decide), writes_sub_of_mem (y := main_c_6) (by decide),
    writes_sub_of_mem (y := main_v39) (by decide), writes_sub_of_mem (y := main_v40) (by decide), writes_sub_of_mem (y := main_v41) (by decide),
    writes_sub_of_mem (y := main_v42) (by decide), writes_sub_of_mem (y := main_v43) (by decide), writes_sub_of_mem (y := main_v44) (by decide),
    writes_sub_of_mem (y := main_v45) (by decide), writes_sub_of_mem (y := main_cst_7) (by decide), writes_sub_of_mem (y := main_v46) (by decide),
    writes_sub_of_mem (y := main_v47) (by decide), writes_sub_of_mem (y := main_v48) (by decide), writes_sub_of_mem (y := main_v49) (by decide)⟩

/-- The result buffers of window 2, in order. -/
abbrev W1 : List (Ref sig .tc) :=
  [main_v50, main_v51, main_v52, main_v53, main_v54, main_cst_8, main_call2_cst, main_call2_v0, main_call2_v1, main_call2_v2,
   main_call2_v3, main_call2_v4, main_v55, main_v56, main_v57, main_v58, main_v59, main_v60, main_v61, main_cst_9,
   main_call3_cst, main_call3_v0, main_call3_v1, main_call3_v2, main_call3_v3, main_call3_v4, main_v62, main_v63, main_v64, main_cst_10,
   main_v65, main_v66, main_v67, main_cst_11, main_v68, main_v69, main_v70, main_v71, main_v72, main_c_12,
   main_v73, main_v74, main_c_13, main_v75, main_v76, main_v77, main_v78, main_v79, main_v80, main_v81,
   main_cst_14, main_v82, main_v83, main_v84, main_v85, main_v86, main_v87, main_v88, main_v89, main_v90,
   main_cst_15, main_call4_cst, main_call4_v0, main_call4_v1, main_call4_v2, main_call4_v3, main_call4_v4, main_v91, main_v92, main_v93,
   main_v94, main_v95, main_v96, main_v97, main_cst_16, main_call5_cst, main_call5_v0, main_call5_v1, main_call5_v2, main_call5_v3,
   main_call5_v4, main_v98, main_v99, main_v100]

theorem ops1_writes : (ops1 : List (HloOp τ sig (Elt F))).Forall fun op => op.writes ⊆ (W1.map (Proc.devRef (τ := τ) .tc)).toFinset :=
  ⟨writes_sub_of_mem (y := main_v50) (by decide), writes_sub_of_mem (y := main_v51) (by decide), writes_sub_of_mem (y := main_v52) (by decide),
    writes_sub_of_mem (y := main_v53) (by decide), writes_sub_of_mem (y := main_v54) (by decide), writes_sub_of_mem (y := main_cst_8) (by decide),
    writes_sub_of_mem (y := main_call2_cst) (by decide), writes_sub_of_mem (y := main_call2_v0) (by decide), writes_sub_of_mem (y := main_call2_v1) (by decide),
    writes_sub_of_mem (y := main_call2_v2) (by decide), writes_sub_of_mem (y := main_call2_v3) (by decide), writes_sub_of_mem (y := main_call2_v4) (by decide),
    writes_sub_of_mem (y := main_v55) (by decide), writes_sub_of_mem (y := main_v56) (by decide), writes_sub_of_mem (y := main_v57) (by decide),
    writes_sub_of_mem (y := main_v58) (by decide), writes_sub_of_mem (y := main_v59) (by decide), writes_sub_of_mem (y := main_v60) (by decide),
    writes_sub_of_mem (y := main_v61) (by decide), writes_sub_of_mem (y := main_cst_9) (by decide), writes_sub_of_mem (y := main_call3_cst) (by decide),
    writes_sub_of_mem (y := main_call3_v0) (by decide), writes_sub_of_mem (y := main_call3_v1) (by decide), writes_sub_of_mem (y := main_call3_v2) (by decide),
    writes_sub_of_mem (y := main_call3_v3) (by decide), writes_sub_of_mem (y := main_call3_v4) (by decide), writes_sub_of_mem (y := main_v62) (by decide),
    writes_sub_of_mem (y := main_v63) (by decide), writes_sub_of_mem (y := main_v64) (by decide), writes_sub_of_mem (y := main_cst_10) (by decide),
    writes_sub_of_mem (y := main_v65) (by decide), writes_sub_of_mem (y := main_v66) (by decide), writes_sub_of_mem (y := main_v67) (by decide),
    writes_sub_of_mem (y := main_cst_11) (by decide), writes_sub_of_mem (y := main_v68) (by decide), writes_sub_of_mem (y := main_v69) (by decide),
    writes_sub_of_mem (y := main_v70) (by decide), writes_sub_of_mem (y := main_v71) (by decide), writes_sub_of_mem (y := main_v72) (by decide),
    writes_sub_of_mem (y := main_c_12) (by decide), writes_sub_of_mem (y := main_v73) (by decide), writes_sub_of_mem (y := main_v74) (by decide),
    writes_sub_of_mem (y := main_c_13) (by decide), writes_sub_of_mem (y := main_v75) (by decide), writes_sub_of_mem (y := main_v76) (by decide),
    writes_sub_of_mem (y := main_v77) (by decide), writes_sub_of_mem (y := main_v78) (by decide), writes_sub_of_mem (y := main_v79) (by decide),
    writes_sub_of_mem (y := main_v80) (by decide), writes_sub_of_mem (y := main_v81) (by decide), writes_sub_of_mem (y := main_cst_14) (by decide),
    writes_sub_of_mem (y := main_v82) (by decide), writes_sub_of_mem (y := main_v83) (by decide), writes_sub_of_mem (y := main_v84) (by decide),
    writes_sub_of_mem (y := main_v85) (by decide), writes_sub_of_mem (y := main_v86) (by decide), writes_sub_of_mem (y := main_v87) (by decide),
    writes_sub_of_mem (y := main_v88) (by decide), writes_sub_of_mem (y := main_v89) (by decide), writes_sub_of_mem (y := main_v90) (by decide),
    writes_sub_of_mem (y := main_cst_15) (by decide), writes_sub_of_mem (y := main_call4_cst) (by decide), writes_sub_of_mem (y := main_call4_v0) (by decide),
    writes_sub_of_mem (y := main_call4_v1) (by decide), writes_sub_of_mem (y := main_call4_v2) (by decide), writes_sub_of_mem (y := main_call4_v3) (by decide),
    writes_sub_of_mem (y := main_call4_v4) (by decide), writes_sub_of_mem (y := main_v91) (by decide), writes_sub_of_mem (y := main_v92) (by decide),
    writes_sub_of_mem (y := main_v93) (by decide), writes_sub_of_mem (y := main_v94) (by decide), writes_sub_of_mem (y := main_v95) (by decide),
    writes_sub_of_mem (y := main_v96) (by decide), writes_sub_of_mem (y := main_v97) (by decide), writes_sub_of_mem (y := main_cst_16) (by decide),
    writes_sub_of_mem (y := main_call5_cst) (by decide), writes_sub_of_mem (y := main_call5_v0) (by decide), writes_sub_of_mem (y := main_call5_v1) (by decide),
    writes_sub_of_mem (y := main_call5_v2) (by decide), writes_sub_of_mem (y := main_call5_v3) (by decide), writes_sub_of_mem (y := main_call5_v4) (by decide),
    writes_sub_of_mem (y := main_v98) (by decide), writes_sub_of_mem (y := main_v99) (by decide), writes_sub_of_mem (y := main_v100) (by decide)⟩

/-- The result buffers of window 3, in order. -/
abbrev W2 : List (Ref sig .tc) :=
  [main_cst_17, main_v101, main_v102, main_v103, main_cst_18, main_v104, main_v105, main_v106, main_v107, main_v108]

theorem ops2_writes : (ops2 : List (HloOp τ sig (Elt F))).Forall fun op => op.writes ⊆ (W2.map (Proc.devRef (τ := τ) .tc)).toFinset :=
  ⟨writes_sub_of_mem (y := main_cst_17) (by decide), writes_sub_of_mem (y := main_v101) (by decide), writes_sub_of_mem (y := main_v102) (by decide),
    writes_sub_of_mem (y := main_v103) (by decide), writes_sub_of_mem (y := main_cst_18) (by decide), writes_sub_of_mem (y := main_v104) (by decide),
    writes_sub_of_mem (y := main_v105) (by decide), writes_sub_of_mem (y := main_v106) (by decide), writes_sub_of_mem (y := main_v107) (by decide),
    writes_sub_of_mem (y := main_v108) (by decide)⟩

/-- A reference no window writes keeps its contents through the whole line. -/
theorem after_ops_of_not_written (V : Valuation τ sig (Elt F)) {r : Ref sig .tc} (h0 : r ∉ W0) (h1 : r ∉ W1) (h2 : r ∉ W2) :
    after ops V (Proc.devRef .tc r) = V (Proc.devRef .tc r) := by
  show after (ops0 ++ (ops1 ++ ops2)) V (Proc.devRef .tc r) = V (Proc.devRef .tc r)
  rw [Stretches.after_append, Stretches.after_append, after_of_writes_sub ops2 _ ops2_writes h2,
    after_of_writes_sub ops1 _ ops1_writes h1, after_of_writes_sub ops0 _ ops0_writes h0]

/-! ## The run -/

/-- On every device, for any float values, from any memory with zero counters: every weakly fair execution of
    @main terminates with every buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefRun.lean ====
/-
  The reference program's run, read at its result and its arguments.

  Every weakly fair execution of @main terminates; the result buffer ends at the fold of @main's operations over
  the launch contents, and each of the sixteen argument buffers, which no operation writes, ends as it began.
-/
import proofs.«145267_j3582002725212_1_alg».proof.Proof.RefOps
import proofs.«145267_j3582002725212_1_alg».proof.Proof.Gen.Pre_finite_inputs
import proofs.«145267_j3582002725212_1_alg».proof.Defs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of @main
    terminates with the result at the fold of the operations over the launch contents and the arguments unchanged. -/
theorem run (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r => ∀ c : Dev nD,
      r.2.mem ((c.tc : Thread nD τ).loc main_v108) = StableHlo.after ops (fun b => m (c, b)) (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨h c main_v108,
      (h c main_arg0).trans (after_ops_of_not_written _ (by decide) (by decide) (by decide)),
      (h c main_arg1).trans (after_ops_of_not_written _ (by decide) (by decide) (by decide)),
      (h c main_arg2).trans (after_ops_of_not_written _ (by decide) (by decide) (by decide)),
      (h c main_arg3).trans (after_ops_of_not_written _ (by decide) (by decide) (by decide)),
      (h c main_arg4).trans (after_ops_of_not_written _ (by decide) (by decide) (by decide)),
      (h c main_arg5).trans (after_ops_of_not_written _ (by decide) (by decide) (by decide)),
      (h c main_arg6).trans (after_ops_of_not_written _ (by decide) (by decide) (by decide)),
      (h c main_arg7).trans (after_ops_of_not_written _ (by decide) (by decide) (by decide)),
      (h c main_arg8).trans (after_ops_of_not_written _ (by decide) (by decide) (by decide)),
      (h c main_arg9).trans (after_ops_of_not_written _ (by decide) (by decide) (by decide)),
      (h c main_arg10).trans (after_ops_of_not_written _ (by decide) (by decide) (by decide)),
      (h c main_arg11).trans (after_ops_of_not_written _ (by decide) (by decide) (by decide)),
      (h c main_arg12).trans (after_ops_of_not_written _ (by decide) (by decide) (by decide)),
      (h c main_arg13).trans (after_ops_of_not_written _ (by decide) (by decide) (by decide)),
      (h c main_arg14).trans (after_ops_of_not_written _ (by decide) (by decide) (by decide)),
      (h c main_arg15).trans (after_ops_of_not_written _ (by decide) (by decide) (by decide))⟩)
    (run_all m ρ)

/-- The reference runs and its argument arrays end unchanged. -/
theorem frame_ri : Cert.frame_ReferenceIdeal := fun m ρ _ =>
  (θ_run _ _ _).mono (fun _ h c => (h c).2) (run (F := Ideal) m ρ)

end Cert.ReferenceIdeal.RefRun

end
-- ==== Proof.RefDefs.lean ====
/-
  The reference function as one pure term of its sixteen argument arrays, in named pieces.

  Each definition is the composition of the printed host operations of one stretch of @main, written as the
  operations apply (the printed function of each operation applied to the terms of its operands, in the operands'
  order): the neighbourhood sum (gather, scale, scatter-add), the outlined leaky rectifier, one layer's dense part,
  the row normalization, and the whole function: the input beside the three normalized layer outputs.
-/
import proofs.«145267_j3582002725212_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The neighbourhood sum of a [100000,64] array `x` over the edge list (values `ev`, rows `er`, columns `ec`), as the
    program computes it: the rows of `x` gathered at the columns (a negative column wrapped by the row count), each
    scaled by its edge's value, scatter-added at the edges' rows into zeros. -/
def spmm64 (ev : FVec F S1200000 .f32) (er ec : IVec S1200000 32) (x : FVec F S100000x64 .f32) : FVec F S100000x64 .f32 :=
  Host.scatterAdd scatter_S100000x64_S1200000x1_S1200000x64_1_0_0_1
    (broadcastInDim S100000x64 ![] bcast_S_S100000x64 (constant S_ .f32 0x00000000#32))
    (broadcastInDim S1200000x1 ![0] bcast_S1200000_S1200000x1_0 er)
    (mulf (broadcastInDim S1200000x64 ![0, 1] bcast_S1200000x1_S1200000x64_0_1 (broadcastInDim S1200000x1 ![0] bcast_S1200000_S1200000x1_0 ev))
      (Host.gather gather_S100000x64_S1200000x1_S1200000x64_1_0_n_n_0_1_164 x
        (broadcastInDim S1200000x1 ![0] bcast_S1200000_S1200000x1_0
          (select (cmpi .slt ec (broadcastInDim S1200000 ![] bcast_S_S1200000 (constantI S_ 32 0#32)))
            (addi ec (broadcastInDim S1200000 ![] bcast_S_S1200000 (constantI S_ 32 100000#32))) ec))))

/-- The same neighbourhood sum of a [100000,32] array. -/
def spmm32 (ev : FVec F S1200000 .f32) (er ec : IVec S1200000 32) (x : FVec F S100000x32 .f32) : FVec F S100000x32 .f32 :=
  Host.scatterAdd scatter_S100000x32_S1200000x1_S1200000x32_1_0_0_1
    (broadcastInDim S100000x32 ![] bcast_S_S100000x32 (constant S_ .f32 0x00000000#32))
    (broadcastInDim S1200000x1 ![0] bcast_S1200000_S1200000x1_0 er)
    (mulf (broadcastInDim S1200000x32 ![0, 1] bcast_S1200000x1_S1200000x32_0_1 (broadcastInDim S1200000x1 ![0] bcast_S1200000_S1200000x1_0 ev))
      (Host.gather gather_S100000x32_S1200000x1_S1200000x32_1_0_n_n_0_1_132 x
        (broadcastInDim S1200000x1 ![0] bcast_S1200000_S1200000x1_0
          (select (cmpi .slt ec (broadcastInDim S1200000 ![] bcast_S_S1200000 (constantI S_ 32 0#32)))
            (addi ec (broadcastInDim S1200000 ![] bcast_S_S1200000 (constantI S_ 32 100000#32))) ec))))

/-- The outlined leaky rectifier on a [100000,64] array `s` with slope `a`: `s` where `s ≥ 0`, else `a · s`. -/
def leaky64 (s : FVec F S100000x64 .f32) (a : FVec F S_ .f32) : FVec F S100000x64 .f32 :=
  select (cmpf .oge s (broadcastInDim S100000x64 ![] bcast_S_S100000x64 (constant S_ .f32 0x00000000#32))) s
    (mulf (broadcastInDim S100000x64 ![] bcast_S_S100000x64 (id a)) s)

/-- The outlined leaky rectifier on a [100000,32] array `s` with slope `a`: `s` where `s ≥ 0`, else `a · s`. -/
def leaky32 (s : FVec F S100000x32 .f32) (a : FVec F S_ .f32) : FVec F S100000x32 .f32 :=
  select (cmpf .oge s (broadcastInDim S100000x32 ![] bcast_S_S100000x32 (constant S_ .f32 0x00000000#32))) s
    (mulf (broadcastInDim S100000x32 ![] bcast_S_S100000x32 (id a)) s)

/-- The outlined leaky rectifier on a [100000,16] array `s` with slope `a`: `s` where `s ≥ 0`, else `a · s`. -/
def leaky16 (s : FVec F S100000x16 .f32) (a : FVec F S_ .f32) : FVec F S100000x16 .f32 :=
  select (cmpf .oge s (broadcastInDim S100000x16 ![] bcast_S_S100000x16 (constant S_ .f32 0x00000000#32))) s
    (mulf (broadcastInDim S100000x16 ![] bcast_S_S100000x16 (id a)) s)

/-- One layer's output before normalization, from the [100000,64] input `ego` and its neighbourhood sum `side`: the leaky
    rectifier of `(ego + side) · w1ᵀ + b1` plus the leaky rectifier of `(ego * side) · w2ᵀ + b2` (weights [64,64], transposed
    first; each bias a row broadcast down the rows). -/
def layerEgo64x64 (ego side : FVec F S100000x64 .f32) (w1 : FVec F S64x64 .f32) (b1 : FVec F S64 .f32) (w2 : FVec F S64x64 .f32) (b2 : FVec F S64 .f32) : FVec F S100000x64 .f32 :=
  addf
    (leaky64 (addf (Host.dotGeneral dot_S100000x64_S64x64_S100000x64_1_0_0_1_n_n none (addf ego side) (transpose S64x64 [1, 0] w1 transposes_S64x64_S64x64_1_0))
        (broadcastInDim S100000x64 ![0, 1] bcast_S1x64_S100000x64_0_1 (broadcastInDim S1x64 ![1] bcast_S64_S1x64_1 b1)))
      (constant S_ .f32 0x3C23D70A#32))
    (leaky64 (addf (Host.dotGeneral dot_S100000x64_S64x64_S100000x64_1_0_0_1_n_n none (mulf ego side) (transpose S64x64 [1, 0] w2 transposes_S64x64_S64x64_1_0))
        (broadcastInDim S100000x64 ![0, 1] bcast_S1x64_S100000x64_0_1 (broadcastInDim S1x64 ![1] bcast_S64_S1x64_1 b2)))
      (constant S_ .f32 0x3C23D70A#32))

/-- One layer's output before normalization, from the [100000,64] input `ego` and its neighbourhood sum `side`: the leaky
    rectifier of `(ego + side) · w1ᵀ + b1` plus the leaky rectifier of `(ego * side) · w2ᵀ + b2` (weights [32,64], transposed
    first; each bias a row broadcast down the rows). -/
def layerEgo64x32 (ego side : FVec F S100000x64 .f32) (w1 : FVec F S32x64 .f32) (b1 : FVec F S32 .f32) (w2 : FVec F S32x64 .f32) (b2 : FVec F S32 .f32) : FVec F S100000x32 .f32 :=
  addf
    (leaky32 (addf (Host.dotGeneral dot_S100000x64_S64x32_S100000x32_1_0_0_1_n_n none (addf ego side) (transpose S64x32 [1, 0] w1 transposes_S32x64_S64x32_1_0))
        (broadcastInDim S100000x32 ![0, 1] bcast_S1x32_S100000x32_0_1 (broadcastInDim S1x32 ![1] bcast_S32_S1x32_1 b1)))
      (constant S_ .f32 0x3C23D70A#32))
    (leaky32 (addf (Host.dotGeneral dot_S100000x64_S64x32_S100000x32_1_0_0_1_n_n none (mulf ego side) (transpose S64x32 [1, 0] w2 transposes_S32x64_S64x32_1_0))
        (broadcastInDim S100000x32 ![0, 1] bcast_S1x32_S100000x32_0_1 (broadcastInDim S1x32 ![1] bcast_S32_S1x32_1 b2)))
      (constant S_ .f32 0x3C23D70A#32))

/-- One layer's output before normalization, from the [100000,32] input `ego` and its neighbourhood sum `side`: the leaky
    rectifier of `(ego + side) · w1ᵀ + b1` plus the leaky rectifier of `(ego * side) · w2ᵀ + b2` (weights [16,32], transposed
    first; each bias a row broadcast down the rows). -/
def layerEgo32x16 (ego side : FVec F S100000x32 .f32) (w1 : FVec F S16x32 .f32) (b1 : FVec F S16 .f32) (w2 : FVec F S16x32 .f32) (b2 : FVec F S16 .f32) : FVec F S100000x16 .f32 :=
  addf
    (leaky16 (addf (Host.dotGeneral dot_S100000x32_S32x16_S100000x16_1_0_0_1_n_n none (addf ego side) (transpose S32x16 [1, 0] w1 transposes_S16x32_S32x16_1_0))
        (broadcastInDim S100000x16 ![0, 1] bcast_S1x16_S100000x16_0_1 (broadcastInDim S1x16 ![1] bcast_S16_S1x16_1 b1)))
      (constant S_ .f32 0x3C23D70A#32))
    (leaky16 (addf (Host.dotGeneral dot_S100000x32_S32x16_S100000x16_1_0_0_1_n_n none (mulf ego side) (transpose S32x16 [1, 0] w2 transposes_S16x32_S32x16_1_0))
        (broadcastInDim S100000x16 ![0, 1] bcast_S1x16_S100000x16_0_1 (broadcastInDim S1x16 ![1] bcast_S16_S1x16_1 b2)))
      (constant S_ .f32 0x3C23D70A#32))

/-- A [100000,64] array with every row divided by the larger of its Euclidean norm and 1e-12. -/
def layerNorm64 (e : FVec F S100000x64 .f32) : FVec F S100000x64 .f32 :=
  Host.divf e (broadcastInDim S100000x64 ![0, 1] bcast_S100000x1_S100000x64_0_1
    (maximumf (Host.sqrt (broadcastInDim S100000x1 ![0] bcast_S100000_S100000x1_0
        (Host.reduceAdd (mulf e e) (constant S_ .f32 0x00000000#32) reducesTo_S100000x64_S100000_d1 h_S_)))
      (broadcastInDim S100000x1 ![] bcast_S_S100000x1 (constant S_ .f32 0x2B8CBCCC#32))))

/-- A [100000,32] array with every row divided by the larger of its Euclidean norm and 1e-12. -/
def layerNorm32 (e : FVec F S100000x32 .f32) : FVec F S100000x32 .f32 :=
  Host.divf e (broadcastInDim S100000x32 ![0, 1] bcast_S100000x1_S100000x32_0_1
    (maximumf (Host.sqrt (broadcastInDim S100000x1 ![0] bcast_S100000_S100000x1_0
        (Host.reduceAdd (mulf e e) (constant S_ .f32 0x00000000#32) reducesTo_S100000x32_S100000_d1 h_S_)))
      (broadcastInDim S100000x1 ![] bcast_S_S100000x1 (constant S_ .f32 0x2B8CBCCC#32))))

/-- A [100000,16] array with every row divided by the larger of its Euclidean norm and 1e-12. -/
def layerNorm16 (e : FVec F S100000x16 .f32) : FVec F S100000x16 .f32 :=
  Host.divf e (broadcastInDim S100000x16 ![0, 1] bcast_S100000x1_S100000x16_0_1
    (maximumf (Host.sqrt (broadcastInDim S100000x1 ![0] bcast_S100000_S100000x1_0
        (Host.reduceAdd (mulf e e) (constant S_ .f32 0x00000000#32) reducesTo_S100000x16_S100000_d1 h_S_)))
      (broadcastInDim S100000x1 ![] bcast_S_S100000x1 (constant S_ .f32 0x2B8CBCCC#32))))

/-- The first layer's output before normalization: the layer applied to the input and its neighbourhood sum. -/
def ego64x64 (ev : FVec F S1200000 .f32) (er ec : IVec S1200000 32) (x : FVec F S100000x64 .f32)
    (w1 : FVec F S64x64 .f32) (b1 : FVec F S64 .f32) (w2 : FVec F S64x64 .f32) (b2 : FVec F S64 .f32) : FVec F S100000x64 .f32 :=
  layerEgo64x64 x (spmm64 ev er ec x) w1 b1 w2 b2

/-- The second layer's, from the first's. -/
def ego64x32 (ev : FVec F S1200000 .f32) (er ec : IVec S1200000 32) (x : FVec F S100000x64 .f32)
    (w1 : FVec F S32x64 .f32) (b1 : FVec F S32 .f32) (w2 : FVec F S32x64 .f32) (b2 : FVec F S32 .f32) : FVec F S100000x32 .f32 :=
  layerEgo64x32 x (spmm64 ev er ec x) w1 b1 w2 b2

/-- The third layer's, from the second's. -/
def ego32x16 (ev : FVec F S1200000 .f32) (er ec : IVec S1200000 32) (x : FVec F S100000x32 .f32)
    (w1 : FVec F S16x32 .f32) (b1 : FVec F S16 .f32) (w2 : FVec F S16x32 .f32) (b2 : FVec F S16 .f32) : FVec F S100000x16 .f32 :=
  layerEgo32x16 x (spmm32 ev er ec x) w1 b1 w2 b2

/-- The whole function of the sixteen argument arrays (in @main's argument order): the input beside the three layers'
    normalized outputs, each layer fed the previous layer's output before normalization. -/
def refOut (x : FVec F S100000x64 .f32) (w1 : FVec F S64x64 .f32) (b1 : FVec F S64 .f32) (w2 : FVec F S64x64 .f32) (b2 : FVec F S64 .f32)
    (w3 : FVec F S32x64 .f32) (b3 : FVec F S32 .f32) (w4 : FVec F S32x64 .f32) (b4 : FVec F S32 .f32)
    (w5 : FVec F S16x32 .f32) (b5 : FVec F S16 .f32) (w6 : FVec F S16x32 .f32) (b6 : FVec F S16 .f32)
    (ev : FVec F S1200000 .f32) (er ec : IVec S1200000 32) : FVec F S100000x176 .f32 :=
  concatenate S100000x176 1
    [⟨S100000x64, x⟩,
     ⟨S100000x64, layerNorm64 (ego64x64 ev er ec x w1 b1 w2 b2)⟩,
     ⟨S100000x32, layerNorm32 (ego64x32 ev er ec (ego64x64 ev er ec x w1 b1 w2 b2) w3 b3 w4 b4)⟩,
     ⟨S100000x16, layerNorm16 (ego32x16 ev er ec (ego64x32 ev er ec (ego64x64 ev er ec x w1 b1 w2 b2) w3 b3 w4 b4) w5 b5 w6 b6)⟩]
    concatenates_S100000x64_S100000x64_S100000x32_S100000x16_S100000x176_d1

end Cert.ReferenceIdeal.RefRun

end
-- ==== Proof.RefTerm.lean ====
/-
  The reference program's result as one pure term of its argument arrays.

  @main's line of operations is cut into ten stretches: per layer the neighbourhood sum, the dense part (with the
  two outlined leaky rectifiers written out) and the row normalization, and last the concatenation. Each stretch,
  from any memory, leaves its last result buffer at the stretch's named function of the buffers it reads, and leaves
  every buffer it does not write as it was. Composing the stretches from the last backwards gives the result buffer
  after the whole line as the whole function of the sixteen argument buffers.
-/
import proofs.«145267_j3582002725212_1_alg».proof.Proof.RefOps
import proofs.«145267_j3582002725212_1_alg».proof.Proof.RefDefs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stretches -/

/-- The first layer's neighbourhood sum. -/
abbrev A1 : List (HloOp τ sig (Elt F)) :=
  [ unary main_arg13 main_v0 (broadcastInDim S1200000x1 ![0] bcast_S1200000_S1200000x1_0 : (⟨S1200000, .f32⟩ : BufTy).Contents (Elt F) → (⟨S1200000x1, .f32⟩ : BufTy).Contents (Elt F)),
    nullary main_c (constantI S_ 32 0#32),
    unary main_c main_v1 (broadcastInDim S1200000 ![] bcast_S_S1200000 : (⟨S_, .i32⟩ : BufTy).Contents (Elt F) → (⟨S1200000, .i32⟩ : BufTy).Contents (Elt F)),
    binary main_arg15 main_v1 main_v2 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 100000#32),
    unary main_c_0 main_v3 (broadcastInDim S1200000 ![] bcast_S_S1200000 : (⟨S_, .i32⟩ : BufTy).Contents (Elt F) → (⟨S1200000, .i32⟩ : BufTy).Contents (Elt F)),
    binary main_arg15 main_v3 main_v4 (addi : (⟨S1200000, .i32⟩ : BufTy).Contents (Elt F) → (⟨S1200000, .i32⟩ : BufTy).Contents (Elt F) → (⟨S1200000, .i32⟩ : BufTy).Contents (Elt F)),
    ternary main_v2 main_v4 main_arg15 main_v5 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v5 main_v6 (broadcastInDim S1200000x1 ![0] bcast_S1200000_S1200000x1_0 : (⟨S1200000, .i32⟩ : BufTy).Contents (Elt F) → (⟨S1200000x1, .i32⟩ : BufTy).Contents (Elt F)),
    binary main_arg0 main_v6 main_v7 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v0 main_v8 (broadcastInDim S1200000x64 ![0, 1] bcast_S1200000x1_S1200000x64_0_1 : (⟨S1200000x1, .f32⟩ : BufTy).Contents (Elt F) → (⟨S1200000x64, .f32⟩ : BufTy).Contents (Elt F)),
    binary main_v8 main_v7 main_v9 (mulf : (⟨S1200000x64, .f32⟩ : BufTy).Contents (Elt F) → (⟨S1200000x64, .f32⟩ : BufTy).Contents (Elt F) → (⟨S1200000x64, .f32⟩ : BufTy).Contents (Elt F)),
    nullary main_cst (constant S_ .f32 0x00000000#32),
    unary main_cst main_v10 (broadcastInDim S100000x64 ![] bcast_S_S100000x64 : (⟨S_, .f32⟩ : BufTy).Contents (Elt F) → (⟨S100000x64, .f32⟩ : BufTy).Contents (Elt F)),
    unary main_arg14 main_v11 (broadcastInDim S1200000x1 ![0] bcast_S1200000_S1200000x1_0 : (⟨S1200000, .i32⟩ : BufTy).Contents (Elt F) → (⟨S1200000x1, .i32⟩ : BufTy).Contents (Elt F)),
    ternary main_v10 main_v11 main_v9 main_v12 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)) ]

/-- The first layer's dense part. -/
abbrev B1 : List (HloOp τ sig (Elt F)) :=
  [ binary main_arg0 main_v12 main_v13 (addf : (⟨S100000x64, .f32⟩ : BufTy).Contents (Elt F) → (⟨S100000x64, .f32⟩ : BufTy).Contents (Elt F) → (⟨S100000x64, .f32⟩ : BufTy).Contents (Elt F)),
    unary main_arg1 main_v14 ((transpose S64x64 [1, 0] · transposes_S64x64_S64x64_1_0) : (⟨S64x64, .f32⟩ : BufTy).Contents (Elt F) → (⟨S64x64, .f32⟩ : BufTy).Contents (Elt F)),
    binary main_v13 main_v14 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg2 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v15 main_v17 main_v18 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x3C23D70A#32),
    TRef.nullary main_call0.cst (constant S_ .f32 0x00000000#32),
    TRef.unary main_call0.cst main_call0.v0 (broadcastInDim S100000x64 ![] bcast_S_S100000x64),
    TRef.binary (.of main_v18 : TRef sig ⟨S100000x64, .f32⟩) main_call0.v0 main_call0.v1 (cmpf .oge),
    TRef.unary (.of main_cst_1 : TRef sig ⟨S_, .f32⟩) main_call0.v2 id,
    TRef.unary main_call0.v2 main_call0.v3 (broadcastInDim S100000x64 ![] bcast_S_S100000x64),
    TRef.binary main_call0.v3 (.of main_v18 : TRef sig ⟨S100000x64, .f32⟩) main_call0.v4 mulf,
    TRef.ternary main_call0.v1 (.of main_v18 : TRef sig ⟨S100000x64, .f32⟩) main_call0.v4 main_call0.call0.v0 select,
    binary main_arg0 main_v12 main_v20 (mulf : (⟨S100000x64, .f32⟩ : BufTy).Contents (Elt F) → (⟨S100000x64, .f32⟩ : BufTy).Contents (Elt F) → (⟨S100000x64, .f32⟩ : BufTy).Contents (Elt F)),
    unary main_arg3 main_v21 ((transpose S64x64 [1, 0] · transposes_S64x64_S64x64_1_0) : (⟨S64x64, .f32⟩ : BufTy).Contents (Elt F) → (⟨S64x64, .f32⟩ : BufTy).Contents (Elt F)),
    binary main_v20 main_v21 main_v22 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v23 (broadcastInDim S1x64 ![1] bcast_S64_S1x64_1 : (⟨S64, .f32⟩ : BufTy).Contents (Elt F) → (⟨S1x64, .f32⟩ : BufTy).Contents (Elt F)),
    unary main_v23 main_v24 (broadcastInDim S100000x64 ![0, 1] bcast_S1x64_S100000x64_0_1 : (⟨S1x64, .f32⟩ : BufTy).Contents (Elt F) → (⟨S100000x64, .f32⟩ : BufTy).Contents (Elt F)),
    binary main_v22 main_v24 main_v25 (addf : (⟨S100000x64, .f32⟩ : BufTy).Contents (Elt F) → (⟨S100000x64, .f32⟩ : BufTy).Contents (Elt F) → (⟨S100000x64, .f32⟩ : BufTy).Contents (Elt F)),
    nullary main_cst_2 (constant S_ .f32 0x3C23D70A#32),
    TRef.nullary main_call1.cst (constant S_ .f32 0x00000000#32),
    TRef.unary main_call1.cst main_call1.v0 (broadcastInDim S100000x64 ![] bcast_S_S100000x64),
    TRef.binary (.of main_v25 : TRef sig ⟨S100000x64, .f32⟩) main_call1.v0 main_call1.v1 (cmpf .oge),
    TRef.unary (.of main_cst_2 : TRef sig ⟨S_, .f32⟩) main_call1.v2 id,
    TRef.unary main_call1.v2 main_call1.v3 (broadcastInDim S100000x64 ![] bcast_S_S100000x64),
    TRef.binary main_call1.v3 (.of main_v25 : TRef sig ⟨S100000x64, .f32⟩) main_call1.v4 mulf,
    TRef.ternary main_call1.v1 (.of main_v25 : TRef sig ⟨S100000x64, .f32⟩) main_call1.v4 main_call1.call0.v0 select,
    binary main_v19 main_v26 main_v27 (addf : (⟨S100000x64, .f32⟩ : BufTy).Contents (Elt F) → (⟨S100000x64, .f32⟩ : BufTy).Contents (Elt F) → (⟨S100000x64, .f32⟩ : BufTy).Contents (Elt F)) ]

/-- The first layer's row normalization. -/
abbrev C1 : List (HloOp τ sig (Elt F)) :=
  [ binary main_v27 main_v27 main_v28 (mulf : (⟨S100000x64, .f32⟩ : BufTy).Contents (Elt F) → (⟨S100000x64, .f32⟩ : BufTy).Contents (Elt F) → (⟨S100000x64, .f32⟩ : BufTy).Contents (Elt F)),
    nullary main_cst_3 (constant S_ .f32 0x00000000#32),
    binary main_v28 main_cst_3 main_v29 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v29 main_v30 (broadcastInDim S100000x1 ![0] bcast_S100000_S100000x1_0 : (⟨S100000, .f32⟩ : BufTy).Contents (Elt F) → (⟨S100000x1, .f32⟩ : BufTy).Contents (Elt F)),
    unary main_v30 main_v31 (Host.sqrt : (⟨S100000x1, .f32⟩ : BufTy).Contents (Elt F) → (⟨S100000x1, .f32⟩ : BufTy).Contents (Elt F)),
    nullary main_cst_4 (constant S_ .f32 0x2B8CBCCC#32),
    unary main_cst_4 main_v32 (broadcastInDim S100000x1 ![] bcast_S_S100000x1 : (⟨S_, .f32⟩ : BufTy).Contents (Elt F) → (⟨S100000x1, .f32⟩ : BufTy).Contents (Elt F)),
    binary main_v31 main_v32 main_v33 (maximumf : (⟨S100000x1, .f32⟩ : BufTy).Contents (Elt F) → (⟨S100000x1, .f32⟩ : BufTy).Contents (Elt F) → (⟨S100000x1, .f32⟩ : BufTy).Contents (Elt F)),
    unary main_v33 main_v34 (broadcastInDim S100000x64 ![0, 1] bcast_S100000x1_S100000x64_0_1 : (⟨S100000x1, .f32⟩ : BufTy).Contents (Elt F) → (⟨S100000x64, .f32⟩ : BufTy).Contents (Elt F)),
    binary main_v27 main_v34 main_v35 (Host.divf : (⟨S100000x64, .f32⟩ : BufTy).Contents (Elt F) → (⟨S100000x64, .f32⟩ : BufTy).Contents (Elt F) → (⟨S100000x64, .f32⟩ : BufTy).Contents (Elt F)) ]

/-- The second layer's neighbourhood sum. -/
abbrev A2 : List (HloOp τ sig (Elt F)) :=
  [ unary main_arg13 main_v36 (broadcastInDim S1200000x1 ![0] bcast_S1200000_S1200000x1_0 : (⟨S1200000, .f32⟩ : BufTy).Contents (Elt F) → (⟨S1200000x1, .f32⟩ : BufTy).Contents (Elt F)),
    nullary main_c_5 (constantI S_ 32 0#32),
    unary main_c_5 main_v37 (broadcastInDim S1200000 ![] bcast_S_S1200000 : (⟨S_, .i32⟩ : BufTy).Contents (Elt F) → (⟨S1200000, .i32⟩ : BufTy).Contents (Elt F)),
    binary main_arg15 main_v37 main_v38 (cmpi .slt : (⟨S1200000, .i32⟩ : BufTy).Contents (Elt F) → (⟨S1200000, .i32⟩ : BufTy).Contents (Elt F) → (⟨S1200000, .i1⟩ : BufTy).Contents (Elt F)),
    nullary main_c_6 (constantI S_ 32 100000#32),
    unary main_c_6 main_v39 (broadcastInDim S1200000 ![] bcast_S_S1200000 : (⟨S_, .i32⟩ : BufTy).Contents (Elt F) → (⟨S1200000, .i32⟩ : BufTy).Contents (Elt F)),
    binary main_arg15 main_v39 main_v40 (addi : (⟨S1200000, .i32⟩ : BufTy).Contents (Elt F) → (⟨S1200000, .i32⟩ : BufTy).Contents (Elt F) → (⟨S1200000, .i32⟩ : BufTy).Contents (Elt F)),
    ternary main_v38 main_v40 main_arg15 main_v41 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v41 main_v42 (broadcastInDim S1200000x1 ![0] bcast_S1200000_S1200000x1_0 : (⟨S1200000, .i32⟩ : BufTy).Contents (Elt F) → (⟨S1200000x1, .i32⟩ : BufTy).Contents (Elt F)),
    binary main_v27 main_v42 main_v43 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v36 main_v44 (broadcastInDim S1200000x64 ![0, 1] bcast_S1200000x1_S1200000x64_0_1 : (⟨S1200000x1, .f32⟩ : BufTy).Contents (Elt F) → (⟨S1200000x64, .f32⟩ : BufTy).Contents (Elt F)),
    binary main_v44 main_v43 main_v45 (mulf : (⟨S1200000x64, .f32⟩ : BufTy).Contents (Elt F) → (⟨S1200000x64, .f32⟩ : BufTy).Contents (Elt F) → (⟨S1200000x64, .f32⟩ : BufTy).Contents (Elt F)),
    nullary main_cst_7 (constant S_ .f32 0x00000000#32),
    unary main_cst_7 main_v46 (broadcastInDim S100000x64 ![] bcast_S_S100000x64 : (⟨S_, .f32⟩ : BufTy).Contents (Elt F) → (⟨S100000x64, .f32⟩ : BufTy).Contents (Elt F)),
    unary main_arg14 main_v47 (broadcastInDim S1200000x1 ![0] bcast_S1200000_S1200000x1_0 : (⟨S1200000, .i32⟩ : BufTy).Contents (Elt F) → (⟨S1200000x1, .i32⟩ : BufTy).Contents (Elt F)),
    ternary main_v46 main_v47 main_v45 main_v48 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)) ]

/-- The second layer's dense part. -/
abbrev B2 : List (HloOp τ sig (Elt F)) :=
  [ binary main_v27 main_v48 main_v49 (addf : (⟨S100000x64, .f32⟩ : BufTy).Contents (Elt F) → (⟨S100000x64, .f32⟩ : BufTy).Contents (Elt F) → (⟨S100000x64, .f32⟩ : BufTy).Contents (Elt F)),
    unary main_arg5 main_v50 ((transpose S64x32 [1, 0] · transposes_S32x64_S64x32_1_0) : (⟨S32x64, .f32⟩ : BufTy).Contents (Elt F) → (⟨S64x32, .f32⟩ : BufTy).Contents (Elt F)),
    binary main_v49 main_v50 main_v51 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg6 main_v52 (broadcastInDim S1x32 ![1] bcast_S32_S1x32_1 : (⟨S32, .f32⟩ : BufTy).Contents (Elt F) → (⟨S1x32, .f32⟩ : BufTy).Contents (Elt F)),
    unary main_v52 main_v53 (broadcastInDim S100000x32 ![0, 1] bcast_S1x32_S100000x32_0_1 : (⟨S1x32, .f32⟩ : BufTy).Contents (Elt F) → (⟨S100000x32, .f32⟩ : BufTy).Contents (Elt F)),
    binary main_v51 main_v53 main_v54 (addf : (⟨S100000x32, .f32⟩ : BufTy).Contents (Elt F) → (⟨S100000x32, .f32⟩ : BufTy).Contents (Elt F) → (⟨S100000x32, .f32⟩ : BufTy).Contents (Elt F)),
    nullary main_cst_8 (constant S_ .f32 0x3C23D70A#32),
    TRef.nullary main_call2.cst (constant S_ .f32 0x00000000#32),
    TRef.unary main_call2.cst main_call2.v0 (broadcastInDim S100000x32 ![] bcast_S_S100000x32),
    TRef.binary (.of main_v54 : TRef sig ⟨S100000x32, .f32⟩) main_call2.v0 main_call2.v1 (cmpf .oge),
    TRef.unary (.of main_cst_8 : TRef sig ⟨S_, .f32⟩) main_call2.v2 id,
    TRef.unary main_call2.v2 main_call2.v3 (broadcastInDim S100000x32 ![] bcast_S_S100000x32),
    TRef.binary main_call2.v3 (.of main_v54 : TRef sig ⟨S100000x32, .f32⟩) main_call2.v4 mulf,
    TRef.ternary main_call2.v1 (.of main_v54 : TRef sig ⟨S100000x32, .f32⟩) main_call2.v4 main_call2.call0.v0 select,
    binary main_v27 main_v48 main_v56 (mulf : (⟨S100000x64, .f32⟩ : BufTy).Contents (Elt F) → (⟨S100000x64, .f32⟩ : BufTy).Contents (Elt F) → (⟨S100000x64, .f32⟩ : BufTy).Contents (Elt F)),
    unary main_arg7 main_v57 ((transpose S64x32 [1, 0] · transposes_S32x64_S64x32_1_0) : (⟨S32x64, .f32⟩ : BufTy).Contents (Elt F) → (⟨S64x32, .f32⟩ : BufTy).Contents (Elt F)),
    binary main_v56 main_v57 main_v58 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg8 main_v59 (broadcastInDim S1x32 ![1] bcast_S32_S1x32_1 : (⟨S32, .f32⟩ : BufTy).Contents (Elt F) → (⟨S1x32, .f32⟩ : BufTy).Contents (Elt F)),
    unary main_v59 main_v60 (broadcastInDim S100000x32 ![0, 1] bcast_S1x32_S100000x32_0_1 : (⟨S1x32, .f32⟩ : BufTy).Contents (Elt F) → (⟨S100000x32, .f32⟩ : BufTy).Contents (Elt F)),
    binary main_v58 main_v60 main_v61 (addf : (⟨S100000x32, .f32⟩ : BufTy).Contents (Elt F) → (⟨S100000x32, .f32⟩ : BufTy).Contents (Elt F) → (⟨S100000x32, .f32⟩ : BufTy).Contents (Elt F)),
    nullary main_cst_9 (constant S_ .f32 0x3C23D70A#32),
    TRef.nullary main_call3.cst (constant S_ .f32 0x00000000#32),
    TRef.unary main_call3.cst main_call3.v0 (broadcastInDim S100000x32 ![] bcast_S_S100000x32),
    TRef.binary (.of main_v61 : TRef sig ⟨S100000x32, .f32⟩) main_call3.v0 main_call3.v1 (cmpf .oge),
    TRef.unary (.of main_cst_9 : TRef sig ⟨S_, .f32⟩) main_call3.v2 id,
    TRef.unary main_call3.v2 main_call3.v3 (broadcastInDim S100000x32 ![] bcast_S_S100000x32),
    TRef.binary main_call3.v3 (.of main_v61 : TRef sig ⟨S100000x32, .f32⟩) main_call3.v4 mulf,
    TRef.ternary main_call3.v1 (.of main_v61 : TRef sig ⟨S100000x32, .f32⟩) main_call3.v4 main_call3.call0.v0 select,
    binary main_v55 main_v62 main_v63 (addf : (⟨S100000x32, .f32⟩ : BufTy).Contents (Elt F) → (⟨S100000x32, .f32⟩ : BufTy).Contents (Elt F) → (⟨S100000x32, .f32⟩ : BufTy).Contents (Elt F)) ]

/-- The second layer's row normalization. -/
abbrev C2 : List (HloOp τ sig (Elt F)) :=
  [ binary main_v63 main_v63 main_v64 (mulf : (⟨S100000x32, .f32⟩ : BufTy).Contents (Elt F) → (⟨S100000x32, .f32⟩ : BufTy).Contents (Elt F) → (⟨S100000x32, .f32⟩ : BufTy).Contents (Elt F)),
    nullary main_cst_10 (constant S_ .f32 0x00000000#32),
    binary main_v64 main_cst_10 main_v65 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    unary main_v65 main_v66 (broadcastInDim S100000x1 ![0] bcast_S100000_S100000x1_0 : (⟨S100000, .f32⟩ : BufTy).Contents (Elt F) → (⟨S100000x1, .f32⟩ : BufTy).Contents (Elt F)),
    unary main_v66 main_v67 (Host.sqrt : (⟨S100000x1, .f32⟩ : BufTy).Contents (Elt F) → (⟨S100000x1, .f32⟩ : BufTy).Contents (Elt F)),
    nullary main_cst_11 (constant S_ .f32 0x2B8CBCCC#32),
    unary main_cst_11 main_v68 (broadcastInDim S100000x1 ![] bcast_S_S100000x1 : (⟨S_, .f32⟩ : BufTy).Contents (Elt F) → (⟨S100000x1, .f32⟩ : BufTy).Contents (Elt F)),
    binary main_v67 main_v68 main_v69 (maximumf : (⟨S100000x1, .f32⟩ : BufTy).Contents (Elt F) → (⟨S100000x1, .f32⟩ : BufTy).Contents (Elt F) → (⟨S100000x1, .f32⟩ : BufTy).Contents (Elt F)),
    unary main_v69 main_v70 (broadcastInDim S100000x32 ![0, 1] bcast_S100000x1_S100000x32_0_1 : (⟨S100000x1, .f32⟩ : BufTy).Contents (Elt F) → (⟨S100000x32, .f32⟩ : BufTy).Contents (Elt F)),
    binary main_v63 main_v70 main_v71 (Host.divf : (⟨S100000x32, .f32⟩ : BufTy).Contents (Elt F) → (⟨S100000x32, .f32⟩ : BufTy).Contents (Elt F) → (⟨S100000x32, .f32⟩ : BufTy).Contents (Elt F)) ]

/-- The third layer's neighbourhood sum. -/
abbrev A3 : List (HloOp τ sig (Elt F)) :=
  [ unary main_arg13 main_v72 (broadcastInDim S1200000x1 ![0] bcast_S1200000_S1200000x1_0 : (⟨S1200000, .f32⟩ : BufTy).Contents (Elt F) → (⟨S1200000x1, .f32⟩ : BufTy).Contents (Elt F)),
    nullary main_c_12 (constantI S_ 32 0#32),
    unary main_c_12 main_v73 (broadcastInDim S1200000 ![] bcast_S_S1200000 : (⟨S_, .i32⟩ : BufTy).Contents (Elt F) → (⟨S1200000, .i32⟩ : BufTy).Contents (Elt F)),
    binary main_arg15 main_v73 main_v74 (cmpi .slt : (⟨S1200000, .i32⟩ : BufTy).Contents (Elt F) → (⟨S1200000, .i32⟩ : BufTy).Contents (Elt F) → (⟨S1200000, .i1⟩ : BufTy).Contents (Elt F)),
    nullary main_c_13 (constantI S_ 32 100000#32),
    unary main_c_13 main_v75 (broadcastInDim S1200000 ![] bcast_S_S1200000 : (⟨S_, .i32⟩ : BufTy).Contents (Elt F) → (⟨S1200000, .i32⟩ : BufTy).Contents (Elt F)),
    binary main_arg15 main_v75 main_v76 (addi : (⟨S1200000, .i32⟩ : BufTy).Contents (Elt F) → (⟨S1200000, .i32⟩ : BufTy).Contents (Elt F) → (⟨S1200000, .i32⟩ : BufTy).Contents (Elt F)),
    ternary main_v74 main_v76 main_arg15 main_v77 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v77 main_v78 (broadcastInDim S1200000x1 ![0] bcast_S1200000_S1200000x1_0 : (⟨S1200000, .i32⟩ : BufTy).Contents (Elt F) → (⟨S1200000x1, .i32⟩ : BufTy).Contents (Elt F)),
    binary main_v63 main_v78 main_v79 ((fun x i => Host.gather gather_S100000x32_S1200000x1_S1200000x32_1_0_n_n_0_1_132 x i) : (⟨S100000x32, .f32⟩ : BufTy).Contents (Elt F) → (⟨S1200000x1, .i32⟩ : BufTy).Contents (Elt F) → (⟨S1200000x32, .f32⟩ : BufTy).Contents (Elt F)),
    unary main_v72 main_v80 (broadcastInDim S1200000x32 ![0, 1] bcast_S1200000x1_S1200000x32_0_1 : (⟨S1200000x1, .f32⟩ : BufTy).Contents (Elt F) → (⟨S1200000x32, .f32⟩ : BufTy).Contents (Elt F)),
    binary main_v80 main_v79 main_v81 (mulf : (⟨S1200000x32, .f32⟩ : BufTy).Contents (Elt F) → (⟨S1200000x32, .f32⟩ : BufTy).Contents (Elt F) → (⟨S1200000x32, .f32⟩ : BufTy).Contents (Elt F)),
    nullary main_cst_14 (constant S_ .f32 0x00000000#32),
    unary main_cst_14 main_v82 (broadcastInDim S100000x32 ![] bcast_S_S100000x32 : (⟨S_, .f32⟩ : BufTy).Contents (Elt F) → (⟨S100000x32, .f32⟩ : BufTy).Contents (Elt F)),
    unary main_arg14 main_v83 (broadcastInDim S1200000x1 ![0] bcast_S1200000_S1200000x1_0 : (⟨S1200000, .i32⟩ : BufTy).Contents (Elt F) → (⟨S1200000x1, .i32⟩ : BufTy).Contents (Elt F)),
    ternary main_v82 main_v83 main_v81 main_v84 ((fun x i u => Host.scatterAdd scatter_S100000x32_S1200000x1_S1200000x32_1_0_0_1 x i u) : (⟨S100000x32, .f32⟩ : BufTy).Contents (Elt F) → (⟨S1200000x1, .i32⟩ : BufTy).Contents (Elt F) → (⟨S1200000x32, .f32⟩ : BufTy).Contents (Elt F) → (⟨S100000x32, .f32⟩ : BufTy).Contents (Elt F)) ]

/-- The third layer's dense part. -/
abbrev B3 : List (HloOp τ sig (Elt F)) :=
  [ binary main_v63 main_v84 main_v85 (addf : (⟨S100000x32, .f32⟩ : BufTy).Contents (Elt F) → (⟨S100000x32, .f32⟩ : BufTy).Contents (Elt F) → (⟨S100000x32, .f32⟩ : BufTy).Contents (Elt F)),
    unary main_arg9 main_v86 ((transpose S32x16 [1, 0] · transposes_S16x32_S32x16_1_0) : (⟨S16x32, .f32⟩ : BufTy).Contents (Elt F) → (⟨S32x16, .f32⟩ : BufTy).Contents (Elt F)),
    binary main_v85 main_v86 main_v87 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    unary main_arg10 main_v88 (broadcastInDim S1x16 ![1] bcast_S16_S1x16_1 : (⟨S16, .f32⟩ : BufTy).Contents (Elt F) → (⟨S1x16, .f32⟩ : BufTy).Contents (Elt F)),
    unary main_v88 main_v89 (broadcastInDim S100000x16 ![0, 1] bcast_S1x16_S100000x16_0_1 : (⟨S1x16, .f32⟩ : BufTy).Contents (Elt F) → (⟨S100000x16, .f32⟩ : BufTy).Contents (Elt F)),
    binary main_v87 main_v89 main_v90 (addf : (⟨S100000x16, .f32⟩ : BufTy).Contents (Elt F) → (⟨S100000x16, .f32⟩ : BufTy).Contents (Elt F) → (⟨S100000x16, .f32⟩ : BufTy).Contents (Elt F)),
    nullary main_cst_15 (constant S_ .f32 0x3C23D70A#32),
    TRef.nullary main_call4.cst (constant S_ .f32 0x00000000#32),
    TRef.unary main_call4.cst main_call4.v0 (broadcastInDim S100000x16 ![] bcast_S_S100000x16),
    TRef.binary (.of main_v90 : TRef sig ⟨S100000x16, .f32⟩) main_call4.v0 main_call4.v1 (cmpf .oge),
    TRef.unary (.of main_cst_15 : TRef sig ⟨S_, .f32⟩) main_call4.v2 id,
    TRef.unary main_call4.v2 main_call4.v3 (broadcastInDim S100000x16 ![] bcast_S_S100000x16),
    TRef.binary main_call4.v3 (.of main_v90 : TRef sig ⟨S100000x16, .f32⟩) main_call4.v4 mulf,
    TRef.ternary main_call4.v1 (.of main_v90 : TRef sig ⟨S100000x16, .f32⟩) main_call4.v4 main_call4.call0.v0 select,
    binary main_v63 main_v84 main_v92 (mulf : (⟨S100000x32, .f32⟩ : BufTy).Contents (Elt F) → (⟨S100000x32, .f32⟩ : BufTy).Contents (Elt F) → (⟨S100000x32, .f32⟩ : BufTy).Contents (Elt F)),
    unary main_arg11 main_v93 ((transpose S32x16 [1, 0] · transposes_S16x32_S32x16_1_0) : (⟨S16x32, .f32⟩ : BufTy).Contents (Elt F) → (⟨S32x16, .f32⟩ : BufTy).Contents (Elt F)),
    binary main_v92 main_v93 main_v94 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    unary main_arg12 main_v95 (broadcastInDim S1x16 ![1] bcast_S16_S1x16_1 : (⟨S16, .f32⟩ : BufTy).Contents (Elt F) → (⟨S1x16, .f32⟩ : BufTy).Contents (Elt F)),
    unary main_v95 main_v96 (broadcastInDim S100000x16 ![0, 1] bcast_S1x16_S100000x16_0_1 : (⟨S1x16, .f32⟩ : BufTy).Contents (Elt F) → (⟨S100000x16, .f32⟩ : BufTy).Contents (Elt F)),
    binary main_v94 main_v96 main_v97 (addf : (⟨S100000x16, .f32⟩ : BufTy).Contents (Elt F) → (⟨S100000x16, .f32⟩ : BufTy).Contents (Elt F) → (⟨S100000x16, .f32⟩ : BufTy).Contents (Elt F)),
    nullary main_cst_16 (constant S_ .f32 0x3C23D70A#32),
    TRef.nullary main_call5.cst (constant S_ .f32 0x00000000#32),
    TRef.unary main_call5.cst main_call5.v0 (broadcastInDim S100000x16 ![] bcast_S_S100000x16),
    TRef.binary (.of main_v97 : TRef sig ⟨S100000x16, .f32⟩) main_call5.v0 main_call5.v1 (cmpf .oge),
    TRef.unary (.of main_cst_16 : TRef sig ⟨S_, .f32⟩) main_call5.v2 id,
    TRef.unary main_call5.v2 main_call5.v3 (broadcastInDim S100000x16 ![] bcast_S_S100000x16),
    TRef.binary main_call5.v3 (.of main_v97 : TRef sig ⟨S100000x16, .f32⟩) main_call5.v4 mulf,
    TRef.ternary main_call5.v1 (.of main_v97 : TRef sig ⟨S100000x16, .f32⟩) main_call5.v4 main_call5.call0.v0 select,
    binary main_v91 main_v98 main_v99 (addf : (⟨S100000x16, .f32⟩ : BufTy).Contents (Elt F) → (⟨S100000x16, .f32⟩ : BufTy).Contents (Elt F) → (⟨S100000x16, .f32⟩ : BufTy).Contents (Elt F)) ]

/-- The third layer's row normalization. -/
abbrev C3 : List (HloOp τ sig (Elt F)) :=
  [ binary main_v99 main_v99 main_v100 (mulf : (⟨S100000x16, .f32⟩ : BufTy).Contents (Elt F) → (⟨S100000x16, .f32⟩ : BufTy).Contents (Elt F) → (⟨S100000x16, .f32⟩ : BufTy).Contents (Elt F)),
    nullary main_cst_17 (constant S_ .f32 0x00000000#32),
    binary main_v100 main_cst_17 main_v101 ((fun x v => Host.reduceAdd x v reducesTo_S100000x16_S100000_d1 h_S_) : (⟨S100000x16, .f32⟩ : BufTy).Contents (Elt F) → (⟨S_, .f32⟩ : BufTy).Contents (Elt F) → (⟨S100000, .f32⟩ : BufTy).Contents (Elt F)),
    unary main_v101 main_v102 (broadcastInDim S100000x1 ![0] bcast_S100000_S100000x1_0 : (⟨S100000, .f32⟩ : BufTy).Contents (Elt F) → (⟨S100000x1, .f32⟩ : BufTy).Contents (Elt F)),
    unary main_v102 main_v103 (Host.sqrt : (⟨S100000x1, .f32⟩ : BufTy).Contents (Elt F) → (⟨S100000x1, .f32⟩ : BufTy).Contents (Elt F)),
    nullary main_cst_18 (constant S_ .f32 0x2B8CBCCC#32),
    unary main_cst_18 main_v104 (broadcastInDim S100000x1 ![] bcast_S_S100000x1 : (⟨S_, .f32⟩ : BufTy).Contents (Elt F) → (⟨S100000x1, .f32⟩ : BufTy).Contents (Elt F)),
    binary main_v103 main_v104 main_v105 (maximumf : (⟨S100000x1, .f32⟩ : BufTy).Contents (Elt F) → (⟨S100000x1, .f32⟩ : BufTy).Contents (Elt F) → (⟨S100000x1, .f32⟩ : BufTy).Contents (Elt F)),
    unary main_v105 main_v106 (broadcastInDim S100000x16 ![0, 1] bcast_S100000x1_S100000x16_0_1 : (⟨S100000x1, .f32⟩ : BufTy).Contents (Elt F) → (⟨S100000x16, .f32⟩ : BufTy).Contents (Elt F)),
    binary main_v99 main_v106 main_v107 (Host.divf : (⟨S100000x16, .f32⟩ : BufTy).Contents (Elt F) → (⟨S100000x16, .f32⟩ : BufTy).Contents (Elt F) → (⟨S100000x16, .f32⟩ : BufTy).Contents (Elt F)) ]

/-- The concatenation. -/
abbrev D : List (HloOp τ sig (Elt F)) :=
  [ nary ![main_arg0, main_v35, main_v71, main_v107] main_v108 (fun u => concatenate S100000x176 1 [⟨S100000x64, u 0⟩, ⟨S100000x64, u 1⟩, ⟨S100000x32, u 2⟩, ⟨S100000x16, u 3⟩] concatenates_S100000x64_S100000x64_S100000x32_S100000x16_S100000x176_d1) ]

/-- The whole line is the stretches in order. -/
theorem ops_split : (ops : List (HloOp τ sig (Elt F))) = A1 ++ (B1 ++ (C1 ++ (A2 ++ (B2 ++ (C2 ++ (A3 ++ (B3 ++ (C3 ++ (D))))))))) := rfl

/-! ## What each stretch writes, and what it leaves alone -/

abbrev WA1 : List (Ref sig .tc) := [main_v0, main_c, main_v1, main_v2, main_c_0, main_v3, main_v4, main_v5, main_v6, main_v7, main_v8, main_v9, main_cst, main_v10, main_v11, main_v12]
theorem A1_writes : (A1 : List (HloOp τ sig (Elt F))).Forall fun op => op.writes ⊆ (WA1.map (Proc.devRef (τ := τ) .tc)).toFinset :=
  ⟨writes_sub_of_mem (y := main_v0) (by decide), writes_sub_of_mem (y := main_c) (by decide), writes_sub_of_mem (y := main_v1) (by decide),
    writes_sub_of_mem (y := main_v2) (by decide), writes_sub_of_mem (y := main_c_0) (by decide), writes_sub_of_mem (y := main_v3) (by decide),
    writes_sub_of_mem (y := main_v4) (by decide), writes_sub_of_mem (y := main_v5) (by decide), writes_sub_of_mem (y := main_v6) (by decide),
    writes_sub_of_mem (y := main_v7) (by decide), writes_sub_of_mem (y := main_v8) (by decide), writes_sub_of_mem (y := main_v9) (by decide),
    writes_sub_of_mem (y := main_cst) (by decide), writes_sub_of_mem (y := main_v10) (by decide), writes_sub_of_mem (y := main_v11) (by decide),
    writes_sub_of_mem (y := main_v12) (by decide)⟩
theorem A1_frame (V : Valuation τ sig (Elt F)) {r : Ref sig .tc} (hr : r ∉ WA1) :
    after A1 V (Proc.devRef .tc r) = V (Proc.devRef .tc r) := after_of_writes_sub A1 V A1_writes hr

abbrev WB1 : List (Ref sig .tc) := [main_v13, main_v14, main_v15, main_v16, main_v17, main_v18, main_cst_1, main_call0_cst, main_call0_v0, main_call0_v1, main_call0_v2, main_call0_v3, main_call0_v4, main_v19, main_v20, main_v21, main_v22, main_v23, main_v24, main_v25, main_cst_2, main_call1_cst, main_call1_v0, main_call1_v1, main_call1_v2, main_call1_v3, main_call1_v4, main_v26, main_v27]
theorem B1_writes : (B1 : List (HloOp τ sig (Elt F))).Forall fun op => op.writes ⊆ (WB1.map (Proc.devRef (τ := τ) .tc)).toFinset :=
  ⟨writes_sub_of_mem (y := main_v13) (by decide), writes_sub_of_mem (y := main_v14) (by decide), writes_sub_of_mem (y := main_v15) (by decide),
    writes_sub_of_mem (y := main_v16) (by decide), writes_sub_of_mem (y := main_v17) (by decide), writes_sub_of_mem (y := main_v18) (by decide),
    writes_sub_of_mem (y := main_cst_1) (by decide), writes_sub_of_mem (y := main_call0_cst) (by decide), writes_sub_of_mem (y := main_call0_v0) (by decide),
    writes_sub_of_mem (y := main_call0_v1) (by decide), writes_sub_of_mem (y := main_call0_v2) (by decide), writes_sub_of_mem (y := main_call0_v3) (by decide),
    writes_sub_of_mem (y := main_call0_v4) (by decide), writes_sub_of_mem (y := main_v19) (by decide), writes_sub_of_mem (y := main_v20) (by decide),
    writes_sub_of_mem (y := main_v21) (by decide), writes_sub_of_mem (y := main_v22) (by decide), writes_sub_of_mem (y := main_v23) (by decide),
    writes_sub_of_mem (y := main_v24) (by decide), writes_sub_of_mem (y := main_v25) (by decide), writes_sub_of_mem (y := main_cst_2) (by decide),
    writes_sub_of_mem (y := main_call1_cst) (by decide), writes_sub_of_mem (y := main_call1_v0) (by decide), writes_sub_of_mem (y := main_call1_v1) (by decide),
    writes_sub_of_mem (y := main_call1_v2) (by decide), writes_sub_of_mem (y := main_call1_v3) (by decide), writes_sub_of_mem (y := main_call1_v4) (by decide),
    writes_sub_of_mem (y := main_v26) (by decide), writes_sub_of_mem (y := main_v27) (by decide)⟩
theorem B1_frame (V : Valuation τ sig (Elt F)) {r : Ref sig .tc} (hr : r ∉ WB1) :
    after B1 V (Proc.devRef .tc r) = V (Proc.devRef .tc r) := after_of_writes_sub B1 V B1_writes hr

abbrev WC1 : List (Ref sig .tc) := [main_v28, main_cst_3, main_v29, main_v30, main_v31, main_cst_4, main_v32, main_v33, main_v34, main_v35]
theorem C1_writes : (C1 : List (HloOp τ sig (Elt F))).Forall fun op => op.writes ⊆ (WC1.map (Proc.devRef (τ := τ) .tc)).toFinset :=
  ⟨writes_sub_of_mem (y := main_v28) (by decide), writes_sub_of_mem (y := main_cst_3) (by decide), writes_sub_of_mem (y := main_v29) (by decide),
    writes_sub_of_mem (y := main_v30) (by decide), writes_sub_of_mem (y := main_v31) (by decide), writes_sub_of_mem (y := main_cst_4) (by decide),
    writes_sub_of_mem (y := main_v32) (by decide), writes_sub_of_mem (y := main_v33) (by decide), writes_sub_of_mem (y := main_v34) (by decide),
    writes_sub_of_mem (y := main_v35) (by decide)⟩
theorem C1_frame (V : Valuation τ sig (Elt F)) {r : Ref sig .tc} (hr : r ∉ WC1) :
    after C1 V (Proc.devRef .tc r) = V (Proc.devRef .tc r) := after_of_writes_sub C1 V C1_writes hr

abbrev WA2 : List (Ref sig .tc) := [main_v36, main_c_5, main_v37, main_v38, main_c_6, main_v39, main_v40, main_v41, main_v42, main_v43, main_v44, main_v45, main_cst_7, main_v46, main_v47, main_v48]
theorem A2_writes : (A2 : List (HloOp τ sig (Elt F))).Forall fun op => op.writes ⊆ (WA2.map (Proc.devRef (τ := τ) .tc)).toFinset :=
  ⟨writes_sub_of_mem (y := main_v36) (by decide), writes_sub_of_mem (y := main_c_5) (by decide), writes_sub_of_mem (y := main_v37) (by decide),
    writes_sub_of_mem (y := main_v38) (by decide), writes_sub_of_mem (y := main_c_6) (by decide), writes_sub_of_mem (y := main_v39) (by decide),
    writes_sub_of_mem (y := main_v40) (by decide), writes_sub_of_mem (y := main_v41) (by decide), writes_sub_of_mem (y := main_v42) (by decide),
    writes_sub_of_mem (y := main_v43) (by decide), writes_sub_of_mem (y := main_v44) (by decide), writes_sub_of_mem (y := main_v45) (by decide),
    writes_sub_of_mem (y := main_cst_7) (by decide), writes_sub_of_mem (y := main_v46) (by decide), writes_sub_of_mem (y := main_v47) (by decide),
    writes_sub_of_mem (y := main_v48) (by decide)⟩
theorem A2_frame (V : Valuation τ sig (Elt F)) {r : Ref sig .tc} (hr : r ∉ WA2) :
    after A2 V (Proc.devRef .tc r) = V (Proc.devRef .tc r) := after_of_writes_sub A2 V A2_writes hr

abbrev WB2 : List (Ref sig .tc) := [main_v49, main_v50, main_v51, main_v52, main_v53, main_v54, main_cst_8, main_call2_cst, main_call2_v0, main_call2_v1, main_call2_v2, main_call2_v3, main_call2_v4, main_v55, main_v56, main_v57, main_v58, main_v59, main_v60, main_v61, main_cst_9, main_call3_cst, main_call3_v0, main_call3_v1, main_call3_v2, main_call3_v3, main_call3_v4, main_v62, main_v63]
theorem B2_writes : (B2 : List (HloOp τ sig (Elt F))).Forall fun op => op.writes ⊆ (WB2.map (Proc.devRef (τ := τ) .tc)).toFinset :=
  ⟨writes_sub_of_mem (y := main_v49) (by decide), writes_sub_of_mem (y := main_v50) (by decide), writes_sub_of_mem (y := main_v51) (by decide),
    writes_sub_of_mem (y := main_v52) (by decide), writes_sub_of_mem (y := main_v53) (by decide), writes_sub_of_mem (y := main_v54) (by decide),
    writes_sub_of_mem (y := main_cst_8) (by decide), writes_sub_of_mem (y := main_call2_cst) (by decide), writes_sub_of_mem (y := main_call2_v0) (by decide),
    writes_sub_of_mem (y := main_call2_v1) (by decide), writes_sub_of_mem (y := main_call2_v2) (by decide), writes_sub_of_mem (y := main_call2_v3) (by decide),
    writes_sub_of_mem (y := main_call2_v4) (by decide), writes_sub_of_mem (y := main_v55) (by decide), writes_sub_of_mem (y := main_v56) (by decide),
    writes_sub_of_mem (y := main_v57) (by decide), writes_sub_of_mem (y := main_v58) (by decide), writes_sub_of_mem (y := main_v59) (by decide),
    writes_sub_of_mem (y := main_v60) (by decide), writes_sub_of_mem (y := main_v61) (by decide), writes_sub_of_mem (y := main_cst_9) (by decide),
    writes_sub_of_mem (y := main_call3_cst) (by decide), writes_sub_of_mem (y := main_call3_v0) (by decide), writes_sub_of_mem (y := main_call3_v1) (by decide),
    writes_sub_of_mem (y := main_call3_v2) (by decide), writes_sub_of_mem (y := main_call3_v3) (by decide), writes_sub_of_mem (y := main_call3_v4) (by decide),
    writes_sub_of_mem (y := main_v62) (by decide), writes_sub_of_mem (y := main_v63) (by decide)⟩
theorem B2_frame (V : Valuation τ sig (Elt F)) {r : Ref sig .tc} (hr : r ∉ WB2) :
    after B2 V (Proc.devRef .tc r) = V (Proc.devRef .tc r) := after_of_writes_sub B2 V B2_writes hr

abbrev WC2 : List (Ref sig .tc) := [main_v64, main_cst_10, main_v65, main_v66, main_v67, main_cst_11, main_v68, main_v69, main_v70, main_v71]
theorem C2_writes : (C2 : List (HloOp τ sig (Elt F))).Forall fun op => op.writes ⊆ (WC2.map (Proc.devRef (τ := τ) .tc)).toFinset :=
  ⟨writes_sub_of_mem (y := main_v64) (by decide), writes_sub_of_mem (y := main_cst_10) (by decide), writes_sub_of_mem (y := main_v65) (by decide),
    writes_sub_of_mem (y := main_v66) (by decide), writes_sub_of_mem (y := main_v67) (by decide), writes_sub_of_mem (y := main_cst_11) (by decide),
    writes_sub_of_mem (y := main_v68) (by decide), writes_sub_of_mem (y := main_v69) (by decide), writes_sub_of_mem (y := main_v70) (by decide),
    writes_sub_of_mem (y := main_v71) (by decide)⟩
theorem C2_frame (V : Valuation τ sig (Elt F)) {r : Ref sig .tc} (hr : r ∉ WC2) :
    after C2 V (Proc.devRef .tc r) = V (Proc.devRef .tc r) := after_of_writes_sub C2 V C2_writes hr

abbrev WA3 : List (Ref sig .tc) := [main_v72, main_c_12, main_v73, main_v74, main_c_13, main_v75, main_v76, main_v77, main_v78, main_v79, main_v80, main_v81, main_cst_14, main_v82, main_v83, main_v84]
theorem A3_writes : (A3 : List (HloOp τ sig (Elt F))).Forall fun op => op.writes ⊆ (WA3.map (Proc.devRef (τ := τ) .tc)).toFinset :=
  ⟨writes_sub_of_mem (y := main_v72) (by decide), writes_sub_of_mem (y := main_c_12) (by decide), writes_sub_of_mem (y := main_v73) (by decide),
    writes_sub_of_mem (y := main_v74) (by decide), writes_sub_of_mem (y := main_c_13) (by decide), writes_sub_of_mem (y := main_v75) (by decide),
    writes_sub_of_mem (y := main_v76) (by decide), writes_sub_of_mem (y := main_v77) (by decide), writes_sub_of_mem (y := main_v78) (by decide),
    writes_sub_of_mem (y := main_v79) (by decide), writes_sub_of_mem (y := main_v80) (by decide), writes_sub_of_mem (y := main_v81) (by decide),
    writes_sub_of_mem (y := main_cst_14) (by decide), writes_sub_of_mem (y := main_v82) (by decide), writes_sub_of_mem (y := main_v83) (by decide),
    writes_sub_of_mem (y := main_v84) (by decide)⟩
theorem A3_frame (V : Valuation τ sig (Elt F)) {r : Ref sig .tc} (hr : r ∉ WA3) :
    after A3 V (Proc.devRef .tc r) = V (Proc.devRef .tc r) := after_of_writes_sub A3 V A3_writes hr

abbrev WB3 : List (Ref sig .tc) := [main_v85, main_v86, main_v87, main_v88, main_v89, main_v90, main_cst_15, main_call4_cst, main_call4_v0, main_call4_v1, main_call4_v2, main_call4_v3, main_call4_v4, main_v91, main_v92, main_v93, main_v94, main_v95, main_v96, main_v97, main_cst_16, main_call5_cst, main_call5_v0, main_call5_v1, main_call5_v2, main_call5_v3, main_call5_v4, main_v98, main_v99]
theorem B3_writes : (B3 : List (HloOp τ sig (Elt F))).Forall fun op => op.writes ⊆ (WB3.map (Proc.devRef (τ := τ) .tc)).toFinset :=
  ⟨writes_sub_of_mem (y := main_v85) (by decide), writes_sub_of_mem (y := main_v86) (by decide), writes_sub_of_mem (y := main_v87) (by decide),
    writes_sub_of_mem (y := main_v88) (by decide), writes_sub_of_mem (y := main_v89) (by decide), writes_sub_of_mem (y := main_v90) (by decide),
    writes_sub_of_mem (y := main_cst_15) (by decide), writes_sub_of_mem (y := main_call4_cst) (by decide), writes_sub_of_mem (y := main_call4_v0) (by decide),
    writes_sub_of_mem (y := main_call4_v1) (by decide), writes_sub_of_mem (y := main_call4_v2) (by decide), writes_sub_of_mem (y := main_call4_v3) (by decide),
    writes_sub_of_mem (y := main_call4_v4) (by decide), writes_sub_of_mem (y := main_v91) (by decide), writes_sub_of_mem (y := main_v92) (by decide),
    writes_sub_of_mem (y := main_v93) (by decide), writes_sub_of_mem (y := main_v94) (by decide), writes_sub_of_mem (y := main_v95) (by decide),
    writes_sub_of_mem (y := main_v96) (by decide), writes_sub_of_mem (y := main_v97) (by decide), writes_sub_of_mem (y := main_cst_16) (by decide),
    writes_sub_of_mem (y := main_call5_cst) (by decide), writes_sub_of_mem (y := main_call5_v0) (by decide), writes_sub_of_mem (y := main_call5_v1) (by decide),
    writes_sub_of_mem (y := main_call5_v2) (by decide), writes_sub_of_mem (y := main_call5_v3) (by decide), writes_sub_of_mem (y := main_call5_v4) (by decide),
    writes_sub_of_mem (y := main_v98) (by decide), writes_sub_of_mem (y := main_v99) (by decide)⟩
theorem B3_frame (V : Valuation τ sig (Elt F)) {r : Ref sig .tc} (hr : r ∉ WB3) :
    after B3 V (Proc.devRef .tc r) = V (Proc.devRef .tc r) := after_of_writes_sub B3 V B3_writes hr

abbrev WC3 : List (Ref sig .tc) := [main_v100, main_cst_17, main_v101, main_v102, main_v103, main_cst_18, main_v104, main_v105, main_v106, main_v107]
theorem C3_writes : (C3 : List (HloOp τ sig (Elt F))).Forall fun op => op.writes ⊆ (WC3.map (Proc.devRef (τ := τ) .tc)).toFinset :=
  ⟨writes_sub_of_mem (y := main_v100) (by decide), writes_sub_of_mem (y := main_cst_17) (by decide), writes_sub_of_mem (y := main_v101) (by decide),
    writes_sub_of_mem (y := main_v102) (by decide), writes_sub_of_mem (y := main_v103) (by decide), writes_sub_of_mem (y := main_cst_18) (by decide),
    writes_sub_of_mem (y := main_v104) (by decide), writes_sub_of_mem (y := main_v105) (by decide), writes_sub_of_mem (y := main_v106) (by decide),
    writes_sub_of_mem (y := main_v107) (by decide)⟩
theorem C3_frame (V : Valuation τ sig (Elt F)) {r : Ref sig .tc} (hr : r ∉ WC3) :
    after C3 V (Proc.devRef .tc r) = V (Proc.devRef .tc r) := after_of_writes_sub C3 V C3_writes hr

abbrev WD : List (Ref sig .tc) := [main_v108]
theorem D_writes : (D : List (HloOp τ sig (Elt F))).Forall fun op => op.writes ⊆ (WD.map (Proc.devRef (τ := τ) .tc)).toFinset :=
  writes_sub_of_mem (y := main_v108) (by decide)
theorem D_frame (V : Valuation τ sig (Elt F)) {r : Ref sig .tc} (hr : r ∉ WD) :
    after D V (Proc.devRef .tc r) = V (Proc.devRef .tc r) := after_of_writes_sub D V D_writes hr

/-! ## Each stretch's result

The fold unrolled, each operation's result at its own buffer is its function's value and at any other what was
there; what is left is the stretch's named function, by unfolding it. -/

theorem A1_res (V : Valuation τ sig (Elt F)) :
    after A1 V (Proc.devRef .tc main_v12) = spmm64 (V (Proc.devRef .tc main_arg13)) (V (Proc.devRef .tc main_arg14)) (V (Proc.devRef .tc main_arg15)) (V (Proc.devRef .tc main_arg0)) := by
  after_results_simp <;> rfl

theorem B1_res (V : Valuation τ sig (Elt F)) :
    after B1 V (Proc.devRef .tc main_v27) = layerEgo64x64 (V (Proc.devRef .tc main_arg0)) (V (Proc.devRef .tc main_v12)) (V (Proc.devRef .tc main_arg1)) (V (Proc.devRef .tc main_arg2)) (V (Proc.devRef .tc main_arg3)) (V (Proc.devRef .tc main_arg4)) := by
  after_results_simp <;> rfl

theorem C1_res (V : Valuation τ sig (Elt F)) :
    after C1 V (Proc.devRef .tc main_v35) = layerNorm64 (V (Proc.devRef .tc main_v27)) := by
  after_results_simp <;> rfl

theorem A2_res (V : Valuation τ sig (Elt F)) :
    after A2 V (Proc.devRef .tc main_v48) = spmm64 (V (Proc.devRef .tc main_arg13)) (V (Proc.devRef .tc main_arg14)) (V (Proc.devRef .tc main_arg15)) (V (Proc.devRef .tc main_v27)) := by
  after_results_simp <;> rfl

theorem B2_res (V : Valuation τ sig (Elt F)) :
    after B2 V (Proc.devRef .tc main_v63) = layerEgo64x32 (V (Proc.devRef .tc main_v27)) (V (Proc.devRef .tc main_v48)) (V (Proc.devRef .tc main_arg5)) (V (Proc.devRef .tc main_arg6)) (V (Proc.devRef .tc main_arg7)) (V (Proc.devRef .tc main_arg8)) := by
  after_results_simp <;> rfl

theorem C2_res (V : Valuation τ sig (Elt F)) :
    after C2 V (Proc.devRef .tc main_v71) = layerNorm32 (V (Proc.devRef .tc main_v63)) := by
  after_results_simp <;> rfl

theorem A3_res (V : Valuation τ sig (Elt F)) :
    after A3 V (Proc.devRef .tc main_v84) = spmm32 (V (Proc.devRef .tc main_arg13)) (V (Proc.devRef .tc main_arg14)) (V (Proc.devRef .tc main_arg15)) (V (Proc.devRef .tc main_v63)) := by
  after_results_simp <;> rfl

theorem B3_res (V : Valuation τ sig (Elt F)) :
    after B3 V (Proc.devRef .tc main_v99) = layerEgo32x16 (V (Proc.devRef .tc main_v63)) (V (Proc.devRef .tc main_v84)) (V (Proc.devRef .tc main_arg9)) (V (Proc.devRef .tc main_arg10)) (V (Proc.devRef .tc main_arg11)) (V (Proc.devRef .tc main_arg12)) := by
  after_results_simp <;> rfl

theorem C3_res (V : Valuation τ sig (Elt F)) :
    after C3 V (Proc.devRef .tc main_v107) = layerNorm16 (V (Proc.devRef .tc main_v99)) := by
  after_results_simp <;> rfl

theorem D_res (V : Valuation τ sig (Elt F)) :
    after D V (Proc.devRef .tc main_v108) = concatenate S100000x176 1 [⟨S100000x64, (V (Proc.devRef .tc main_arg0))⟩, ⟨S100000x64, (V (Proc.devRef .tc main_v35))⟩, ⟨S100000x32, (V (Proc.devRef .tc main_v71))⟩, ⟨S100000x16, (V (Proc.devRef .tc main_v107))⟩] concatenates_S100000x64_S100000x64_S100000x32_S100000x16_S100000x176_d1 := by
  after_results_simp <;> rfl

/-! ## The result buffer after the line from a stretch on -/

theorem tail_D (V : Valuation τ sig (Elt F)) :
    after D V (Proc.devRef .tc main_v108) = concatenate S100000x176 1 [⟨S100000x64, (V (Proc.devRef .tc main_arg0))⟩, ⟨S100000x64, (V (Proc.devRef .tc main_v35))⟩, ⟨S100000x32, (V (Proc.devRef .tc main_v71))⟩, ⟨S100000x16, (V (Proc.devRef .tc main_v107))⟩] concatenates_S100000x64_S100000x64_S100000x32_S100000x16_S100000x176_d1 := D_res V

theorem tail_C3 (V : Valuation τ sig (Elt F)) :
    after (C3 ++ (D)) V (Proc.devRef .tc main_v108)
      = concatenate S100000x176 1 [⟨S100000x64, (V (Proc.devRef .tc main_arg0))⟩, ⟨S100000x64, (V (Proc.devRef .tc main_v35))⟩, ⟨S100000x32, (V (Proc.devRef .tc main_v71))⟩, ⟨S100000x16, (layerNorm16 (V (Proc.devRef .tc main_v99)))⟩] concatenates_S100000x64_S100000x64_S100000x32_S100000x16_S100000x176_d1 := by
  rw [Stretches.after_append, tail_D, C3_frame _ (r := main_arg0) (by decide),
    C3_frame _ (r := main_v35) (by decide), C3_frame _ (r := main_v71) (by decide), C3_res]

theorem tail_B3 (V : Valuation τ sig (Elt F)) :
    after (B3 ++ (C3 ++ (D))) V (Proc.devRef .tc main_v108)
      = concatenate S100000x176 1 [⟨S100000x64, (V (Proc.devRef .tc main_arg0))⟩, ⟨S100000x64, (V (Proc.devRef .tc main_v35))⟩, ⟨S100000x32, (V (Proc.devRef .tc main_v71))⟩, ⟨S100000x16, (layerNorm16 (layerEgo32x16 (V (Proc.devRef .tc main_v63)) (V (Proc.devRef .tc main_v84)) (V (Proc.devRef .tc main_arg9)) (V (Proc.devRef .tc main_arg10)) (V (Proc.devRef .tc main_arg11)) (V (Proc.devRef .tc main_arg12))))⟩] concatenates_S100000x64_S100000x64_S100000x32_S100000x16_S100000x176_d1 := by
  rw [Stretches.after_append, tail_C3, B3_frame _ (r := main_arg0) (by decide),
    B3_frame _ (r := main_v35) (by decide), B3_frame _ (r := main_v71) (by decide), B3_res]

theorem tail_A3 (V : Valuation τ sig (Elt F)) :
    after (A3 ++ (B3 ++ (C3 ++ (D)))) V (Proc.devRef .tc main_v108)
      = concatenate S100000x176 1 [⟨S100000x64, (V (Proc.devRef .tc main_arg0))⟩, ⟨S100000x64, (V (Proc.devRef .tc main_v35))⟩, ⟨S100000x32, (V (Proc.devRef .tc main_v71))⟩, ⟨S100000x16, (layerNorm16 (layerEgo32x16 (V (Proc.devRef .tc main_v63)) (spmm32 (V (Proc.devRef .tc main_arg13)) (V (Proc.devRef .tc main_arg14)) (V (Proc.devRef .tc main_arg15)) (V (Proc.devRef .tc main_v63))) (V (Proc.devRef .tc main_arg9)) (V (Proc.devRef .tc main_arg10)) (V (Proc.devRef .tc main_arg11)) (V (Proc.devRef .tc main_arg12))))⟩] concatenates_S100000x64_S100000x64_S100000x32_S100000x16_S100000x176_d1 := by
  rw [Stretches.after_append, tail_B3, A3_frame _ (r := main_arg0) (by decide),
    A3_frame _ (r := main_v35) (by decide), A3_frame _ (r := main_v71) (by decide), A3_frame _ (r := main_v63) (by decide),
    A3_res, A3_frame _ (r := main_arg9) (by decide), A3_frame _ (r := main_arg10) (by decide),
    A3_frame _ (r := main_arg11) (by decide), A3_frame _ (r := main_arg12) (by decide)]

theorem tail_C2 (V : Valuation τ sig (Elt F)) :
    after (C2 ++ (A3 ++ (B3 ++ (C3 ++ (D))))) V (Proc.devRef .tc main_v108)
      = concatenate S100000x176 1 [⟨S100000x64, (V (Proc.devRef .tc main_arg0))⟩, ⟨S100000x64, (V (Proc.devRef .tc main_v35))⟩, ⟨S100000x32, (layerNorm32 (V (Proc.devRef .tc main_v63)))⟩, ⟨S100000x16, (layerNorm16 (layerEgo32x16 (V (Proc.devRef .tc main_v63)) (spmm32 (V (Proc.devRef .tc main_arg13)) (V (Proc.devRef .tc main_arg14)) (V (Proc.devRef .tc main_arg15)) (V (Proc.devRef .tc main_v63))) (V (Proc.devRef .tc main_arg9)) (V (Proc.devRef .tc main_arg10)) (V (Proc.devRef .tc main_arg11)) (V (Proc.devRef .tc main_arg12))))⟩] concatenates_S100000x64_S100000x64_S100000x32_S100000x16_S100000x176_d1 := by
  rw [Stretches.after_append, tail_A3, C2_frame _ (r := main_arg0) (by decide),
    C2_frame _ (r := main_v35) (by decide), C2_res, C2_frame _ (r := main_v63) (by decide),
    C2_frame _ (r := main_arg13) (by decide), C2_frame _ (r := main_arg14) (by decide), C2_frame _ (r := main_arg15) (by decide),
    C2_frame _ (r := main_arg9) (by decide), C2_frame _ (r := main_arg10) (by decide), C2_frame _ (r := main_arg11) (by decide),
    C2_frame _ (r := main_arg12) (by decide)]

theorem tail_B2 (V : Valuation τ sig (Elt F)) :
    after (B2 ++ (C2 ++ (A3 ++ (B3 ++ (C3 ++ (D)))))) V (Proc.devRef .tc main_v108)
      = concatenate S100000x176 1 [⟨S100000x64, (V (Proc.devRef .tc main_arg0))⟩, ⟨S100000x64, (V (Proc.devRef .tc main_v35))⟩, ⟨S100000x32, (layerNorm32 (layerEgo64x32 (V (Proc.devRef .tc main_v27)) (V (Proc.devRef .tc main_v48)) (V (Proc.devRef .tc main_arg5)) (V (Proc.devRef .tc main_arg6)) (V (Proc.devRef .tc main_arg7)) (V (Proc.devRef .tc main_arg8))))⟩, ⟨S100000x16, (layerNorm16 (layerEgo32x16 (layerEgo64x32 (V (Proc.devRef .tc main_v27)) (V (Proc.devRef .tc main_v48)) (V (Proc.devRef .tc main_arg5)) (V (Proc.devRef .tc main_arg6)) (V (Proc.devRef .tc main_arg7)) (V (Proc.devRef .tc main_arg8))) (spmm32 (V (Proc.devRef .tc main_arg13)) (V (Proc.devRef .tc main_arg14)) (V (Proc.devRef .tc main_arg15)) (layerEgo64x32 (V (Proc.devRef .tc main_v27)) (V (Proc.devRef .tc main_v48)) (V (Proc.devRef .tc main_arg5)) (V (Proc.devRef .tc main_arg6)) (V (Proc.devRef .tc main_arg7)) (V (Proc.devRef .tc main_arg8)))) (V (Proc.devRef .tc main_arg9)) (V (Proc.devRef .tc main_arg10)) (V (Proc.devRef .tc main_arg11)) (V (Proc.devRef .tc main_arg12))))⟩] concatenates_S100000x64_S100000x64_S100000x32_S100000x16_S100000x176_d1 := by
  rw [Stretches.after_append, tail_C2, B2_frame _ (r := main_arg0) (by decide),
    B2_frame _ (r := main_v35) (by decide), B2_res, B2_frame _ (r := main_arg13) (by decide),
    B2_frame _ (r := main_arg14) (by decide), B2_frame _ (r := main_arg15) (by decide), B2_frame _ (r := main_arg9) (by decide),
    B2_frame _ (r := main_arg10) (by decide), B2_frame _ (r := main_arg11) (by decide), B2_frame _ (r := main_arg12) (by decide)]

theorem tail_A2 (V : Valuation τ sig (Elt F)) :
    after (A2 ++ (B2 ++ (C2 ++ (A3 ++ (B3 ++ (C3 ++ (D))))))) V (Proc.devRef .tc main_v108)
      = concatenate S100000x176 1 [⟨S100000x64, (V (Proc.devRef .tc main_arg0))⟩, ⟨S100000x64, (V (Proc.devRef .tc main_v35))⟩, ⟨S100000x32, (layerNorm32 (layerEgo64x32 (V (Proc.devRef .tc main_v27)) (spmm64 (V (Proc.devRef .tc main_arg13)) (V (Proc.devRef .tc main_arg14)) (V (Proc.devRef .tc main_arg15)) (V (Proc.devRef .tc main_v27))) (V (Proc.devRef .tc main_arg5)) (V (Proc.devRef .tc main_arg6)) (V (Proc.devRef .tc main_arg7)) (V (Proc.devRef .tc main_arg8))))⟩, ⟨S100000x16, (layerNorm16 (layerEgo32x16 (layerEgo64x32 (V (Proc.devRef .tc main_v27)) (spmm64 (V (Proc.devRef .tc main_arg13)) (V (Proc.devRef .tc main_arg14)) (V (Proc.devRef .tc main_arg15)) (V (Proc.devRef .tc main_v27))) (V (Proc.devRef .tc main_arg5)) (V (Proc.devRef .tc main_arg6)) (V (Proc.devRef .tc main_arg7)) (V (Proc.devRef .tc main_arg8))) (spmm32 (V (Proc.devRef .tc main_arg13)) (V (Proc.devRef .tc main_arg14)) (V (Proc.devRef .tc main_arg15)) (layerEgo64x32 (V (Proc.devRef .tc main_v27)) (spmm64 (V (Proc.devRef .tc main_arg13)) (V (Proc.devRef .tc main_arg14)) (V (Proc.devRef .tc main_arg15)) (V (Proc.devRef .tc main_v27))) (V (Proc.devRef .tc main_arg5)) (V (Proc.devRef .tc main_arg6)) (V (Proc.devRef .tc main_arg7)) (V (Proc.devRef .tc main_arg8)))) (V (Proc.devRef .tc main_arg9)) (V (Proc.devRef .tc main_arg10)) (V (Proc.devRef .tc main_arg11)) (V (Proc.devRef .tc main_arg12))))⟩] concatenates_S100000x64_S100000x64_S100000x32_S100000x16_S100000x176_d1 := by
  rw [Stretches.after_append, tail_B2, A2_frame _ (r := main_arg0) (by decide),
    A2_frame _ (r := main_v35) (by decide), A2_frame _ (r := main_v27) (by decide), A2_res,
    A2_frame _ (r := main_arg5) (by decide), A2_frame _ (r := main_arg6) (by decide), A2_frame _ (r := main_arg7) (by decide),
    A2_frame _ (r := main_arg8) (by decide), A2_frame _ (r := main_arg13) (by decide), A2_frame _ (r := main_arg14) (by decide),
    A2_frame _ (r := main_arg15) (by decide), A2_frame _ (r := main_arg9) (by decide), A2_frame _ (r := main_arg10) (by decide),
    A2_frame _ (r := main_arg11) (by decide), A2_frame _ (r := main_arg12) (by decide)]

theorem tail_C1 (V : Valuation τ sig (Elt F)) :
    after (C1 ++ (A2 ++ (B2 ++ (C2 ++ (A3 ++ (B3 ++ (C3 ++ (D)))))))) V (Proc.devRef .tc main_v108)
      = concatenate S100000x176 1 [⟨S100000x64, (V (Proc.devRef .tc main_arg0))⟩, ⟨S100000x64, (layerNorm64 (V (Proc.devRef .tc main_v27)))⟩, ⟨S100000x32, (layerNorm32 (layerEgo64x32 (V (Proc.devRef .tc main_v27)) (spmm64 (V (Proc.devRef .tc main_arg13)) (V (Proc.devRef .tc main_arg14)) (V (Proc.devRef .tc main_arg15)) (V (Proc.devRef .tc main_v27))) (V (Proc.devRef .tc main_arg5)) (V (Proc.devRef .tc main_arg6)) (V (Proc.devRef .tc main_arg7)) (V (Proc.devRef .tc main_arg8))))⟩, ⟨S100000x16, (layerNorm16 (layerEgo32x16 (layerEgo64x32 (V (Proc.devRef .tc main_v27)) (spmm64 (V (Proc.devRef .tc main_arg13)) (V (Proc.devRef .tc main_arg14)) (V (Proc.devRef .tc main_arg15)) (V (Proc.devRef .tc main_v27))) (V (Proc.devRef .tc main_arg5)) (V (Proc.devRef .tc main_arg6)) (V (Proc.devRef .tc main_arg7)) (V (Proc.devRef .tc main_arg8))) (spmm32 (V (Proc.devRef .tc main_arg13)) (V (Proc.devRef .tc main_arg14)) (V (Proc.devRef .tc main_arg15)) (layerEgo64x32 (V (Proc.devRef .tc main_v27)) (spmm64 (V (Proc.devRef .tc main_arg13)) (V (Proc.devRef .tc main_arg14)) (V (Proc.devRef .tc main_arg15)) (V (Proc.devRef .tc main_v27))) (V (Proc.devRef .tc main_arg5)) (V (Proc.devRef .tc main_arg6)) (V (Proc.devRef .tc main_arg7)) (V (Proc.devRef .tc main_arg8)))) (V (Proc.devRef .tc main_arg9)) (V (Proc.devRef .tc main_arg10)) (V (Proc.devRef .tc main_arg11)) (V (Proc.devRef .tc main_arg12))))⟩] concatenates_S100000x64_S100000x64_S100000x32_S100000x16_S100000x176_d1 := by
  rw [Stretches.after_append, tail_A2, C1_frame _ (r := main_arg0) (by decide),
    C1_res, C1_frame _ (r := main_v27) (by decide), C1_frame _ (r := main_arg13) (by decide),
    C1_frame _ (r := main_arg14) (by decide), C1_frame _ (r := main_arg15) (by decide), C1_frame _ (r := main_arg5) (by decide),
    C1_frame _ (r := main_arg6) (by decide), C1_frame _ (r := main_arg7) (by decide), C1_frame _ (r := main_arg8) (by decide),
    C1_frame _ (r := main_arg9) (by decide), C1_frame _ (r := main_arg10) (by decide), C1_frame _ (r := main_arg11) (by decide),
    C1_frame _ (r := main_arg12) (by decide)]

theorem tail_B1 (V : Valuation τ sig (Elt F)) :
    after (B1 ++ (C1 ++ (A2 ++ (B2 ++ (C2 ++ (A3 ++ (B3 ++ (C3 ++ (D))))))))) V (Proc.devRef .tc main_v108)
      = concatenate S100000x176 1 [⟨S100000x64, (V (Proc.devRef .tc main_arg0))⟩, ⟨S100000x64, (layerNorm64 (layerEgo64x64 (V (Proc.devRef .tc main_arg0)) (V (Proc.devRef .tc main_v12)) (V (Proc.devRef .tc main_arg1)) (V (Proc.devRef .tc main_arg2)) (V (Proc.devRef .tc main_arg3)) (V (Proc.devRef .tc main_arg4))))⟩, ⟨S100000x32, (layerNorm32 (layerEgo64x32 (layerEgo64x64 (V (Proc.devRef .tc main_arg0)) (V (Proc.devRef .tc main_v12)) (V (Proc.devRef .tc main_arg1)) (V (Proc.devRef .tc main_arg2)) (V (Proc.devRef .tc main_arg3)) (V (Proc.devRef .tc main_arg4))) (spmm64 (V (Proc.devRef .tc main_arg13)) (V (Proc.devRef .tc main_arg14)) (V (Proc.devRef .tc main_arg15)) (layerEgo64x64 (V (Proc.devRef .tc main_arg0)) (V (Proc.devRef .tc main_v12)) (V (Proc.devRef .tc main_arg1)) (V (Proc.devRef .tc main_arg2)) (V (Proc.devRef .tc main_arg3)) (V (Proc.devRef .tc main_arg4)))) (V (Proc.devRef .tc main_arg5)) (V (Proc.devRef .tc main_arg6)) (V (Proc.devRef .tc main_arg7)) (V (Proc.devRef .tc main_arg8))))⟩, ⟨S100000x16, (layerNorm16 (layerEgo32x16 (layerEgo64x32 (layerEgo64x64 (V (Proc.devRef .tc main_arg0)) (V (Proc.devRef .tc main_v12)) (V (Proc.devRef .tc main_arg1)) (V (Proc.devRef .tc main_arg2)) (V (Proc.devRef .tc main_arg3)) (V (Proc.devRef .tc main_arg4))) (spmm64 (V (Proc.devRef .tc main_arg13)) (V (Proc.devRef .tc main_arg14)) (V (Proc.devRef .tc main_arg15)) (layerEgo64x64 (V (Proc.devRef .tc main_arg0)) (V (Proc.devRef .tc main_v12)) (V (Proc.devRef .tc main_arg1)) (V (Proc.devRef .tc main_arg2)) (V (Proc.devRef .tc main_arg3)) (V (Proc.devRef .tc main_arg4)))) (V (Proc.devRef .tc main_arg5)) (V (Proc.devRef .tc main_arg6)) (V (Proc.devRef .tc main_arg7)) (V (Proc.devRef .tc main_arg8))) (spmm32 (V (Proc.devRef .tc main_arg13)) (V (Proc.devRef .tc main_arg14)) (V (Proc.devRef .tc main_arg15)) (layerEgo64x32 (layerEgo64x64 (V (Proc.devRef .tc main_arg0)) (V (Proc.devRef .tc main_v12)) (V (Proc.devRef .tc main_arg1)) (V (Proc.devRef .tc main_arg2)) (V (Proc.devRef .tc main_arg3)) (V (Proc.devRef .tc main_arg4))) (spmm64 (V (Proc.devRef .tc main_arg13)) (V (Proc.devRef .tc main_arg14)) (V (Proc.devRef .tc main_arg15)) (layerEgo64x64 (V (Proc.devRef .tc main_arg0)) (V (Proc.devRef .tc main_v12)) (V (Proc.devRef .tc main_arg1)) (V (Proc.devRef .tc main_arg2)) (V (Proc.devRef .tc main_arg3)) (V (Proc.devRef .tc main_arg4)))) (V (Proc.devRef .tc main_arg5)) (V (Proc.devRef .tc main_arg6)) (V (Proc.devRef .tc main_arg7)) (V (Proc.devRef .tc main_arg8)))) (V (Proc.devRef .tc main_arg9)) (V (Proc.devRef .tc main_arg10)) (V (Proc.devRef .tc main_arg11)) (V (Proc.devRef .tc main_arg12))))⟩] concatenates_S100000x64_S100000x64_S100000x32_S100000x16_S100000x176_d1 := by
  rw [Stretches.after_append, tail_C1, B1_frame _ (r := main_arg0) (by decide),
    B1_res, B1_frame _ (r := main_arg13) (by decide), B1_frame _ (r := main_arg14) (by decide),
    B1_frame _ (r := main_arg15) (by decide), B1_frame _ (r := main_arg5) (by decide), B1_frame _ (r := main_arg6) (by decide),
    B1_frame _ (r := main_arg7) (by decide), B1_frame _ (r := main_arg8) (by decide), B1_frame _ (r := main_arg9) (by decide),
    B1_frame _ (r := main_arg10) (by decide), B1_frame _ (r := main_arg11) (by decide), B1_frame _ (r := main_arg12) (by decide)]

theorem tail_A1 (V : Valuation τ sig (Elt F)) :
    after (A1 ++ (B1 ++ (C1 ++ (A2 ++ (B2 ++ (C2 ++ (A3 ++ (B3 ++ (C3 ++ (D)))))))))) V (Proc.devRef .tc main_v108)
      = concatenate S100000x176 1 [⟨S100000x64, (V (Proc.devRef .tc main_arg0))⟩, ⟨S100000x64, (layerNorm64 (layerEgo64x64 (V (Proc.devRef .tc main_arg0)) (spmm64 (V (Proc.devRef .tc main_arg13)) (V (Proc.devRef .tc main_arg14)) (V (Proc.devRef .tc main_arg15)) (V (Proc.devRef .tc main_arg0))) (V (Proc.devRef .tc main_arg1)) (V (Proc.devRef .tc main_arg2)) (V (Proc.devRef .tc main_arg3)) (V (Proc.devRef .tc main_arg4))))⟩, ⟨S100000x32, (layerNorm32 (layerEgo64x32 (layerEgo64x64 (V (Proc.devRef .tc main_arg0)) (spmm64 (V (Proc.devRef .tc main_arg13)) (V (Proc.devRef .tc main_arg14)) (V (Proc.devRef .tc main_arg15)) (V (Proc.devRef .tc main_arg0))) (V (Proc.devRef .tc main_arg1)) (V (Proc.devRef .tc main_arg2)) (V (Proc.devRef .tc main_arg3)) (V (Proc.devRef .tc main_arg4))) (spmm64 (V (Proc.devRef .tc main_arg13)) (V (Proc.devRef .tc main_arg14)) (V (Proc.devRef .tc main_arg15)) (layerEgo64x64 (V (Proc.devRef .tc main_arg0)) (spmm64 (V (Proc.devRef .tc main_arg13)) (V (Proc.devRef .tc main_arg14)) (V (Proc.devRef .tc main_arg15)) (V (Proc.devRef .tc main_arg0))) (V (Proc.devRef .tc main_arg1)) (V (Proc.devRef .tc main_arg2)) (V (Proc.devRef .tc main_arg3)) (V (Proc.devRef .tc main_arg4)))) (V (Proc.devRef .tc main_arg5)) (V (Proc.devRef .tc main_arg6)) (V (Proc.devRef .tc main_arg7)) (V (Proc.devRef .tc main_arg8))))⟩, ⟨S100000x16, (layerNorm16 (layerEgo32x16 (layerEgo64x32 (layerEgo64x64 (V (Proc.devRef .tc main_arg0)) (spmm64 (V (Proc.devRef .tc main_arg13)) (V (Proc.devRef .tc main_arg14)) (V (Proc.devRef .tc main_arg15)) (V (Proc.devRef .tc main_arg0))) (V (Proc.devRef .tc main_arg1)) (V (Proc.devRef .tc main_arg2)) (V (Proc.devRef .tc main_arg3)) (V (Proc.devRef .tc main_arg4))) (spmm64 (V (Proc.devRef .tc main_arg13)) (V (Proc.devRef .tc main_arg14)) (V (Proc.devRef .tc main_arg15)) (layerEgo64x64 (V (Proc.devRef .tc main_arg0)) (spmm64 (V (Proc.devRef .tc main_arg13)) (V (Proc.devRef .tc main_arg14)) (V (Proc.devRef .tc main_arg15)) (V (Proc.devRef .tc main_arg0))) (V (Proc.devRef .tc main_arg1)) (V (Proc.devRef .tc main_arg2)) (V (Proc.devRef .tc main_arg3)) (V (Proc.devRef .tc main_arg4)))) (V (Proc.devRef .tc main_arg5)) (V (Proc.devRef .tc main_arg6)) (V (Proc.devRef .tc main_arg7)) (V (Proc.devRef .tc main_arg8))) (spmm32 (V (Proc.devRef .tc main_arg13)) (V (Proc.devRef .tc main_arg14)) (V (Proc.devRef .tc main_arg15)) (layerEgo64x32 (layerEgo64x64 (V (Proc.devRef .tc main_arg0)) (spmm64 (V (Proc.devRef .tc main_arg13)) (V (Proc.devRef .tc main_arg14)) (V (Proc.devRef .tc main_arg15)) (V (Proc.devRef .tc main_arg0))) (V (Proc.devRef .tc main_arg1)) (V (Proc.devRef .tc main_arg2)) (V (Proc.devRef .tc main_arg3)) (V (Proc.devRef .tc main_arg4))) (spmm64 (V (Proc.devRef .tc main_arg13)) (V (Proc.devRef .tc main_arg14)) (V (Proc.devRef .tc main_arg15)) (layerEgo64x64 (V (Proc.devRef .tc main_arg0)) (spmm64 (V (Proc.devRef .tc main_arg13)) (V (Proc.devRef .tc main_arg14)) (V (Proc.devRef .tc main_arg15)) (V (Proc.devRef .tc main_arg0))) (V (Proc.devRef .tc main_arg1)) (V (Proc.devRef .tc main_arg2)) (V (Proc.devRef .tc main_arg3)) (V (Proc.devRef .tc main_arg4)))) (V (Proc.devRef .tc main_arg5)) (V (Proc.devRef .tc main_arg6)) (V (Proc.devRef .tc main_arg7)) (V (Proc.devRef .tc main_arg8)))) (V (Proc.devRef .tc main_arg9)) (V (Proc.devRef .tc main_arg10)) (V (Proc.devRef .tc main_arg11)) (V (Proc.devRef .tc main_arg12))))⟩] concatenates_S100000x64_S100000x64_S100000x32_S100000x16_S100000x176_d1 := by
  rw [Stretches.after_append, tail_B1, A1_frame _ (r := main_arg0) (by decide),
    A1_res, A1_frame _ (r := main_arg1) (by decide), A1_frame _ (r := main_arg2) (by decide),
    A1_frame _ (r := main_arg3) (by decide), A1_frame _ (r := main_arg4) (by decide), A1_frame _ (r := main_arg13) (by decide),
    A1_frame _ (r := main_arg14) (by decide), A1_frame _ (r := main_arg15) (by decide), A1_frame _ (r := main_arg5) (by decide),
    A1_frame _ (r := main_arg6) (by decide), A1_frame _ (r := main_arg7) (by decide), A1_frame _ (r := main_arg8) (by decide),
    A1_frame _ (r := main_arg9) (by decide), A1_frame _ (r := main_arg10) (by decide), A1_frame _ (r := main_arg11) (by decide),
    A1_frame _ (r := main_arg12) (by decide)]

/-! ## The whole line -/

/-- After the whole line, from any memory, the result buffer holds the whole function of the sixteen argument
    buffers' contents. -/
theorem result_eq (V : Valuation τ sig (Elt F)) :
    StableHlo.after ops V (Proc.devRef .tc main_v108) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  (congrArg (fun l => after l V (Proc.devRef .tc main_v108)) ops_split).trans ((tail_A1 V).trans rfl)

/-- The same with the function written out: the concatenation of the input with the three layers' normalized
    outputs, each layer applied to the previous layer's output before normalization. -/
theorem result_eq_concat (V : Valuation τ sig (Elt F)) :
    StableHlo.after ops V (Proc.devRef .tc main_v108)
      = concatenate S100000x176 1
          [⟨S100000x64, V (Proc.devRef .tc main_arg0)⟩,
           ⟨S100000x64, layerNorm64 (ego64x64 (V (Proc.devRef .tc main_arg13)) (V (Proc.devRef .tc main_arg14)) (V (Proc.devRef .tc main_arg15)) (V (Proc.devRef .tc main_arg0)) (V (Proc.devRef .tc main_arg1)) (V (Proc.devRef .tc main_arg2)) (V (Proc.devRef .tc main_arg3)) (V (Proc.devRef .tc main_arg4)))⟩,
           ⟨S100000x32, layerNorm32 (ego64x32 (V (Proc.devRef .tc main_arg13)) (V (Proc.devRef .tc main_arg14)) (V (Proc.devRef .tc main_arg15)) (ego64x64 (V (Proc.devRef .tc main_arg13)) (V (Proc.devRef .tc main_arg14)) (V (Proc.devRef .tc main_arg15)) (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6)) (V (Proc.devRef .tc main_arg7)) (V (Proc.devRef .tc main_arg8)))⟩,
           ⟨S100000x16, layerNorm16 (ego32x16 (V (Proc.devRef .tc main_arg13)) (V (Proc.devRef .tc main_arg14)) (V (Proc.devRef .tc main_arg15)) (ego64x32 (V (Proc.devRef .tc main_arg13)) (V (Proc.devRef .tc main_arg14)) (V (Proc.devRef .tc main_arg15)) (ego64x64 (V (Proc.devRef .tc main_arg13)) (V (Proc.devRef .tc main_arg14)) (V (Proc.devRef .tc main_arg15)) (V (Proc.devRef .tc main_arg0)) (V (Proc.devRef .tc main_arg1)) (V (Proc.devRef .tc main_arg2)) (V (Proc.devRef .tc main_arg3)) (V (Proc.devRef .tc main_arg4))) (V (Proc.devRef .tc main_arg5)) (V (Proc.devRef .tc main_arg6)) (V (Proc.devRef .tc main_arg7)) (V (Proc.devRef .tc main_arg8))) (V (Proc.devRef .tc main_arg9)) (V (Proc.devRef .tc main_arg10)) (V (Proc.devRef .tc main_arg11)) (V (Proc.devRef .tc main_arg12)))⟩]
          concatenates_S100000x64_S100000x64_S100000x32_S100000x16_S100000x176_d1 :=
  result_eq V

end Cert.ReferenceIdeal.RefRun

end
-- ==== Proof.RefOut.lean ====
/-
  The reference program's run with its result as the whole function of the launch's argument arrays.

  The run leaves the result buffer at the fold of @main's operations over the launch contents; the fold at the
  result buffer is the whole function of the sixteen argument buffers' contents; so every weakly fair execution
  ends with the result at that function of the arguments as they were at launch, and the arguments unchanged.
-/
import proofs.«145267_j3582002725212_1_alg».proof.Proof.RefRun
import proofs.«145267_j3582002725212_1_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem run_refOut (m : (ℓ : Loc nD τ sig) → Buf (Elt F) ℓ) (ρ : Dev nD → PrngReg) :
    θ_run (Cert.ReferenceIdeal.defs (F := F)) (onTc (τ := τ) (main (F := F))) ⟨m, fun _ => 0, ρ⟩ (fun r => ∀ c : Dev nD,
      r.2.mem ((c.tc : Thread nD τ).loc main_v108)
        = refOut
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c).1.trans (result_eq _), (h c).2⟩) (run m ρ)

end Cert.ReferenceIdeal.RefRun

end
-- ==== Proof.RefLayer.lean ====
/-
  The reference's three layers are the bi-interaction layer.

  The reference computes each layer on the whole arrays: the embeddings plus, and times, their neighbour sums,
  contracted with the transposed weight matrices, shifted by the bias vectors broadcast down the rows, passed through the
  outlined leaky rectifier, and added; then every row divided by the larger of its Euclidean length and a small
  constant. As whole arrays these are Kgat.ego of the arguments, the bias vectors read entry by entry, and
  Kgat.normed of the new embedding. Layers: [100000, 64] → 64, [100000, 64] → 32, [100000, 32] → 16.
-/
import proofs.«145267_j3582002725212_1_alg».proof.Proof.RefDefs
import proofs.«145267_j3582002725212_1_alg».proof.Proof.LibKgatLayer
import proofs.«145267_j3582002725212_1_alg».proof.Proof.LibKgatSpell

noncomputable section

namespace Cert.ReferenceIdeal.RefLayer

open Idealize.ShloMosaic Idealize.ShloMosaic.ValueIdx Cert.ReferenceIdeal Cert.ReferenceIdeal.Gen Cert.ReferenceIdeal.RefRun

/-- The first layer's product record contracts the operand's columns with the transposed weights' rows. -/
theorem plain64x64 : DenseVec.Plain dot_S100000x64_S64x64_S100000x64_1_0_0_1_n_n := by plain_record

/-- The reference's first layer, before normalisation, is the layer's new embedding. -/
theorem layerEgo64x64_eq (ego side : FVec Ideal S100000x64 .f32) (w1 : FVec Ideal S64x64 .f32) (b1 : FVec Ideal S64 .f32)
    (w2 : FVec Ideal S64x64 .f32) (b2 : FVec Ideal S64 .f32) :
    layerEgo64x64 (F := Ideal) ego side w1 b1 w2 b2
      = Kgat.ego ego side w1 w2 (fun j => b1 (ix1 j)) (fun j => b2 (ix1 j)) := by
  unfold layerEgo64x64 leaky64
  exact Kgat.host_ego plain64x64 ego side w1 w2 b1 b2 _ _ _ _

/-- The reference's row normalisation of a [100000, 64] array is the normalised embedding. -/
theorem layerNorm64_eq (e : FVec Ideal S100000x64 .f32) : layerNorm64 (F := Ideal) e = Kgat.normed e := by
  unfold layerNorm64
  exact Kgat.host_normed e _ (by decide) _ _ _ _

/-- The second layer's product record contracts the operand's columns with the transposed weights' rows. -/
theorem plain64x32 : DenseVec.Plain dot_S100000x64_S64x32_S100000x32_1_0_0_1_n_n := by plain_record

/-- The reference's second layer, before normalisation, is the layer's new embedding. -/
theorem layerEgo64x32_eq (ego side : FVec Ideal S100000x64 .f32) (w1 : FVec Ideal S32x64 .f32) (b1 : FVec Ideal S32 .f32)
    (w2 : FVec Ideal S32x64 .f32) (b2 : FVec Ideal S32 .f32) :
    layerEgo64x32 (F := Ideal) ego side w1 b1 w2 b2
      = Kgat.ego ego side w1 w2 (fun j => b1 (ix1 j)) (fun j => b2 (ix1 j)) := by
  unfold layerEgo64x32 leaky32
  exact Kgat.host_ego plain64x32 ego side w1 w2 b1 b2 _ _ _ _

/-- The reference's row normalisation of a [100000, 32] array is the normalised embedding. -/
theorem layerNorm32_eq (e : FVec Ideal S100000x32 .f32) : layerNorm32 (F := Ideal) e = Kgat.normed e := by
  unfold layerNorm32
  exact Kgat.host_normed e _ (by decide) _ _ _ _

/-- The third layer's product record contracts the operand's columns with the transposed weights' rows. -/
theorem plain32x16 : DenseVec.Plain dot_S100000x32_S32x16_S100000x16_1_0_0_1_n_n := by plain_record

/-- The reference's third layer, before normalisation, is the layer's new embedding. -/
theorem layerEgo32x16_eq (ego side : FVec Ideal S100000x32 .f32) (w1 : FVec Ideal S16x32 .f32) (b1 : FVec Ideal S16 .f32)
    (w2 : FVec Ideal S16x32 .f32) (b2 : FVec Ideal S16 .f32) :
    layerEgo32x16 (F := Ideal) ego side w1 b1 w2 b2
      = Kgat.ego ego side w1 w2 (fun j => b1 (ix1 j)) (fun j => b2 (ix1 j)) := by
  unfold layerEgo32x16 leaky16
  exact Kgat.host_ego plain32x16 ego side w1 w2 b1 b2 _ _ _ _

/-- The reference's row normalisation of a [100000, 16] array is the normalised embedding. -/
theorem layerNorm16_eq (e : FVec Ideal S100000x16 .f32) : layerNorm16 (F := Ideal) e = Kgat.normed e := by
  unfold layerNorm16
  exact Kgat.host_normed e _ (by decide) _ _ _ _

end Cert.ReferenceIdeal.RefLayer

end
-- ==== Proof.NetBridge.lean ====
/-
  The two programs' spellings of the whole network are one function.

  The reference writes the network as three layers on the whole arrays, each fed the previous layer's new embedding and
  its neighbour sum over the edge list, with the bias vectors broadcast down the rows; the kernel program writes the
  same three layers with the same host neighbour sums, the bias vectors viewed as one-row matrices. The neighbour sums
  are the same host operations over dimension records with equal fields; a vector viewed as a one-row matrix reads, at
  (0, j), the vector's entry j; each layer of either program is Kgat.ego and each normalisation Kgat.normed. So the
  two results — the input beside the three normalised embeddings — are equal as functions of the sixteen arguments.
-/
import proofs.«145267_j3582002725212_1_alg».proof.Proof.IdealSpec
import proofs.«145267_j3582002725212_1_alg».proof.Proof.RefDefs
import proofs.«145267_j3582002725212_1_alg».proof.Proof.RefLayer
import Idealize.ShloMosaic.Lib.ValueLayout

set_option maxRecDepth 16384

noncomputable section

namespace Cert.Bridge

open Idealize.ShloMosaic Idealize.ShloMosaic.ValueIdx

/-- The two programs' neighbour sums of a [100000, 64] array are the same host operations. -/
theorem spmm64_eq (ev : FVec Ideal Cert.ReferenceIdeal.S1200000 .f32) (er ec : IVec Cert.ReferenceIdeal.S1200000 32) (x : FVec Ideal Cert.ReferenceIdeal.S100000x64 .f32) :
    Cert.ReferenceIdeal.RefRun.spmm64 (F := Ideal) ev er ec x = Cert.KernelIdeal.Layers.side64 (F := Ideal) ev er ec x := rfl

/-- The two programs' neighbour sums of a [100000, 32] array are the same host operations. -/
theorem spmm32_eq (ev : FVec Ideal Cert.ReferenceIdeal.S1200000 .f32) (er ec : IVec Cert.ReferenceIdeal.S1200000 32) (x : FVec Ideal Cert.ReferenceIdeal.S100000x32 .f32) :
    Cert.ReferenceIdeal.RefRun.spmm32 (F := Ideal) ev er ec x = Cert.KernelIdeal.Layers.side32 (F := Ideal) ev er ec x := rfl

/-- A vector of 64 entries viewed as a one-row matrix reads, at (0, j), the vector's entry j. -/
theorem row64_eq (b : FVec Ideal Cert.ReferenceIdeal.S64 .f32) : Cert.KernelIdeal.Layers.row64 b = fun j => b (ix1 j) :=
  funext fun j => shapeCast_a_1a_apply b _ (0 : Fin 1) j

/-- A vector of 32 entries viewed as a one-row matrix reads, at (0, j), the vector's entry j. -/
theorem row32_eq (b : FVec Ideal Cert.ReferenceIdeal.S32 .f32) : Cert.KernelIdeal.Layers.row32 b = fun j => b (ix1 j) :=
  funext fun j => shapeCast_a_1a_apply b _ (0 : Fin 1) j

/-- A vector of 16 entries viewed as a one-row matrix reads, at (0, j), the vector's entry j. -/
theorem row16_eq (b : FVec Ideal Cert.ReferenceIdeal.S16 .f32) : Cert.KernelIdeal.Layers.row16 b = fun j => b (ix1 j) :=
  funext fun j => shapeCast_a_1a_apply b _ (0 : Fin 1) j

/-- The first layer's new embedding, in either program's spelling. -/
theorem ego64x64_eq (ev : FVec Ideal Cert.ReferenceIdeal.S1200000 .f32) (er ec : IVec Cert.ReferenceIdeal.S1200000 32) (x : FVec Ideal Cert.ReferenceIdeal.S100000x64 .f32)
    (w1 : FVec Ideal Cert.ReferenceIdeal.S64x64 .f32) (b1 : FVec Ideal Cert.ReferenceIdeal.S64 .f32) (w2 : FVec Ideal Cert.ReferenceIdeal.S64x64 .f32) (b2 : FVec Ideal Cert.ReferenceIdeal.S64 .f32) :
    Cert.ReferenceIdeal.RefRun.ego64x64 (F := Ideal) ev er ec x w1 b1 w2 b2 = Cert.KernelIdeal.Layers.feat1 ev er ec x w1 b1 w2 b2 := by
  unfold Cert.ReferenceIdeal.RefRun.ego64x64 Cert.KernelIdeal.Layers.feat1
  rw [Cert.ReferenceIdeal.RefLayer.layerEgo64x64_eq, spmm64_eq, row64_eq, row64_eq]

/-- The second layer's new embedding, in either program's spelling. -/
theorem ego64x32_eq (ev : FVec Ideal Cert.ReferenceIdeal.S1200000 .f32) (er ec : IVec Cert.ReferenceIdeal.S1200000 32) (x : FVec Ideal Cert.ReferenceIdeal.S100000x64 .f32)
    (w1 : FVec Ideal Cert.ReferenceIdeal.S32x64 .f32) (b1 : FVec Ideal Cert.ReferenceIdeal.S32 .f32) (w2 : FVec Ideal Cert.ReferenceIdeal.S32x64 .f32) (b2 : FVec Ideal Cert.ReferenceIdeal.S32 .f32) :
    Cert.ReferenceIdeal.RefRun.ego64x32 (F := Ideal) ev er ec x w1 b1 w2 b2 = Cert.KernelIdeal.Layers.feat2 ev er ec x w1 b1 w2 b2 := by
  unfold Cert.ReferenceIdeal.RefRun.ego64x32 Cert.KernelIdeal.Layers.feat2
  rw [Cert.ReferenceIdeal.RefLayer.layerEgo64x32_eq, spmm64_eq, row32_eq, row32_eq]

/-- The third layer's new embedding, in either program's spelling. -/
theorem ego32x16_eq (ev : FVec Ideal Cert.ReferenceIdeal.S1200000 .f32) (er ec : IVec Cert.ReferenceIdeal.S1200000 32) (x : FVec Ideal Cert.ReferenceIdeal.S100000x32 .f32)
    (w1 : FVec Ideal Cert.ReferenceIdeal.S16x32 .f32) (b1 : FVec Ideal Cert.ReferenceIdeal.S16 .f32) (w2 : FVec Ideal Cert.ReferenceIdeal.S16x32 .f32) (b2 : FVec Ideal Cert.ReferenceIdeal.S16 .f32) :
    Cert.ReferenceIdeal.RefRun.ego32x16 (F := Ideal) ev er ec x w1 b1 w2 b2 = Cert.KernelIdeal.Layers.feat3 ev er ec x w1 b1 w2 b2 := by
  unfold Cert.ReferenceIdeal.RefRun.ego32x16 Cert.KernelIdeal.Layers.feat3
  rw [Cert.ReferenceIdeal.RefLayer.layerEgo32x16_eq, spmm32_eq, row16_eq, row16_eq]

/-- The reference's result and the kernel program's are the same function of the sixteen argument arrays. -/
theorem refOut_eq_netOut (x : FVec Ideal Cert.ReferenceIdeal.S100000x64 .f32)
    (w1 : FVec Ideal Cert.ReferenceIdeal.S64x64 .f32) (b1 : FVec Ideal Cert.ReferenceIdeal.S64 .f32) (w2 : FVec Ideal Cert.ReferenceIdeal.S64x64 .f32) (b2 : FVec Ideal Cert.ReferenceIdeal.S64 .f32)
    (w3 : FVec Ideal Cert.ReferenceIdeal.S32x64 .f32) (b3 : FVec Ideal Cert.ReferenceIdeal.S32 .f32) (w4 : FVec Ideal Cert.ReferenceIdeal.S32x64 .f32) (b4 : FVec Ideal Cert.ReferenceIdeal.S32 .f32)
    (w5 : FVec Ideal Cert.ReferenceIdeal.S16x32 .f32) (b5 : FVec Ideal Cert.ReferenceIdeal.S16 .f32) (w6 : FVec Ideal Cert.ReferenceIdeal.S16x32 .f32) (b6 : FVec Ideal Cert.ReferenceIdeal.S16 .f32)
    (ev : FVec Ideal Cert.ReferenceIdeal.S1200000 .f32) (er ec : IVec Cert.ReferenceIdeal.S1200000 32) :
    Cert.ReferenceIdeal.RefRun.refOut (F := Ideal) x w1 b1 w2 b2 w3 b3 w4 b4 w5 b5 w6 b6 ev er ec
      = Cert.KernelIdeal.Layers.netOut x w1 b1 w2 b2 w3 b3 w4 b4 w5 b5 w6 b6 ev er ec := by
  unfold Cert.ReferenceIdeal.RefRun.refOut
  rw [Cert.ReferenceIdeal.RefLayer.layerNorm64_eq, Cert.ReferenceIdeal.RefLayer.layerNorm32_eq, Cert.ReferenceIdeal.RefLayer.layerNorm16_eq, ego64x64_eq, ego64x32_eq, ego32x16_eq]
  rfl

end Cert.Bridge

end
-- ==== Proof.lean ====
/-
  A three-layer graph network on a hundred thousand nodes. Each layer takes the node features x and their neighbour sum
  s (over the edge list: every edge carries the row of its column node, scaled by the edge's value, to its row node) to
  the new features  lrelu((x + s)·W1ᵀ + b1) + lrelu((x ∗ s)·W2ᵀ + b2)  and to their copy with every row divided by the
  larger of its Euclidean norm and 1e-12; the result lays the input features and the three normalised copies side by
  side. The kernel program computes the neighbour sums on the host and each layer on ten blocks of ten thousand rows,
  transposing the weights inside the block computation; the reference computes everything on the host. Read on the
  extended reals the two are the same function of the sixteen argument arrays: a row of a layer's output depends only on
  the same row of x and s, so the ten blocks are the ten row ranges of the whole-array layer; the matrix products are
  the same sums of the same products; the bias read as a one-row matrix is the bias vector. No law that needs finite
  entries is used, so the precondition is never opened.
-/
import proofs.«145267_j3582002725212_1_alg».proof.Defs
import proofs.«145267_j3582002725212_1_alg».proof.Proof.Gen.Kernel
import proofs.«145267_j3582002725212_1_alg».proof.Proof.Gen.KernelIdeal
import proofs.«145267_j3582002725212_1_alg».proof.Proof.Gen.ReferenceIdeal
import proofs.«145267_j3582002725212_1_alg».proof.Proof.Gen.Pre_finite_inputs
import proofs.«145267_j3582002725212_1_alg».proof.Proof.BitsFrame
import proofs.«145267_j3582002725212_1_alg».proof.Proof.IdealFrame
import proofs.«145267_j3582002725212_1_alg».proof.Proof.IdealOut
import proofs.«145267_j3582002725212_1_alg».proof.Proof.RefOut
import proofs.«145267_j3582002725212_1_alg».proof.Proof.NetBridge

noncomputable section

namespace Cert.Proof

open Idealize.ShloMosaic Idealize.ShloMosaic.TcCoe Idealize.SL.Sem

/-- The kernel program run on the machine words terminates without a fault and leaves its arguments unchanged. -/
theorem frame_k : Cert.frame_Kernel := Cert.Kernel.Layers.frame_k
/-- So does the kernel program read on the extended reals. -/
theorem frame_ki : Cert.frame_KernelIdeal := Cert.KernelIdeal.Layers.frame_ki
/-- So does the reference. -/
theorem frame_ri : Cert.frame_ReferenceIdeal := Cert.ReferenceIdeal.RefRun.frame_ri

/-- Nothing was rewritten in reading the kernel program on the extended reals. -/
theorem preserves : Cert.preserves_Kernel_KernelIdeal := trivial

/-- From memories that agree on the arguments both programs end with the network function of those arguments in their
    result buffers. -/
theorem algebraic : Cert.algebraic_KernelIdeal_ReferenceIdeal := by
  intro m ρ m' ρ' _ hagree
  refine ⟨fun c => Cert.KernelIdeal.Layers.W7 m ρ c (Proc.devRef .tc Cert.KernelIdeal.main_v48), ?_, ?_⟩
  · exact (θ_run (Cert.KernelIdeal.defs (F := Ideal)) _ _).mono (fun r h c =>
      ⟨h c _ (Cert.KernelIdeal.Layers.mem_uc Cert.KernelIdeal.main_v48 (by decide)),
       (h c _ (Cert.KernelIdeal.Layers.mem_uc Cert.KernelIdeal.main_arg0 (by decide))).trans (Cert.KernelIdeal.Layers.W7_main_arg0 m ρ c),
       (h c _ (Cert.KernelIdeal.Layers.mem_uc Cert.KernelIdeal.main_arg1 (by decide))).trans (Cert.KernelIdeal.Layers.W7_main_arg1 m ρ c),
       (h c _ (Cert.KernelIdeal.Layers.mem_uc Cert.KernelIdeal.main_arg2 (by decide))).trans (Cert.KernelIdeal.Layers.W7_main_arg2 m ρ c),
       (h c _ (Cert.KernelIdeal.Layers.mem_uc Cert.KernelIdeal.main_arg3 (by decide))).trans (Cert.KernelIdeal.Layers.W7_main_arg3 m ρ c),
       (h c _ (Cert.KernelIdeal.Layers.mem_uc Cert.KernelIdeal.main_arg4 (by decide))).trans (Cert.KernelIdeal.Layers.W7_main_arg4 m ρ c),
       (h c _ (Cert.KernelIdeal.Layers.mem_uc Cert.KernelIdeal.main_arg5 (by decide))).trans (Cert.KernelIdeal.Layers.W7_main_arg5 m ρ c),
       (h c _ (Cert.KernelIdeal.Layers.mem_uc Cert.KernelIdeal.main_arg6 (by decide))).trans (Cert.KernelIdeal.Layers.W7_main_arg6 m ρ c),
       (h c _ (Cert.KernelIdeal.Layers.mem_uc Cert.KernelIdeal.main_arg7 (by decide))).trans (Cert.KernelIdeal.Layers.W7_main_arg7 m ρ c),
       (h c _ (Cert.KernelIdeal.Layers.mem_uc Cert.KernelIdeal.main_arg8 (by decide))).trans (Cert.KernelIdeal.Layers.W7_main_arg8 m ρ c),
       (h c _ (Cert.KernelIdeal.Layers.mem_uc Cert.KernelIdeal.main_arg9 (by decide))).trans (Cert.KernelIdeal.Layers.W7_main_arg9 m ρ c),
       (h c _ (Cert.KernelIdeal.Layers.mem_uc Cert.KernelIdeal.main_arg10 (by decide))).trans (Cert.KernelIdeal.Layers.W7_main_arg10 m ρ c),
       (h c _ (Cert.KernelIdeal.Layers.mem_uc Cert.KernelIdeal.main_arg11 (by decide))).trans (Cert.KernelIdeal.Layers.W7_main_arg11 m ρ c),
       (h c _ (Cert.KernelIdeal.Layers.mem_uc Cert.KernelIdeal.main_arg12 (by decide))).trans (Cert.KernelIdeal.Layers.W7_main_arg12 m ρ c),
       (h c _ (Cert.KernelIdeal.Layers.mem_uc Cert.KernelIdeal.main_arg13 (by decide))).trans (Cert.KernelIdeal.Layers.W7_main_arg13 m ρ c),
       (h c _ (Cert.KernelIdeal.Layers.mem_uc Cert.KernelIdeal.main_arg14 (by decide))).trans (Cert.KernelIdeal.Layers.W7_main_arg14 m ρ c),
       (h c _ (Cert.KernelIdeal.Layers.mem_uc Cert.KernelIdeal.main_arg15 (by decide))).trans (Cert.KernelIdeal.Layers.W7_main_arg15 m ρ c)⟩)
      (Cert.KernelIdeal.Layers.run (F := Ideal) m ρ)
  · refine (θ_run (Cert.ReferenceIdeal.defs (F := Ideal)) _ _).mono (fun r h c => ⟨(h c).1.trans ?_, (h c).2⟩)
      (Cert.ReferenceIdeal.RefRun.run_refOut (F := Ideal) m' ρ')
    rw [Cert.Bridge.refOut_eq_netOut,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
    exact (Cert.KernelIdeal.Layers.out_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
